-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x32768 : Shape := ⟨2, ![128, 32768]⟩
abbrev S_ : Shape := ⟨0, ![]⟩

class Facts : Prop where
  bcast_S_S128x32768 : S_.BroadcastsInDim S128x32768 (![] : Fin 0 → Fin S128x32768.rank)
  reducesTo_S128x32768_S_d0_1 : S128x32768.ReducesTo [0, 1] S_
  h_S_ : 0 < S_.numel

variable [Facts]

def fn {F : FTy → Type} [FloatOps F] (main_arg0 : FVec F S128x32768 .f32) (main_arg1 : FVec F S128x32768 .f32) : IVec S_ 1 :=
  let main_v0 : FVec F S128x32768 .f32 := Host.absf main_arg0
  let main_cst : FVec F S_ .f32 := constant S_ .f32 0x7F800000#32
  let main_v1 : FVec F S128x32768 .f32 := broadcastInDim S128x32768 ![] bcast_S_S128x32768 main_cst
  let main_v2 : IVec S128x32768 1 := cmpf .olt main_v0 main_v1
  let main_c : IVec S_ 1 := constantI S_ 1 1#1
  let main_v3 : IVec S_ 1 := (fun x v => Host.reduce IntOp.andi x v reducesTo_S128x32768_S_d0_1 h_S_) main_v2 main_c
  let main_v4 : FVec F S128x32768 .f32 := Host.absf main_arg1
  let main_cst_0 : FVec F S_ .f32 := constant S_ .f32 0x7F800000#32
  let main_v5 : FVec F S128x32768 .f32 := broadcastInDim S128x32768 ![] bcast_S_S128x32768 main_cst_0
  let main_v6 : IVec S128x32768 1 := cmpf .olt main_v4 main_v5
  let main_c_1 : IVec S_ 1 := constantI S_ 1 1#1
  let main_v7 : IVec S_ 1 := (fun x v => Host.reduce IntOp.andi x v reducesTo_S128x32768_S_d0_1 h_S_) main_v6 main_c_1
  let main_v8 : IVec S_ 1 := andi main_v3 main_v7
  main_v8
-- ==== Kernel.lean ====
abbrev S128x32768 : Shape := ⟨2, ![128, 32768]⟩
abbrev S128x2x32768 : Shape := ⟨3, ![128, 2, 32768]⟩
abbrev S8192 : Shape := ⟨1, ![8192]⟩
abbrev S2x8192 : Shape := ⟨2, ![2, 8192]⟩
abbrev S16 : Shape := ⟨1, ![16]⟩
abbrev S1x16 : Shape := ⟨2, ![1, 16]⟩
abbrev S_ : Shape := ⟨0, ![]⟩
abbrev S1x8192 : Shape := ⟨2, ![1, 8192]⟩
abbrev S1x2x8192 : Shape := ⟨3, ![1, 2, 8192]⟩
abbrev S128x32768x2 : Shape := ⟨3, ![128, 32768, 2]⟩

abbrev nBuf : Table → Nat
  | .hbm => 4
  | .local .scVector .vmem => 3
  | _ => 0

abbrev bufTy : (tb : Table) → Fin (nBuf tb) → BufTy
  | .hbm, ⟨0, _⟩ => ⟨S128x32768, .f32⟩
  | .hbm, ⟨1, _⟩ => ⟨S128x32768, .f32⟩
  | .hbm, ⟨2, _⟩ => ⟨S128x2x32768, .f32⟩
  | .hbm, ⟨3, _⟩ => ⟨S128x32768x2, .f32⟩
  | .local .scVector .vmem, ⟨0, _⟩ => ⟨S8192, .f32⟩
  | .local .scVector .vmem, ⟨1, _⟩ => ⟨S8192, .f32⟩
  | .local .scVector .vmem, ⟨2, _⟩ => ⟨S2x8192, .f32⟩
  | _, _ => ⟨S128x32768, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c512_i32 : BitVec 32 := 512#32
  let v3 : BitVec 32 := Scalar.addi c0_i32_0 c512_i32
  let c1_i32 : BitVec 32 := 1#32
  ⟨c0_i32_0, v3, c1_i32⟩
def k0_off1 (k0_t1 : Fin k0_t1_loop.trips) : Fin 2 → Nat :=
  let c0_i32_7 : BitVec 32 := 0#32
  let v9 : Index := Scalar.indexCast c0_i32_7
  let c0_i32_0 : BitVec 32 := 0#32
  let c1_i32 : BitVec 32 := 1#32
  let arg8 : BitVec 32 := Scf.iv c0_i32_0 c1_i32 k0_t1
  let c16_i32 : BitVec 32 := 16#32
  let v8 : BitVec 32 := Scalar.muli arg8 c16_i32
  let v10 : Index := Scalar.indexCast v8
  ![0, v10.toNat]
@[reducible] def k0_t2_loop : Scf.Loop 32 :=
  let c0_i32_3 : BitVec 32 := 0#32
  let c4_i32_4 : BitVec 32 := 4#32
  let v5 : BitVec 32 := Scalar.addi c0_i32_3 c4_i32_4
  let c1_i32_5 : BitVec 32 := 1#32
  ⟨c0_i32_3, v5, c1_i32_5⟩
@[reducible] def k0_t3_loop : Scf.Loop 32 :=
  let c0_i32_8 : BitVec 32 := 0#32
  let c4_i32_9 : BitVec 32 := 4#32
  let v8 : BitVec 32 := Scalar.addi c0_i32_8 c4_i32_9
  let c1_i32_10 : BitVec 32 := 1#32
  ⟨c0_i32_8, v8, c1_i32_10⟩
def k0_off2 (i : grid0.Coords) (k0_t2 : Fin k0_t2_loop.trips) (k0_t3 : Fin k0_t3_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let c0_i32_3 : BitVec 32 := 0#32
  let c1_i32_5 : BitVec 32 := 1#32
  let arg8 : BitVec 32 := Scf.iv c0_i32_3 c1_i32_5 k0_t2
  let v7 : BitVec 32 := Scalar.addi v2 arg8
  let c0_i32_8 : BitVec 32 := 0#32
  let c1_i32_10 : BitVec 32 := 1#32
  let arg10 : BitVec 32 := Scf.iv c0_i32_8 c1_i32_10 k0_t3
  let c8192_i32 : BitVec 32 := 8192#32
  let v10 : BitVec 32 := Scalar.muli arg10 c8192_i32
  ![v7.toNat, v10.toNat]
@[reducible] def k0_t4_loop : Scf.Loop 32 :=
  let c0_i32_14 : BitVec 32 := 0#32
  let c512_i32_15 : BitVec 32 := 512#32
  let v11 : BitVec 32 := Scalar.addi c0_i32_14 c512_i32_15
  let c1_i32_16 : BitVec 32 := 1#32
  ⟨c0_i32_14, v11, c1_i32_16⟩
def k0_off3 (k0_t4 : Fin k0_t4_loop.trips) : Fin 1 → Nat :=
  let c0_i32_14 : BitVec 32 := 0#32
  let c1_i32_16 : BitVec 32 := 1#32
  let arg12 : BitVec 32 := Scf.iv c0_i32_14 c1_i32_16 k0_t4
  let c16_i32 : BitVec 32 := 16#32
  let v13 : BitVec 32 := Scalar.muli arg12 c16_i32
  let v14 : Index := Scalar.indexCast v13
  ![v14.toNat]
def k0_off4 (k0_t4 : Fin k0_t4_loop.trips) : Fin 2 → Nat :=
  let c1_i32_20 : BitVec 32 := 1#32
  let v23 : Index := Scalar.indexCast c1_i32_20
  let c0_i32_14 : BitVec 32 := 0#32
  let c1_i32_16 : BitVec 32 := 1#32
  let arg12 : BitVec 32 := Scf.iv c0_i32_14 c1_i32_16 k0_t4
  let c16_i32 : BitVec 32 := 16#32
  let v13 : BitVec 32 := Scalar.muli arg12 c16_i32
  let v24 : Index := Scalar.indexCast v13
  ![1, v24.toNat]
def k0_off5 (i : grid0.Coords) (k0_t2 : Fin k0_t2_loop.trips) (k0_t3 : Fin k0_t3_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let c0_i32_3 : BitVec 32 := 0#32
  let c1_i32_5 : BitVec 32 := 1#32
  let arg8 : BitVec 32 := Scf.iv c0_i32_3 c1_i32_5 k0_t2
  let v7 : BitVec 32 := Scalar.addi v2 arg8
  let c0_i32_19_r2 : BitVec 32 := 0#32
  let c0_i32_8 : BitVec 32 := 0#32
  let c1_i32_10 : BitVec 32 := 1#32
  let arg10 : BitVec 32 := Scf.iv c0_i32_8 c1_i32_10 k0_t3
  let c8192_i32 : BitVec 32 := 8192#32
  let v10 : BitVec 32 := Scalar.muli arg10 c8192_i32
  ![v7.toNat, 0, v10.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  h_S1x16 : 0 < S1x16.numel
  shapeCasts_S1x16_S16 : S1x16.ShapeCasts S16
  shapeCasts_S16_S1x16 : S16.ShapeCasts S1x16
  squeezes_S1x8192_S8192 : S1x8192.Squeezes S8192
  h_S16 : 0 < S16.numel
  squeezes_S1x2x8192_S2x8192 : S1x2x8192.Squeezes S2x8192
  transposes_S128x2x32768_S128x32768x2_0_2_1 : S128x2x32768.Transposes [0, 2, 1] S128x32768x2
  hcc0_scoped0 : 0 + S_.numel ≤ 3
  hcc0_scoped1 : 1 + S_.numel ≤ 3
  hcc0_scoped2 : 2 + S_.numel ≤ 3
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_t1_ok : k0_t1_loop.OK
  k0_off1_inb : ∀ k0_t1 : Fin k0_t1_loop.trips, ∀ a, (k0_off1 k0_t1) a + S1x16.size a ≤ S2x8192.size a
  k0_t2_ok : k0_t2_loop.OK
  k0_t3_ok : k0_t3_loop.OK
  k0_off2_inb : ∀ (i : grid0.Coords) (k0_t2 : Fin k0_t2_loop.trips) (k0_t3 : Fin k0_t3_loop.trips), ∀ a, (k0_off2 i k0_t2 k0_t3) a + S1x8192.size a ≤ S128x32768.size a
  k0_t4_ok : k0_t4_loop.OK
  k0_off3_inb : ∀ k0_t4 : Fin k0_t4_loop.trips, ∀ a, (k0_off3 k0_t4) a + S16.size a ≤ S8192.size a
  k0_off4_inb : ∀ k0_t4 : Fin k0_t4_loop.trips, ∀ a, (k0_off4 k0_t4) a + S1x16.size a ≤ S2x8192.size a
  k0_off5_inb : ∀ (i : grid0.Coords) (k0_t2 : Fin k0_t2_loop.trips) (k0_t3 : Fin k0_t3_loop.trips), ∀ a, (k0_off5 i k0_t2 k0_t3) a + S1x2x8192.size a ≤ S128x2x32768.size a

variable [Facts₀]

abbrev cc0_scoped0 : DmaSems sig S_ := SemArray.consecutive 0 S_ hcc0_scoped0
abbrev cc0_scoped1 : DmaSems sig S_ := SemArray.consecutive 1 S_ hcc0_scoped1
abbrev cc0_scoped2 : DmaSems sig S_ := SemArray.consecutive 2 S_ hcc0_scoped2

class Facts : Prop extends Facts₀ where

variable [Facts]
-- ==== ReferenceIdeal.lean ====
abbrev S128x32768 : Shape := ⟨2, ![128, 32768]⟩
abbrev S2 : Shape := ⟨1, ![2]⟩
abbrev S_ : Shape := ⟨0, ![]⟩
abbrev S128x32768x1 : Shape := ⟨3, ![128, 32768, 1]⟩
abbrev S1x1x2 : Shape := ⟨3, ![1, 1, 2]⟩
abbrev S128x32768x2 : Shape := ⟨3, ![128, 32768, 2]⟩

abbrev nBuf : Space → Nat
  | .hbm => 22
  | .vmem => 0
  | .smem => 0
  | _ => 0

abbrev bufTy : (tb : Table) → Fin (tcTables nBuf tb) → BufTy
  | .hbm, ⟨0, _⟩ => ⟨S128x32768, .f32⟩
  | .hbm, ⟨1, _⟩ => ⟨S128x32768, .f32⟩
  | .hbm, ⟨2, _⟩ => ⟨S2, .f32⟩
  | .hbm, ⟨3, _⟩ => ⟨S_, .f32⟩
  | .hbm, ⟨4, _⟩ => ⟨S128x32768, .f32⟩
  | .hbm, ⟨5, _⟩ => ⟨S128x32768, .f32⟩
  | .hbm, ⟨6, _⟩ => ⟨S_, .f32⟩
  | .hbm, ⟨7, _⟩ => ⟨S128x32768, .f32⟩
  | .hbm, ⟨8, _⟩ => ⟨S128x32768, .f32⟩
  | .hbm, ⟨9, _⟩ => ⟨S128x32768, .f32⟩
  | .hbm, ⟨10, _⟩ => ⟨S128x32768x1, .f32⟩
  | .hbm, ⟨11, _⟩ => ⟨S1x1x2, .f32⟩
  | .hbm, ⟨12, _⟩ => ⟨S128x32768x2, .f32⟩
  | .hbm, ⟨13, _⟩ => ⟨S128x32768x2, .f32⟩
  | .hbm, ⟨14, _⟩ => ⟨S128x32768x2, .f32⟩
  | .hbm, ⟨15, _⟩ => ⟨S2, .f32⟩
  | .hbm, ⟨16, _⟩ => ⟨S_, .f32⟩
  | .hbm, ⟨17, _⟩ => ⟨S2, .f32⟩
  | .hbm, ⟨18, _⟩ => ⟨S2, .f32⟩
  | .hbm, ⟨19, _⟩ => ⟨S1x1x2, .f32⟩
  | .hbm, ⟨20, _⟩ => ⟨S128x32768x2, .f32⟩
  | .hbm, ⟨21, _⟩ => ⟨S128x32768x2, .f32⟩
  | _, _ => ⟨S128x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_v1 : Ref sig .tc := ⟨.hbm, 5, rfl⟩
abbrev main_cst_1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  bcast_S_S128x32768 : S_.BroadcastsInDim S128x32768 (![] : Fin 0 → Fin S128x32768.rank)
  bcast_S128x32768_S128x32768x1_0_1 : S128x32768.BroadcastsInDim S128x32768x1 (![0, 1] : Fin 2 → Fin S128x32768x1.rank)
  bcast_S2_S1x1x2_2 : S2.BroadcastsInDim S1x1x2 (![2] : Fin 1 → Fin S1x1x2.rank)
  bcast_S128x32768x1_S128x32768x2_0_1_2 : S128x32768x1.BroadcastsInDim S128x32768x2 (![0, 1, 2] : Fin 3 → Fin S128x32768x2.rank)
  bcast_S1x1x2_S128x32768x2_0_1_2 : S1x1x2.BroadcastsInDim S128x32768x2 (![0, 1, 2] : Fin 3 → Fin S128x32768x2.rank)
  bcast_S_S2 : S_.BroadcastsInDim S2 (![] : Fin 0 → Fin S2.rank)

variable [Facts₀]

class Facts : Prop extends Facts₀ where

variable [Facts]
-- ==== Proof.Spec.lean ====
/-
  The function both programs compute. For arrays `s`, `g` of shape [128, 32768] the result holds, at (b, d, 0), the
  value of the zero word and, at (b, d, 1), `g(b,d) · ½ + s(b,d) − ½` (`val`). The kernel writes it laid out as
  [128, 2, 32768] (`mid`: plane 0 all zero, plane 1 the values); transposing the last two axes gives the result
  [128, 32768, 2] (`out`). Stated for any float instance: over the extended reals the operations are the exact ones.
-/
import Idealize.ShloMosaic.PureOps.Ideal
import Idealize.ShloMosaic.Lib.ValueIdx

noncomputable section

namespace Cert.Spec

open Idealize.ShloMosaic Idealize.ShloMosaic.ValueIdx

variable {F : FTy → Type} [FloatOps F]

abbrev SIn : Shape := ⟨2, ![128, 32768]⟩
abbrev SMid : Shape := ⟨3, ![128, 2, 32768]⟩
abbrev SOut : Shape := ⟨3, ![128, 32768, 2]⟩

/-- The literal ½ and the literal 0, as the float instance reads their words. -/
def half : F .f32 := FloatOps.ofBits .f32 0x3F000000#32
def zero : F .f32 := FloatOps.ofBits .f32 0x00000000#32

/-- One entry: `g · ½ + s − ½`. -/
def val (sv gv : F .f32) : F .f32 := FloatOps.subf (FloatOps.addf (FloatOps.mulf gv half) sv) half

/-- The kernel's array [128, 2, 32768]: plane 0 zero, plane 1 the values. -/
def mid (s g : FVec F SIn .f32) : FVec F SMid .f32 :=
  fun i => if (i 1).val = 0 then zero else val (s (ix2 (i 0) (i 2))) (g (ix2 (i 0) (i 2)))

/-- The result [128, 32768, 2]: the last two axes of `mid` exchanged. -/
def out (s g : FVec F SIn .f32) : FVec F SOut .f32 :=
  fun i => if (i 2).val = 0 then zero else val (s (ix2 (i 0) (i 1))) (g (ix2 (i 0) (i 1)))

theorem out_eq_mid (s g : FVec F SIn .f32) (i : SOut.Idx) : out s g i = mid s g (ix3 (i 0) (i 2) (i 1)) := rfl

end Cert.Spec

end
-- ==== Proof.LibTrips.lean ====
/-
  A family of resources indexed by the trips of a counted loop, each trip turning its own member from a "before"
  form `A j` into an "after" form `B j`. `upTo A B k` is the family when the trips below `k` have run: member `j` is
  `B j` for `j < k` and `A j` otherwise. Before the first trip it is all of `A`, after the last all of `B`, and at
  trip `k` it is `A k` beside a remainder that does not mention trip `k` (`rest`), which with `B k` is the family at
  `k + 1`. These four equations are what a loop invariant over such a family needs.
-/
import Idealize.ShloMosaic.Lib.SparseCore.Cells

noncomputable section

namespace Cert.LibTrips

open Idealize.SL Idealize.SL.RA Idealize.SL.BI Idealize.ShloMosaic
open scoped Idealize.SL.BI
open Idealize.SL.BI.BIBase Idealize.SL.BI.Laws Idealize.SL.ProofMode

variable {M : Type} [URA M] {n : Nat}

/-- The family after the trips below `k`. -/
def upTo (A B : Fin n → sProp M) (k : Nat) : sProp M :=
  bigSep Finset.univ fun j : Fin n => if j.val < k then B j else A j

/-- The members other than `k`'s, as they stand before (and after) trip `k`. -/
def rest (A B : Fin n → sProp M) (k : Fin n) : sProp M :=
  bigSep (Finset.univ.erase k) fun j : Fin n => if j.val < k.val then B j else A j

theorem upTo_zero (A B : Fin n → sProp M) : upTo A B 0 = bigSep Finset.univ A :=
  bigSep_congr fun j _ => if_neg (Nat.not_lt_zero _)

theorem upTo_all (A B : Fin n → sProp M) {k : Nat} (h : n ≤ k) : upTo A B k = bigSep Finset.univ B :=
  bigSep_congr fun j _ => if_pos (Nat.lt_of_lt_of_le j.isLt h)

theorem upTo_at (A B : Fin n → sProp M) (k : Fin n) : upTo A B k.val = iprop(A k ∗ rest A B k) := by
  unfold upTo rest
  rw [SparseCore.bigSep_erase' (Finset.mem_univ k), if_neg (Nat.lt_irrefl _)]

theorem upTo_succ (A B : Fin n → sProp M) (k : Fin n) : upTo A B (k.val + 1) = iprop(B k ∗ rest A B k) := by
  unfold upTo rest
  rw [SparseCore.bigSep_erase' (Finset.mem_univ k), if_pos (Nat.lt_succ_self _)]
  congr 1
  refine bigSep_congr fun j hj => ?_
  have hne : j.val ≠ k.val := fun e => (Finset.ne_of_mem_erase hj) (Fin.ext e)
  by_cases h : j.val < k.val
  · rw [if_pos h, if_pos (Nat.lt_succ_of_lt h)]
  · rw [if_neg h, if_neg (by omega)]

end Cert.LibTrips

end
-- ==== Proof.CommonIdeal.lean ====
/-
  What the parts of the idealized kernel's proof share. The program as the launch theorem sees it; the resource
  algebra (the handshakes' rounds beside the transfer counters: every copy a tile makes is local and waited for at
  once, so no schedule is needed); the arrays and a tile's three scratch buffers as the body table passes them; the
  CHUNKS: tile (c, j) works on rows 8·j + 4·c + r (r < 4) and moves each row in four pieces of 8192 columns, so a
  chunk is named by the tile's coordinates, the row trip and the column trip, and is spelt exactly as the body
  slices it. A tile is handed its sixteen chunks of `s`, of `g` and of the output, and hands them back with the
  output's at the specified function.
-/
import proofs.«212060_g46926812676975_cont_8to1c4_366_19_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«212060_g46926812676975_cont_8to1c4_366_19_alg».proof.Proof.Gen.KernelIdeal
import proofs.«212060_g46926812676975_cont_8to1c4_366_19_alg».proof.Proof.Gen.KernelIdeal.Skeleton
import proofs.«212060_g46926812676975_cont_8to1c4_366_19_alg».proof.Proof.Spec
import proofs.«212060_g46926812676975_cont_8to1c4_366_19_alg».proof.Proof.LibTrips

noncomputable section

namespace Cert.Proof.IdealSide

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory, the arrays, a tile's scratch -/

variable (m : (ℓ : Loc nD τ sig) → Buf (Elt F) ℓ) (ρ : Dev nD → PrngReg)

abbrev sLoc (d : Dev nD) : Loc nD τ sig := (SparseCore.T d).loc main_arg0
abbrev gLoc (d : Dev nD) : Loc nD τ sig := (SparseCore.T d).loc main_arg1
abbrev oLoc (d : Dev nD) : Loc nD τ sig := (SparseCore.T d).loc main_v0
abbrev rLoc (d : Dev nD) : Loc nD τ sig := (SparseCore.T d).loc main_v1

variable [FloatOps F]

abbrev sV : Memref sig .scVector .hbm S128x32768 .f32 := Memref.whole main_arg0_scv
abbrev gV : Memref sig .scVector .hbm S128x32768 .f32 := Memref.whole main_arg1_scv
abbrev oV : Memref sig .scVector .hbm S128x2x32768 .f32 := Memref.whole main_v0_scv
/-- A tile's scratch: the fetched piece of `s`, of `g`, and the two-row staging buffer of the output. -/
abbrev bS : Memref sig .scVector .vmem S8192 .f32 := Memref.whole cc0_scratch0
abbrev bG : Memref sig .scVector .vmem S8192 .f32 := Memref.whole cc0_scratch1
abbrev bO : Memref sig .scVector .vmem S2x8192 .f32 := Memref.whole cc0_scratch2

abbrev cV (L : grid0.Coords) : Fin τ.nSC := (L 0).castLE hcore0
abbrev jV (L : grid0.Coords) : Fin τ.nSub := (L 1).castLE hsub0
/-- The thread of the tile at grid coordinates `L`. -/
abbrev thrV (d : Dev nD) (L : grid0.Coords) : Thread nD τ := V d (cV L) (jV L)

/-- The grid coordinates of the tile on SparseCore `c`, vector subcore `j`. -/
def coordsV (c : Fin (grid0.bound 0)) (j : Fin (grid0.bound 1)) : grid0.Coords :=
  fun | 0 => c | 1 => j | ⟨_ + 2, h⟩ => absurd h (Nat.not_lt.2 (Nat.le_add_left _ _))

/-- The chunk of `s`, of `g` and of the output at row trip `t2` and column trip `t3`, as the body slices them. -/
abbrev sCh (L : grid0.Coords) (t2 : Fin k0_t2_loop.trips) (t3 : Fin k0_t3_loop.trips) : Memref sig .scVector .hbm S8192 .f32 :=
  ((sV).slice (Rect.unit (s := S128x32768) (k0_off2 L t2 t3) S1x8192.size (k0_off2_inb L t2 t3)) (fun _ => rfl)).squeeze S8192 squeezes_S1x8192_S8192
abbrev gCh (L : grid0.Coords) (t2 : Fin k0_t2_loop.trips) (t3 : Fin k0_t3_loop.trips) : Memref sig .scVector .hbm S8192 .f32 :=
  ((gV).slice (Rect.unit (s := S128x32768) (k0_off2 L t2 t3) S1x8192.size (k0_off2_inb L t2 t3)) (fun _ => rfl)).squeeze S8192 squeezes_S1x8192_S8192
abbrev oCh (L : grid0.Coords) (t2 : Fin k0_t2_loop.trips) (t3 : Fin k0_t3_loop.trips) : Memref sig .scVector .hbm S2x8192 .f32 :=
  ((oV).slice (Rect.unit (s := S128x2x32768) (k0_off5 L t2 t3) S1x2x8192.size (k0_off5_inb L t2 t3)) (fun _ => rfl)).squeeze S2x8192 squeezes_S1x2x8192_S2x8192

/-- The specified contents of the kernel's output array, from the launch contents of `s` and `g`. -/
abbrev want (d : Dev nD) : Buf (Elt F) (oLoc d) := Cert.Spec.mid (F := F) (m (sLoc d)) (m (gLoc d))

/-- A chunk's resources before its trip: the pieces of `s` and `g` at their launch contents, the output's piece at
    anything; after it: the output's piece at the specified function. -/
def chA (d : Dev nD) (L : grid0.Coords) (t2 : Fin k0_t2_loop.trips) (t3 : Fin k0_t3_loop.trips) : sProp 𝕄 :=
  iprop(((sCh L t2 t3).view.loc (thrV d L) ↦[(sCh L t2 t3).view.set]{fullShare} m (sLoc d))
    ∗ ((gCh L t2 t3).view.loc (thrV d L) ↦[(gCh L t2 t3).view.set]{fullShare} m (gLoc d))
    ∗ ∃ f, (oCh L t2 t3).view.loc (thrV d L) ↦[(oCh L t2 t3).view.set]{fullShare} f)
def chB (d : Dev nD) (L : grid0.Coords) (t2 : Fin k0_t2_loop.trips) (t3 : Fin k0_t3_loop.trips) : sProp 𝕄 :=
  iprop(((sCh L t2 t3).view.loc (thrV d L) ↦[(sCh L t2 t3).view.set]{fullShare} m (sLoc d))
    ∗ ((gCh L t2 t3).view.loc (thrV d L) ↦[(gCh L t2 t3).view.set]{fullShare} m (gLoc d))
    ∗ (oCh L t2 t3).view.loc (thrV d L) ↦[(oCh L t2 t3).view.set]{fullShare} want m d)

/-- A row's resources before and after its trip: its four chunks'. -/
def rowA (d : Dev nD) (L : grid0.Coords) (t2 : Fin k0_t2_loop.trips) : sProp 𝕄 := bigSep Finset.univ fun t3 => chA m d L t2 t3
def rowB (d : Dev nD) (L : grid0.Coords) (t2 : Fin k0_t2_loop.trips) : sProp 𝕄 := bigSep Finset.univ fun t3 => chB m d L t2 t3

/-- What a tile is handed and what it hands back: its four rows'. -/
def tileA (d : Dev nD) (L : grid0.Coords) : sProp 𝕄 := bigSep Finset.univ fun t2 => rowA m d L t2
def tileB (d : Dev nD) (L : grid0.Coords) : sProp 𝕄 := bigSep Finset.univ fun t2 => rowB m d L t2

/-! ## A tile's own semaphores and scratch buffers, named -/

abbrev c0cell (d : Dev nD) (L : grid0.Coords) : GSem nD τ sig := (thrV d L, .dma cc0_scoped0.sem)
abbrev c1cell (d : Dev nD) (L : grid0.Coords) : GSem nD τ sig := (thrV d L, .dma cc0_scoped1.sem)
abbrev c2cell (d : Dev nD) (L : grid0.Coords) : GSem nD τ sig := (thrV d L, .dma cc0_scoped2.sem)

omit [FloatOps F] in
theorem ownSems0_V (d : Dev nD) (L : grid0.Coords) :
    (ownSems0 (thrV d L) : sProp 𝕄)
      = iprop(semVal (c0cell d L) 0 ∗ semVal (c1cell d L) 0 ∗ semVal (c2cell d L) 0
          ∗ bigSep ((((ownCells (thrV d L)).erase (c0cell d L)).erase (c1cell d L)).erase (c2cell d L)) fun g => semVal g 0) := by
  unfold SparseCore.Cfg.ownSems0
  rw [SparseCore.bigSep_erase' ((mem_ownCells (g := c0cell d L)).mpr ⟨rfl, by
      show (SemLoc.dma cc0_scoped0.sem : SemLoc sig).isScoped .scVector = true; decide⟩),
    SparseCore.bigSep_erase' (Finset.mem_erase.mpr ⟨by simp [c0cell, c1cell]; decide, (mem_ownCells (g := c1cell d L)).mpr ⟨rfl, by
      show (SemLoc.dma cc0_scoped1.sem : SemLoc sig).isScoped .scVector = true; decide⟩⟩),
    SparseCore.bigSep_erase' (Finset.mem_erase.mpr ⟨by simp [c1cell, c2cell]; decide, Finset.mem_erase.mpr ⟨by simp [c0cell, c2cell]; decide,
      (mem_ownCells (g := c2cell d L)).mpr ⟨rfl, by show (SemLoc.dma cc0_scoped2.sem : SemLoc sig).isScoped .scVector = true; decide⟩⟩⟩)]

omit [FloatOps F] in
theorem ownBufs_V (d : Dev nD) (L : grid0.Coords) :
    (ownBufs (thrV d L) : sProp 𝕄)
      = iprop((∃ f, (thrV d L).loc cc0_scratch0 ↦{fullShare} f) ∗ (∃ f, (thrV d L).loc cc0_scratch1 ↦{fullShare} f)
          ∗ (∃ f, (thrV d L).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

end Cert.Proof.IdealSide

end
-- ==== Proof.StageIdeal.lean ====
/-
  The contents of a tile's two-row staging buffer, as pure facts. The zero fill writes sixteen lanes of row 0 per
  trip, so before trip k row 0 is zero in columns below 16·k (`zeroed`). The compute loop writes sixteen lanes of
  row 1 per trip from the fetched pieces of `s` and `g`: before trip k row 0 is zero everywhere and row 1 holds
  `g · ½ + s − ½` in columns below 16·k (`staged`). One store of a [1, 16] piece at offset (r, c) changes exactly
  the entries (r, c) … (r, c + 15) (`writes_one_apply`). When the staged buffer is copied onto a chunk of the
  output, every element of the chunk then holds the specified function (`chunk_value`): a chunk's element
  (x₀, x₁) is the array's (row, x₀, 8192·t₃ + x₁), and the fetched pieces hold (row, 8192·t₃ + x₁) of `s` and `g`.
-/
import proofs.«212060_g46926812676975_cont_8to1c4_366_19_alg».proof.Proof.CommonIdeal
import Idealize.ShloMosaic.Lib.Writes
import Idealize.ShloMosaic.Lib.ValueIdx
import Idealize.ShloMosaic.Lib.Pipeline.Value

noncomputable section

namespace Cert.Proof.IdealSide

open Cert.KernelIdeal Cert.KernelIdeal.Gen

open Idealize.ShloMosaic Idealize.ShloMosaic.ValueIdx
open Idealize.ShloMosaic.SparseCore (S V T)

variable {F : FTy → Type} [FloatOps F]

/-- The contents of a tile's staging buffer and of its two fetch buffers. -/
abbrev OBuf (F : FTy → Type) : Type := (⟨S2x8192, .f32⟩ : BufTy).Contents (Elt F)
abbrev IBuf (F : FTy → Type) : Type := (⟨S8192, .f32⟩ : BufTy).Contents (Elt F)

/-- A [16] vector recast as [1, 16], read at (0, j), is the vector at j. -/
theorem cast_row {α : Type} (x : S16.Idx → α) (j : Fin 16) :
    shapeCast S1x16 x shapeCasts_S16_S1x16 (ix2 (0 : Fin 1) j) = x (ix1 j) :=
  shapeCast_apply x _ _ _ (by
    rw [Shape.rowMajor_val_one, Shape.rowMajor_val_two]
    show j.val = 0 * 16 + j.val
    omega)

/-- Row 0 is zero in the columns below 16·k. -/
def zeroed (k : Nat) (f : OBuf F) : Prop :=
  ∀ q : Fin 8192, q.val < 16 * k → f (ix2 (0 : Fin 2) q) = Cert.Spec.zero

/-- Row 0 is zero; row 1 holds the entry's value, from the fetched pieces, in the columns below 16·k. -/
def staged (fS fG : IBuf F) (k : Nat) (f : OBuf F) : Prop :=
  (∀ q : Fin 8192, f (ix2 (0 : Fin 2) q) = Cert.Spec.zero)
    ∧ ∀ q : Fin 8192, q.val < 16 * k → f (ix2 (1 : Fin 2) q) = Cert.Spec.val (fS (ix1 q)) (fG (ix1 q))

/-- One stored piece of shape [1, 16] at offsets `off`, read at (p, q). -/
theorem writes_one_apply (f : OBuf F) (off : Fin 2 → Nat) (inb : ∀ a, off a + S1x16.size a ≤ S2x8192.size a)
    (w : S1x16.Idx → Elt F .f32) (p : Fin 2) (q : Fin 8192) :
    (bO : Memref sig .scVector .vmem S2x8192 .f32).view.writes (Elt F) f [⟨Rect.unit (s := S2x8192) off S1x16.size inb, w⟩] (ix2 p q)
      = if h : p.val = off 0 ∧ off 1 ≤ q.val ∧ q.val < off 1 + 16 then w (ix2 (0 : Fin 1) ⟨q.val - off 1, by omega⟩) else f (ix2 p q) := by
  by_cases h : p.val = off 0 ∧ off 1 ≤ q.val ∧ q.val < off 1 + 16
  · rw [dif_pos h]
    have e : ix2 p q = (Rect.unit (s := S2x8192) off S1x16.size inb).emb (ix2 (0 : Fin 1) ⟨q.val - off 1, by omega⟩) := by
      funext a
      match a with
      | ⟨0, _⟩ => exact Fin.ext (by show p.val = off 0 + 1 * 0; omega)
      | ⟨1, _⟩ => exact Fin.ext (by show q.val = off 1 + 1 * (q.val - off 1); omega)
    rw [e]
    exact View.read_writes_cons_emb (Val := Elt F) (bO : Memref sig .scVector .vmem S2x8192 .f32).view f (Rect.unit (s := S2x8192) off S1x16.size inb) w [] _
  · rw [dif_neg h]
    have hnm : ∀ pc ∈ ([⟨Rect.unit (s := S2x8192) off S1x16.size inb, w⟩] : List (View.Piece (Elt F) S2x8192 .f32)), ix2 p q ∉ pc.1.set := by
      intro pc hpc
      rw [List.mem_singleton] at hpc
      subst hpc
      intro hm
      exact h (by
        have hm' := (Rect.mem_set_unit (s := S2x8192) (off := off) (size := S1x16.size) (inb := inb) (i := ix2 p q)).mp hm
        have a0 : off 0 ≤ p.val ∧ p.val < off 0 + 1 := hm' 0
        have a1 : off 1 ≤ q.val ∧ q.val < off 1 + 16 := hm' 1
        omega)
    exact View.read_writes_apply_of_forall_not_mem (Val := Elt F) (bO : Memref sig .scVector .vmem S2x8192 .f32).view f (ix2 p q) _ hnm

theorem t1_trips : k0_t1_loop.trips = 512 := by decide
theorem t4_trips : k0_t4_loop.trips = 512 := by decide

/-- The zero fill's trip: sixteen more columns of row 0. -/
theorem zero_step (k : Fin k0_t1_loop.trips) (f : OBuf F) (hf : zeroed k.val f) :
    zeroed (k.val + 1) ((bO : Memref sig .scVector .vmem S2x8192 .f32).view.writes (Elt F) f
      [⟨Rect.unit (s := S2x8192) (k0_off1 k) S1x16.size (k0_off1_inb k), shapeCast S1x16 (k0_pay1 (F := F)) shapeCasts_S16_S1x16⟩]) := by
  intro q hq
  rw [writes_one_apply]
  split
  · rfl
  · rename_i h
    refine hf q ?_
    rw [k0_off1_eq] at h
    by_contra hlt
    apply h
    refine ⟨rfl, ?_, ?_⟩
    · show 16 * k.val ≤ q.val; omega
    · show q.val < 16 * k.val + 16; omega

theorem zeroed_all (f : OBuf F) (hf : zeroed k0_t1_loop.trips f) (q : Fin 8192) : f (ix2 (0 : Fin 2) q) = Cert.Spec.zero :=
  hf q (by rw [t1_trips]; omega)

theorem staged_zero (fS fG : IBuf F) (f : OBuf F) (h0 : ∀ q : Fin 8192, f (ix2 (0 : Fin 2) q) = Cert.Spec.zero) :
    staged fS fG 0 f := ⟨h0, fun q hq => absurd hq (by omega)⟩

/-- The compute loop's trip: sixteen more columns of row 1, row 0 untouched. -/
theorem stage_step (k : Fin k0_t4_loop.trips) (fS fG : IBuf F) (f : OBuf F) (hf : staged fS fG k.val f) :
    staged fS fG (k.val + 1) ((bO : Memref sig .scVector .vmem S2x8192 .f32).view.writes (Elt F) f
      [⟨Rect.unit (s := S2x8192) (k0_off4 k) S1x16.size (k0_off4_inb k),
        shapeCast S1x16 (k0_pay2
          ((bG : Memref sig .scVector .vmem S8192 .f32).view.readAt (Elt F) (Rect.unit (s := S8192) (k0_off3 k) S16.size (k0_off3_inb k)).toLoadRect fG)
          ((bS : Memref sig .scVector .vmem S8192 .f32).view.readAt (Elt F) (Rect.unit (s := S8192) (k0_off3 k) S16.size (k0_off3_inb k)).toLoadRect fS))
          shapeCasts_S16_S1x16⟩]) := by
  have hk : k.val < 512 := by have h1 := k.isLt; have h2 := t4_trips; omega
  refine ⟨fun q => ?_, fun q hq => ?_⟩
  · rw [writes_one_apply]
    split
    · rename_i h
      rw [k0_off4_eq] at h
      exact absurd h.1 (by show ¬ (0 = 1); omega)
    · exact hf.1 q
  · rw [writes_one_apply]
    split
    · rename_i h
      have h' := h
      rw [k0_off4_eq] at h'
      have hlo : 16 * k.val ≤ q.val := h'.2.1
      have hhi : q.val < 16 * k.val + 16 := h'.2.2
      rw [cast_row]
      have ei : (Rect.unit (s := S8192) (k0_off3 k) S16.size (k0_off3_inb k)).toLoadRect.idx
          (ix1 (⟨q.val - k0_off4 k 1, by omega⟩ : Fin 16)) = ix1 q := by
        funext a
        match a with
        | ⟨0, _⟩ =>
          refine Fin.ext ?_
          show k0_off3 k 0 + 1 * (q.val - k0_off4 k 1) = q.val
          rw [k0_off3_eq, k0_off4_eq]
          show 16 * k.val + 1 * (q.val - 16 * k.val) = q.val
          omega
      show Cert.Spec.val
        ((bS : Memref sig .scVector .vmem S8192 .f32).view.readAt (Elt F) (Rect.unit (s := S8192) (k0_off3 k) S16.size (k0_off3_inb k)).toLoadRect fS (ix1 ⟨q.val - k0_off4 k 1, by omega⟩))
        ((bG : Memref sig .scVector .vmem S8192 .f32).view.readAt (Elt F) (Rect.unit (s := S8192) (k0_off3 k) S16.size (k0_off3_inb k)).toLoadRect fG (ix1 ⟨q.val - k0_off4 k 1, by omega⟩)) = _
      rw [View.readAt_apply, View.readAt_apply, ei]
      rfl
    · rename_i h
      refine hf.2 q ?_
      rw [k0_off4_eq] at h
      by_contra hlt
      apply h
      refine ⟨rfl, ?_, ?_⟩
      · show 16 * k.val ≤ q.val; omega
      · show q.val < 16 * k.val + 16; omega

end Cert.Proof.IdealSide

end
-- ==== Proof.ChunkIdeal.lean ====
/-
  A chunk of the output after its staged buffer has been copied onto it. The chunk of row R (= 8·j + 4·c + t₂) and
  column block t₃ is the array's elements (R, x₀, 8192·t₃ + x₁) for x₀ < 2, x₁ < 8192; the fetched pieces of `s` and
  `g` are their elements (R, 8192·t₃ + x₁). With the staging buffer's row 0 zero and its row 1 at `g · ½ + s − ½` of
  the fetched pieces, the copy leaves every element of the chunk at the specified function of the launch contents.
-/
import proofs.«212060_g46926812676975_cont_8to1c4_366_19_alg».proof.Proof.StageIdeal

noncomputable section

namespace Cert.Proof.IdealSide

open Cert.KernelIdeal Cert.KernelIdeal.Gen

open Idealize.ShloMosaic Idealize.ShloMosaic.ValueIdx
open Idealize.ShloMosaic.SparseCore (S V T)

variable {F : FTy → Type}
variable (m : (ℓ : Loc nD τ sig) → Buf (Elt F) ℓ)
variable [FloatOps F]

/-- An element of the output's chunk, by coordinates. -/
theorem oCh_emb (L : grid0.Coords) (t2 : Fin k0_t2_loop.trips) (t3 : Fin k0_t3_loop.trips) (p : Fin 2) (q : Fin 8192) :
    (oCh L t2 t3).view.emb (ix2 p q)
      = (Rect.unit (s := S128x2x32768) (k0_off5 L t2 t3) S1x2x8192.size (k0_off5_inb L t2 t3)).emb (Fin.cons ⟨0, Nat.one_pos⟩ (ix2 p q)) := by
  show (Rect.unit (s := S128x2x32768) (k0_off5 L t2 t3) S1x2x8192.size (k0_off5_inb L t2 t3)).emb (Shape.reshapeEquiv _ (ix2 p q)) = _
  rw [Shape.reshapeEquiv_cons_one]

/-- An element of a fetched piece's chunk, by coordinates. -/
theorem sCh_emb (L : grid0.Coords) (t2 : Fin k0_t2_loop.trips) (t3 : Fin k0_t3_loop.trips) (q : Fin 8192) :
    (sCh L t2 t3).view.emb (ix1 q)
      = (Rect.unit (s := S128x32768) (k0_off2 L t2 t3) S1x8192.size (k0_off2_inb L t2 t3)).emb (Fin.cons ⟨0, Nat.one_pos⟩ (ix1 q)) := by
  show (Rect.unit (s := S128x32768) (k0_off2 L t2 t3) S1x8192.size (k0_off2_inb L t2 t3)).emb (Shape.reshapeEquiv _ (ix1 q)) = _
  rw [Shape.reshapeEquiv_cons_one]
theorem gCh_emb (L : grid0.Coords) (t2 : Fin k0_t2_loop.trips) (t3 : Fin k0_t3_loop.trips) (q : Fin 8192) :
    (gCh L t2 t3).view.emb (ix1 q)
      = (Rect.unit (s := S128x32768) (k0_off2 L t2 t3) S1x8192.size (k0_off2_inb L t2 t3)).emb (Fin.cons ⟨0, Nat.one_pos⟩ (ix1 q)) := by
  show (Rect.unit (s := S128x32768) (k0_off2 L t2 t3) S1x8192.size (k0_off2_inb L t2 t3)).emb (Shape.reshapeEquiv _ (ix1 q)) = _
  rw [Shape.reshapeEquiv_cons_one]

/-- The fetched pieces' element under column q is the arrays' element under the output chunk's (·, q). -/
theorem in_idx (L : grid0.Coords) (t2 : Fin k0_t2_loop.trips) (t3 : Fin k0_t3_loop.trips) (p : Fin 2) (q : Fin 8192) :
    (Rect.unit (s := S128x32768) (k0_off2 L t2 t3) S1x8192.size (k0_off2_inb L t2 t3)).emb (Fin.cons ⟨0, Nat.one_pos⟩ (ix1 q))
      = ix2 (((oCh L t2 t3).view.emb (ix2 p q)) 0) (((oCh L t2 t3).view.emb (ix2 p q)) 2) := by
  rw [oCh_emb]
  funext a
  match a with
  | ⟨0, _⟩ =>
    refine Fin.ext ?_
    show k0_off2 L t2 t3 0 + 1 * 0 = k0_off5 L t2 t3 0 + 1 * 0
    rw [k0_off2_eq, k0_off5_eq]; rfl
  | ⟨1, _⟩ =>
    refine Fin.ext ?_
    show k0_off2 L t2 t3 1 + 1 * q.val = k0_off5 L t2 t3 2 + 1 * q.val
    rw [k0_off2_eq, k0_off5_eq]; rfl

/-- The plane of an element of the output's chunk is its first coordinate. -/
theorem oCh_plane (L : grid0.Coords) (t2 : Fin k0_t2_loop.trips) (t3 : Fin k0_t3_loop.trips) (p : Fin 2) (q : Fin 8192) :
    (((oCh L t2 t3).view.emb (ix2 p q)) 1).val = p.val := by
  rw [oCh_emb]
  show k0_off5 L t2 t3 1 + 1 * p.val = p.val
  rw [k0_off5_eq]
  show 0 + 1 * p.val = p.val
  omega

theorem chunk_value (d : Dev nD) (L : grid0.Coords) (t2 : Fin k0_t2_loop.trips) (t3 : Fin k0_t3_loop.trips)
    (fo : Buf (Elt F) (oLoc d)) (fO : OBuf F)
    (h : staged ((sCh L t2 t3).view.read (Elt F) (m (sLoc d))) ((gCh L t2 t3).view.read (Elt F) (m (gLoc d))) k0_t4_loop.trips fO) :
    ∀ i ∈ (oCh L t2 t3).view.set,
      (oCh L t2 t3).view.writes (Elt F) fo
        [⟨Rect.whole S2x8192, ReadAs.same.apply ((bO : Memref sig .scVector .vmem S2x8192 .f32).view.read (Elt F) fO)⟩] i = want m d i := by
  intro i hi
  obtain ⟨x, -, rfl⟩ := Finset.mem_map.mp hi
  have e : (oCh L t2 t3).view.emb x = ((oCh L t2 t3).view.slice (Rect.whole S2x8192)).emb x := by
    rw [View.emb_slice]
    show _ = (oCh L t2 t3).view.emb ((Rect.whole S2x8192).emb x)
    rw [Rect.emb_whole_apply]
  rw [View.writes_singleton, e, View.write_emb_of_mem _ _ (Finset.mem_univ x), ← e]
  obtain ⟨p, q, rfl⟩ : ∃ (p : Fin 2) (q : Fin 8192), x = ix2 p q := ⟨x 0, x 1, eq_ix2 x⟩
  refine (cast_eq _ _).trans ?_
  show fO (ix2 p q) = Cert.Spec.mid (m (sLoc d)) (m (gLoc d)) ((oCh L t2 t3).view.emb (ix2 p q))
  unfold Cert.Spec.mid
  by_cases hp : p.val = 0
  · have ep : p = (0 : Fin 2) := Fin.ext hp
    subst ep
    rw [if_pos (by rw [oCh_plane]; rfl)]
    exact h.1 q
  · have ep : p = (1 : Fin 2) := Fin.ext (by have := p.isLt; show p.val = 1; omega)
    subst ep
    rw [if_neg (by rw [oCh_plane]; exact hp)]
    rw [h.2 q (by rw [t4_trips]; have := q.isLt; omega)]
    have key := in_idx L t2 t3 (1 : Fin 2) q
    show Cert.Spec.val (m (sLoc d) ((sCh L t2 t3).view.emb (ix1 q))) (m (gLoc d) ((gCh L t2 t3).view.emb (ix1 q))) = _
    rw [sCh_emb, gCh_emb, key]
    rfl

end Cert.Proof.IdealSide

end
-- ==== Proof.TileIdeal.lean ====
/-
  One tile's task, run once at a symbolic tile. The zero fill's loop leaves row 0 of the staging buffer zero; the row
  loop runs the four rows, each row's column loop its four chunks; a chunk's trip fetches the pieces of `s` and `g`
  (two local copies, each waited for at once), fills row 1 of the staging buffer sixteen lanes a trip, and copies the
  buffer out onto the output's chunk (a third local copy, waited for at once). Each loop's invariant says which of
  its family of resources are done (`upTo`): a chunk is done when the output's piece holds the specified function.
  Every copy is between buffers the tile alone holds, on a semaphore of its own that stands at zero, so no schedule
  is needed; the waits are recorded beside what the tile owes the launch.
-/
import proofs.«212060_g46926812676975_cont_8to1c4_366_19_alg».proof.Proof.ChunkIdeal

noncomputable section

namespace Cert.Proof.IdealSide

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.LibTrips

variable {F : FTy → Type}

local notation "𝕄" => MT nD τ sig (HIx 1) (Elt F) ℕ UU ℕ

variable (m : (ℓ : Loc nD τ sig) → Buf (Elt F) ℓ)
variable [FloatOps F]
variable (d : Dev nD) (L : grid0.Coords)

/-! ## The invariants -/

/-- What every loop of the task carries beside its family: the two fetch buffers at anything, the staging buffer
    with row 0 zero, the three semaphores at zero, and what the tile owes with the waits it has recorded. -/
def tileSt (O : CellTallies nD τ sig (HIx 1)) (W : Waits sig (HIx 1)) : sProp 𝕄 :=
  iprop((∃ fS, (bS).view.loc (thrV d L) ↦{fullShare} fS) ∗ (∃ fG, (bG).view.loc (thrV d L) ↦{fullShare} fG)
    ∗ (∃ fO : Buf (Elt F) ((thrV d L).loc cc0_scratch2), ⌜∀ q : Fin 8192, fO (ix2 (0 : Fin 2) q) = Cert.Spec.zero⌝ ∗ (bO).view.loc (thrV d L) ↦{fullShare} fO)
    ∗ semVal (c0cell d L) 0 ∗ semVal (c1cell d L) 0 ∗ semVal (c2cell d L) 0
    ∗ ∃ W', ⌜∀ p ∈ W', p ∈ W ∨ p.2 = none⌝ ∗ owes (thrV d L) O W')

/-- The zero fill before trip k. -/
def inv1 (k : Nat) (_ : BitVec 32) : sProp 𝕄 :=
  iprop(∃ f : Buf (Elt F) ((thrV d L).loc cc0_scratch2), ⌜zeroed k f⌝ ∗ (bO).view.loc (thrV d L) ↦{fullShare} f)

/-- The compute loop before trip k, the fetched pieces at `fS`, `fG`. -/
def inv4 (fS : Buf (Elt F) ((thrV d L).loc cc0_scratch0)) (fG : Buf (Elt F) ((thrV d L).loc cc0_scratch1)) (k : Nat) (_ : BitVec 32) : sProp 𝕄 :=
  iprop(∃ f : Buf (Elt F) ((thrV d L).loc cc0_scratch2), ⌜staged fS fG k f⌝
    ∗ ((bS).view.loc (thrV d L) ↦{fullShare} fS) ∗ ((bG).view.loc (thrV d L) ↦{fullShare} fG) ∗ (bO).view.loc (thrV d L) ↦{fullShare} f)

/-- The column loop of row trip `t2` before trip k; the row loop before trip k. -/
def inv3 (O : CellTallies nD τ sig (HIx 1)) (W : Waits sig (HIx 1)) (t2 : Fin k0_t2_loop.trips) (k : Nat) (_ : BitVec 32) : sProp 𝕄 :=
  iprop(Transfers.MayWaits (thrV d L) (none : HIx 1) O ∗ upTo (chA m d L t2) (chB m d L t2) k ∗ tileSt d L O W)
def inv2 (O : CellTallies nD τ sig (HIx 1)) (W : Waits sig (HIx 1)) (k : Nat) (_ : BitVec 32) : sProp 𝕄 :=
  iprop(Transfers.MayWaits (thrV d L) (none : HIx 1) O ∗ upTo (rowA m d L) (rowB m d L) k ∗ tileSt d L O W)

theorem chA_def (t2 : Fin k0_t2_loop.trips) (t3 : Fin k0_t3_loop.trips) :
    chA m d L t2 t3 = iprop(((sCh L t2 t3).view.loc (thrV d L) ↦[(sCh L t2 t3).view.set]{fullShare} m (sLoc d))
      ∗ ((gCh L t2 t3).view.loc (thrV d L) ↦[(gCh L t2 t3).view.set]{fullShare} m (gLoc d))
      ∗ ∃ f, (oCh L t2 t3).view.loc (thrV d L) ↦[(oCh L t2 t3).view.set]{fullShare} f) := rfl
theorem chB_def (t2 : Fin k0_t2_loop.trips) (t3 : Fin k0_t3_loop.trips) :
    chB m d L t2 t3 = iprop(((sCh L t2 t3).view.loc (thrV d L) ↦[(sCh L t2 t3).view.set]{fullShare} m (sLoc d))
      ∗ ((gCh L t2 t3).view.loc (thrV d L) ↦[(gCh L t2 t3).view.set]{fullShare} m (gLoc d))
      ∗ (oCh L t2 t3).view.loc (thrV d L) ↦[(oCh L t2 t3).view.set]{fullShare} want m d) := rfl

theorem rowA_def (t2 : Fin k0_t2_loop.trips) : rowA m d L t2 = bigSep Finset.univ fun t3 => chA m d L t2 t3 := rfl
theorem rowB_def (t2 : Fin k0_t2_loop.trips) : rowB m d L t2 = bigSep Finset.univ fun t3 => chB m d L t2 t3 := rfl
theorem tileA_def : tileA m d L = bigSep Finset.univ fun t2 => rowA m d L t2 := rfl
theorem tileB_def : tileB m d L = bigSep Finset.univ fun t2 => rowB m d L t2 := rfl

omit [FloatOps F] in
/-- A copy onto a whole fetch buffer leaves it at what was copied. -/
theorem pts_fetchS (fS w : Buf (Elt F) ((thrV d L).loc cc0_scratch0)) :
    ((bS).view.loc (thrV d L) ↦{fullShare} View.write (Elt F) (bS).view fS w Finset.univ : sProp 𝕄) = (bS).view.loc (thrV d L) ↦{fullShare} w :=
  congrArg (fun f => ((bS).view.loc (thrV d L) ↦{fullShare} f : sProp 𝕄)) (View.write_whole_univ cc0_scratch0 fS w)
omit [FloatOps F] in
theorem pts_fetchG (fG w : Buf (Elt F) ((thrV d L).loc cc0_scratch1)) :
    ((bG).view.loc (thrV d L) ↦{fullShare} View.write (Elt F) (bG).view fG w Finset.univ : sProp 𝕄) = (bG).view.loc (thrV d L) ↦{fullShare} w :=
  congrArg (fun f => ((bG).view.loc (thrV d L) ↦{fullShare} f : sProp 𝕄)) (View.write_whole_univ cc0_scratch1 fG w)

/-! ## The loops' trips -/

theorem t1_region (k : Fin k0_t1_loop.trips) (acc : BitVec 32) :
    inv1 (F := F) d L k.val acc ⊢ wp frame (wpE (defs₀ (F := F)) 𝒱₀ (thrV d L) none) Set.univ (k0_t1_body (F := F) L sV (Memref.isWhole_whole _) gV (Memref.isWhole_whole _) oV (Memref.isWhole_whole _) bS (Memref.isWhole_whole _) bG (Memref.isWhole_whole _) bO (Memref.isWhole_whole _) cc0_scoped0 cc0_scoped1 cc0_scoped2 k acc) (inv1 (F := F) d L (k.val + 1)) := by
  unfold inv1 k0_t1_body
  iintro ⟨%f, %hf, H⟩
  sl_exec
  sl_step
  iexists _
  isplitr
  · ipureintro; exact zero_step k f hf
  · iexact H

theorem t4_region (fS : Buf (Elt F) ((thrV d L).loc cc0_scratch0)) (fG : Buf (Elt F) ((thrV d L).loc cc0_scratch1)) (k : Fin k0_t4_loop.trips) (acc : BitVec 32) :
    inv4 (F := F) d L fS fG k.val acc ⊢ wp frame (wpE (defs₀ (F := F)) 𝒱₀ (thrV d L) none) Set.univ (k0_t4_body (F := F) L sV (Memref.isWhole_whole _) gV (Memref.isWhole_whole _) oV (Memref.isWhole_whole _) bS (Memref.isWhole_whole _) bG (Memref.isWhole_whole _) bO (Memref.isWhole_whole _) cc0_scoped0 cc0_scoped1 cc0_scoped2 k acc) (inv4 (F := F) d L fS fG (k.val + 1)) := by
  unfold inv4 k0_t4_body
  iintro ⟨%f, %hf, HbS, HbG, HbO⟩
  sl_exec
  sl_step
  iexists _
  isplitr
  · ipureintro; exact stage_step k fS fG f hf
  isplitl [HbS]; · iexact HbS
  isplitl [HbG]; · iexact HbG
  iexact HbO

theorem t3_region (O : CellTallies nD τ sig (HIx 1)) (W : Waits sig (HIx 1)) (t2 : Fin k0_t2_loop.trips) (k : Fin k0_t3_loop.trips) (acc : BitVec 32) :
    inv3 m d L O W t2 k.val acc ⊢ wp frame (wpE (defs₀ (F := F)) 𝒱₀ (thrV d L) none) Set.univ (k0_t3_body (F := F) L sV (Memref.isWhole_whole _) gV (Memref.isWhole_whole _) oV (Memref.isWhole_whole _) bS (Memref.isWhole_whole _) bG (Memref.isWhole_whole _) bO (Memref.isWhole_whole _) cc0_scoped0 cc0_scoped1 cc0_scoped2 t2 k acc) (inv3 m d L O W t2 (k.val + 1)) := by
  unfold inv3 tileSt
  iintro ⟨Hmw, Hup, ⟨%fS, HbS⟩, ⟨%fG, HbG⟩, ⟨%fO, %hz, HbO⟩, Hc0, Hc1, Hc2, %W', %hW', HO⟩
  ihave Hup' := (Entails.of_eq (upTo_at (chA m d L t2) (chB m d L t2) k)) $$ Hup
  icases Hup' with ⟨HA, Hrest⟩
  ihave HA' := (Entails.of_eq (chA_def m d L t2 k)) $$ HA
  icases HA' with ⟨Hs, Hg, %fo, Ho⟩
  unfold k0_t3_body
  sl_exec
  ihave HbS1 := (Entails.of_eq (pts_fetchS (F := F) d L fS _)) $$ HbS
  ihave HbG1 := (Entails.of_eq (pts_fetchG (F := F) d L fG _)) $$ HbG
  unfold t3_region.sl.dma0 t3_region.sl.dma0_1
  sl_for (inv4 (F := F) d L ((sCh L t2 k).view.read (Elt F) (m (sLoc d))) ((gCh L t2 k).view.read (Elt F) (m (gLoc d)))) $$ [HbS1 HbG1 HbO]
  case region => exact t4_region d L _ _
  · unfold inv4
    iexists fO
    isplitr
    · ipureintro; exact staged_zero _ _ fO hz
    isplitl [HbS1]; · iexact HbS1
    isplitl [HbG1]; · iexact HbG1
    iexact HbO
  iintro %acc' HI
  unfold inv4
  icases HI with ⟨%f', %hst, HbS, HbG, HbO⟩
  sl_exec
  sl_step
  isplitl [Hmw]; · iexact Hmw
  isplitl [Hs Hg Ho Hrest]
  · iapply (Entails.of_eq (upTo_succ (chA m d L t2) (chB m d L t2) k).symm)
    isplitr [Hrest]
    · iapply (Entails.of_eq (chB_def m d L t2 k).symm)
      isplitl [Hs]; · iexact Hs
      isplitl [Hg]; · iexact Hg
      iapply (Entails.of_eq (pointsTo_congr (chunk_value m d L t2 k fo f' hst)))
      iexact Ho
    · iexact Hrest
  isplitl [HbS]; · iexists _; iexact HbS
  isplitl [HbG]; · iexists _; iexact HbG
  isplitl [HbO]
  · iexists f'
    isplitr
    · ipureintro; exact hst.1
    iexact HbO
  isplitl [Hc0]; · iexact Hc0
  isplitl [Hc1]; · iexact Hc1
  isplitl [Hc2]; · iexact Hc2
  iexists (insert (SemLoc.dma cc0_scoped2.sem, (default : HIx 1)) (insert (SemLoc.dma cc0_scoped1.sem, (default : HIx 1)) (insert (SemLoc.dma cc0_scoped0.sem, (default : HIx 1)) W')))
  isplitr
  · ipureintro
    intro p hp
    rcases Finset.mem_insert.mp hp with rfl | hp
    · exact .inr rfl
    rcases Finset.mem_insert.mp hp with rfl | hp
    · exact .inr rfl
    rcases Finset.mem_insert.mp hp with rfl | hp
    · exact .inr rfl
    · exact hW' p hp
  · iexact HO

theorem t2_region (O : CellTallies nD τ sig (HIx 1)) (W : Waits sig (HIx 1)) (k : Fin k0_t2_loop.trips) (acc : BitVec 32) :
    inv2 m d L O W k.val acc ⊢ wp frame (wpE (defs₀ (F := F)) 𝒱₀ (thrV d L) none) Set.univ (k0_t2_body (F := F) L sV (Memref.isWhole_whole _) gV (Memref.isWhole_whole _) oV (Memref.isWhole_whole _) bS (Memref.isWhole_whole _) bG (Memref.isWhole_whole _) bO (Memref.isWhole_whole _) cc0_scoped0 cc0_scoped1 cc0_scoped2 k acc) (inv2 m d L O W (k.val + 1)) := by
  unfold inv2
  iintro ⟨Hmw, Hup, Hst⟩
  ihave Hup' := (Entails.of_eq (upTo_at (rowA m d L) (rowB m d L) k)) $$ Hup
  icases Hup' with ⟨HA, Hrest⟩
  unfold k0_t2_body
  sl_for (inv3 m d L O W k) $$ [Hmw HA Hst]
  case region => exact t3_region m d L O W k
  · unfold inv3
    isplitl [Hmw]; · iexact Hmw
    isplitl [HA]
    · iapply (Entails.of_eq (upTo_zero (chA m d L k) (chB m d L k)).symm)
      iapply (Entails.of_eq (rowA_def m d L k))
      iexact HA
    iexact Hst
  iintro %acc' HI
  unfold inv3
  icases HI with ⟨Hmw, Hup3, Hst⟩
  sl_exec
  sl_step
  isplitl [Hmw]; · iexact Hmw
  isplitl [Hup3 Hrest]
  · iapply (Entails.of_eq (upTo_succ (rowA m d L) (rowB m d L) k).symm)
    isplitl [Hup3]
    · iapply (Entails.of_eq (rowB_def m d L k).symm)
      iapply (Entails.of_eq (upTo_all (chA m d L k) (chB m d L k) (Nat.le_refl _)))
      iexact Hup3
    · iexact Hrest
  iexact Hst

end Cert.Proof.IdealSide

end
-- ==== Proof.PayIdeal.lean ====
/-
  What the launch's handshakes carry. The one call hands each SparseCore the resources of its sixteen tiles and each
  tile its own: its sixteen chunks of `s`, of `g` and of the output (`tileA`); it takes them back with the output's
  chunks at the specified function (`tileB`). Nothing of the launch's ghost state is consumed by a tile: every
  copy it makes is local and waited for at once.
-/
import proofs.«212060_g46926812676975_cont_8to1c4_366_19_alg».proof.Proof.CommonIdeal

noncomputable section

namespace Cert.Proof.IdealSide

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)
variable [FloatOps F]

omit [FloatOps F] in
theorem nCore_eq (q : Fin 1) : (K (F := F)).nCore q = grid0.bound 0 := match q with | 0 => rfl
omit [FloatOps F] in
theorem nSub_eq (q : Fin 1) : (K (F := F)).nSub q = grid0.bound 1 := match q with | 0 => rfl

/-- The grid coordinates of task `i` of SparseCore `c` of the call. -/
def tileOf (q : Fin 1) (c : Fin ((K (F := F)).nCore q)) (i : Fin ((K (F := F)).nSub q)) : grid0.Coords :=
  coordsV ⟨c.val, nCore_eq (F := F) q ▸ c.isLt⟩ ⟨i.val, nSub_eq (F := F) q ▸ i.isLt⟩

def P : (K (F := F)).Pay (nD := nD) (Val := Elt F) (Name := ℕ) (U := UU) where
  st := fun q d c => bigSep Finset.univ fun i : Fin ((K (F := F)).nSub q) => tileA m d (tileOf q c i)
  dn := fun q d c => bigSep Finset.univ fun i : Fin ((K (F := F)).nSub q) => tileB m d (tileOf q c i)
  go := fun q d c i => tileA m d (tileOf q c i)
  td := fun q d c i => tileB m d (tileOf q c i)
  x := fun _ _ => iprop(emp)

instance chA_storable (d : Dev nD) (L : grid0.Coords) (t2 : Fin k0_t2_loop.trips) (t3 : Fin k0_t3_loop.trips) :
    BI.Storable (upEmb : UEmb _ 𝕄) (chA m d L t2 t3) := by
  unfold chA; infer_instance
instance chB_storable (d : Dev nD) (L : grid0.Coords) (t2 : Fin k0_t2_loop.trips) (t3 : Fin k0_t3_loop.trips) :
    BI.Storable (upEmb : UEmb _ 𝕄) (chB m d L t2 t3) := by
  unfold chB; infer_instance
instance rowA_storable (d : Dev nD) (L : grid0.Coords) (t2 : Fin k0_t2_loop.trips) : BI.Storable (upEmb : UEmb _ 𝕄) (rowA m d L t2) := by
  unfold rowA; infer_instance
instance rowB_storable (d : Dev nD) (L : grid0.Coords) (t2 : Fin k0_t2_loop.trips) : BI.Storable (upEmb : UEmb _ 𝕄) (rowB m d L t2) := by
  unfold rowB; infer_instance
instance tileA_storable (d : Dev nD) (L : grid0.Coords) : BI.Storable (upEmb : UEmb _ 𝕄) (tileA m d L) := by
  unfold tileA; infer_instance
instance tileB_storable (d : Dev nD) (L : grid0.Coords) : BI.Storable (upEmb : UEmb _ 𝕄) (tileB m d L) := by
  unfold tileB; infer_instance

instance P_storable : (P (F := F) m).IsStorable where
  st q d c := (inferInstance : BI.Storable (upEmb : UEmb _ 𝕄) (bigSep Finset.univ fun i : Fin ((K (F := F)).nSub q) => tileA m d (tileOf q c i)))
  dn q d c := (inferInstance : BI.Storable (upEmb : UEmb _ 𝕄) (bigSep Finset.univ fun i : Fin ((K (F := F)).nSub q) => tileB m d (tileOf q c i)))
  go q d c i := (inferInstance : BI.Storable (upEmb : UEmb _ 𝕄) (tileA m d (tileOf q c i)))
  td q d c i := (inferInstance : BI.Storable (upEmb : UEmb _ 𝕄) (tileB m d (tileOf q c i)))

end Cert.Proof.IdealSide

end
-- ==== Proof.TileOblIdeal.lean ====
/-
  The whole task of a tile and the launch theorem's obligation for it. The task: the zero fill's loop from the
  staging buffer at anything, then the row loop over the tile's four rows from its sixteen chunks as handed over; at
  the end every chunk of the output the tile owns holds the specified function, the scratch buffers and the three
  semaphores go back as they came (the semaphores at zero: every copy was waited for). The obligation is the task at
  the grid coordinates of the call's SparseCore and vector subcore.
-/
import proofs.«212060_g46926812676975_cont_8to1c4_366_19_alg».proof.Proof.TileIdeal
import proofs.«212060_g46926812676975_cont_8to1c4_366_19_alg».proof.Proof.PayIdeal

noncomputable section

namespace Cert.Proof.IdealSide

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.LibTrips

variable {F : FTy → Type}

local notation "𝕄" => MT nD τ sig (HIx 1) (Elt F) ℕ UU ℕ

variable (m : (ℓ : Loc nD τ sig) → Buf (Elt F) ℓ)
variable [FloatOps F]

section Task

variable (d : Dev nD) (L : grid0.Coords)

theorem tile_body (hF : (K (F := F)).Facts) (O : CellTallies nD τ sig (HIx 1)) (W : Waits sig (HIx 1)) (hO : ∀ g, O g none = 0) :
    iprop(levAts (K (F := F)).L (K (F := F)).lev ∗ emp ∗ tileA m d L
        ∗ scopedBufs (thrV d L) ∗ scopedSems0 (thrV d L) ∗ owes (thrV d L) O W)
      ⊢ wp frame (wpE (defs₀ (F := F)) 𝒱₀ (thrV d L) none) Set.univ (cc0_sc_k (F := F) L sV (Memref.isWhole_whole _) gV (Memref.isWhole_whole _) oV (Memref.isWhole_whole _) bS (Memref.isWhole_whole _) bG (Memref.isWhole_whole _) bO (Memref.isWhole_whole _) cc0_scoped0 cc0_scoped1 cc0_scoped2)
          fun _ => iprop(tileB m d L ∗ scopedBufs (thrV d L) ∗ scopedSems0 (thrV d L)
            ∗ ∃ W', ⌜∀ p ∈ W', p ∈ W ∨ p.2 = none⌝ ∗ owes (thrV d L) O W') := by
  simp only [cc0_sc_k_eq_skeleton]; unfold cc0_sc_k_skel
  rw [(K (F := F)).scopedBufs_V hF d (cV L) (jV L), SparseCore.Cfg.scopedSems0_V (Val := Elt F) d (cV L) (jV L), ownSems0_V, ownBufs_V]
  iintro ⟨#Hlv, -, HA, ⟨⟨%fs, HbS⟩, ⟨%fg, HbG⟩, ⟨%fo, HbO⟩, Hbufs⟩, ⟨Hc0, Hc1, Hc2, Hsems⟩, HO⟩
  ihave Hmw := ((K (F := F)).mayWaits_none (thr := thrV d L) hO) $$ Hlv
  sl_for (inv1 (F := F) d L) $$ [HbO]
  case region => exact t1_region d L
  · unfold inv1
    iexists fo
    isplitr
    · ipureintro; intro q hq; exact absurd hq (by omega)
    iexact HbO
  iintro %a1 HI
  unfold inv1
  icases HI with ⟨%fz, %hz, HbO⟩
  sl_for (inv2 m d L O W) $$ [Hmw HA HbS HbG HbO Hc0 Hc1 Hc2 HO]
  case region => exact t2_region m d L O W
  · unfold inv2 tileSt
    isplitl [Hmw]; · iexact Hmw
    isplitl [HA]
    · iapply (Entails.of_eq (upTo_zero (rowA m d L) (rowB m d L)).symm)
      iapply (Entails.of_eq (tileA_def m d L))
      iexact HA
    isplitl [HbS]; · iexists _; iexact HbS
    isplitl [HbG]; · iexists _; iexact HbG
    isplitl [HbO]
    · iexists fz
      isplitr
      · ipureintro; exact zeroed_all fz hz
      iexact HbO
    isplitl [Hc0]; · iexact Hc0
    isplitl [Hc1]; · iexact Hc1
    isplitl [Hc2]; · iexact Hc2
    iexists W
    isplitr
    · ipureintro; exact fun p hp => .inl hp
    iexact HO
  iintro %a2 HI
  unfold inv2 tileSt
  icases HI with ⟨-, Hup, ⟨%fS, HbS⟩, ⟨%fG, HbG⟩, ⟨%fO, -, HbO⟩, Hc0, Hc1, Hc2, %W', %hW', HO⟩
  sl_exec
  sl_step
  isplitl [Hup]
  · iapply (Entails.of_eq (tileB_def m d L).symm)
    iapply (Entails.of_eq (upTo_all (rowA m d L) (rowB m d L) (Nat.le_refl _)))
    iexact Hup
  isplitl [HbS HbG HbO Hbufs]
  · isplitl [HbS]; · iexists _; iexact HbS
    isplitl [HbG]; · iexists _; iexact HbG
    isplitl [HbO]; · iexists _; iexact HbO
    iexact Hbufs
  isplitl [Hc0 Hc1 Hc2 Hsems]
  · isplitl [Hc0]; · iexact Hc0
    isplitl [Hc1]; · iexact Hc1
    isplitl [Hc2]; · iexact Hc2
    iexact Hsems
  iexists W'
  isplitr
  · ipureintro; exact hW'
  iexact HO

end Task

/-! ## The launch theorem's obligation -/

theorem defs₀_vector (c : Fin τ.nSC) (s : Fin τ.nSub) :
    defs₀ (F := F) (.scVector c s) 0 ()
      = SparseCore.onTile hcore0 hsub0 (fun c s => cc0_sc_k (F := F) (coordsV c s)
          sV (Memref.isWhole_whole _) gV (Memref.isWhole_whole _) oV (Memref.isWhole_whole _) bS (Memref.isWhole_whole _) bG (Memref.isWhole_whole _) bO (Memref.isWhole_whole _) cc0_scoped0 cc0_scoped1 cc0_scoped2) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) : (K (F := F)).TileObl (D (F := F)) 𝒱 (P m) v₀ 0 := by
  intro d c i O W hO _ _
  -- the tile owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF O W hO).trans (wp_mono frame _ _ fun _ => obl_post)

end Cert.Proof.IdealSide

end
-- ==== Proof.SplitIdeal.lean ====
/-
  The launch's three arrays dealt to the 32 tiles and gathered back. A chunk — tile (c, j), row trip t2, column trip
  t3 — is row 8·j + 4·c + t2, columns [8192·t3, 8192·t3 + 8192) of an argument array, and the same row and columns
  with both planes of the output array. Rows 0 … 127 are exactly the numbers 8·j + 4·c + t2 with j < 16, c < 2,
  t2 < 4, each once, and the columns 0 … 32767 fall into the four ranges of 8192, each once: so the 512 chunks are
  pairwise disjoint and cover each array, a points-to of a whole array is the separating conjunction of the
  points-to of its chunks, and the conjunction over the product of the four indices is the four nested ones.
-/
import proofs.«212060_g46926812676975_cont_8to1c4_366_19_alg».proof.Proof.CommonIdeal

noncomputable section

namespace Cert.Proof.IdealSide

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

variable [FloatOps F]

/-! ## The chunks, indexed by one product type -/

/-- A chunk's name: the SparseCore, the vector subcore, the row trip, the column trip. -/
abbrev Chunk : Type := Fin (grid0.bound 0) × Fin (grid0.bound 1) × Fin k0_t2_loop.trips × Fin k0_t3_loop.trips

theorem trips2 : k0_t2_loop.trips = 4 := by decide
theorem trips3 : k0_t3_loop.trips = 4 := by decide

/-- The chunk's rectangle in an argument array: one row, 8192 columns. -/
abbrev rect2 (p : Chunk) : Rect S128x32768 :=
  Rect.unit (s := S128x32768) (k0_off2 (coordsV p.1 p.2.1) p.2.2.1 p.2.2.2) S1x8192.size (k0_off2_inb (coordsV p.1 p.2.1) p.2.2.1 p.2.2.2)
/-- The chunk's rectangle in the output array: one row, both planes, 8192 columns. -/
abbrev rect3 (p : Chunk) : Rect S128x2x32768 :=
  Rect.unit (s := S128x2x32768) (k0_off5 (coordsV p.1 p.2.1) p.2.2.1 p.2.2.2) S1x2x8192.size (k0_off5_inb (coordsV p.1 p.2.1) p.2.2.1 p.2.2.2)

/-- An element lies in a chunk's rectangle when its row is `8·j + 4·c + t2` and its column is in the chunk's 8192. -/
theorem mem_rect2 (p : Chunk) (i : S128x32768.Idx) :
    i ∈ (rect2 p).set ↔ (i 0).val = 8 * p.2.1.val + 4 * p.1.val + p.2.2.1.val
      ∧ 8192 * p.2.2.2.val ≤ (i 1).val ∧ (i 1).val < 8192 * p.2.2.2.val + 8192 := by
  rw [Rect.mem_set_unit, k0_off2_eq, Fin.forall_fin_two]
  show (8 * p.2.1.val + 4 * p.1.val + p.2.2.1.val ≤ (i 0).val ∧ (i 0).val < 8 * p.2.1.val + 4 * p.1.val + p.2.2.1.val + 1)
    ∧ (8192 * p.2.2.2.val ≤ (i 1).val ∧ (i 1).val < 8192 * p.2.2.2.val + 8192) ↔ _
  omega

theorem mem_rect3 (p : Chunk) (i : S128x2x32768.Idx) :
    i ∈ (rect3 p).set ↔ (i 0).val = 8 * p.2.1.val + 4 * p.1.val + p.2.2.1.val
      ∧ 8192 * p.2.2.2.val ≤ (i 2).val ∧ (i 2).val < 8192 * p.2.2.2.val + 8192 := by
  have h1 : (i 1).val < 2 := (i 1).isLt
  rw [Rect.mem_set_unit, k0_off5_eq, Fin.forall_fin_succ, Fin.forall_fin_two]
  show (8 * p.2.1.val + 4 * p.1.val + p.2.2.1.val ≤ (i 0).val ∧ (i 0).val < 8 * p.2.1.val + 4 * p.1.val + p.2.2.1.val + 1)
    ∧ (0 ≤ (i 1).val ∧ (i 1).val < 0 + 2) ∧ (8192 * p.2.2.2.val ≤ (i 2).val ∧ (i 2).val < 8192 * p.2.2.2.val + 8192) ↔ _
  omega

/-- Two chunks that share an element have the same name: the row fixes `j`, `c` and `t2`, the column fixes `t3`. -/
theorem chunk_eq_of_rows {p p' : Chunk} {r k : Nat}
    (h : r = 8 * p.2.1.val + 4 * p.1.val + p.2.2.1.val) (h' : r = 8 * p'.2.1.val + 4 * p'.1.val + p'.2.2.1.val)
    (hk : 8192 * p.2.2.2.val ≤ k ∧ k < 8192 * p.2.2.2.val + 8192) (hk' : 8192 * p'.2.2.2.val ≤ k ∧ k < 8192 * p'.2.2.2.val + 8192) : p = p' := by
  obtain ⟨c, j, t2, t3⟩ := p
  obtain ⟨c', j', t2', t3'⟩ := p'
  have hc : c.val < 2 := c.isLt
  have hc' : c'.val < 2 := c'.isLt
  have ht : t2.val < 4 := trips2 ▸ t2.isLt
  have ht' : t2'.val < 4 := trips2 ▸ t2'.isLt
  simp only at h h' hk hk'
  have e : c.val = c'.val ∧ j.val = j'.val ∧ t2.val = t2'.val ∧ t3.val = t3'.val := by omega
  exact Prod.ext (Fin.ext e.1) (Prod.ext (Fin.ext e.2.1) (Prod.ext (Fin.ext e.2.2.1) (Fin.ext e.2.2.2)))

theorem rect2_disjoint : ∀ p ∈ (Finset.univ : Finset Chunk), ∀ p' ∈ (Finset.univ : Finset Chunk), p ≠ p' →
    Disjoint (rect2 p).set (rect2 p').set := by
  intro p _ p' _ hne
  rw [Finset.disjoint_left]
  intro i hi hi'
  rw [mem_rect2] at hi hi'
  exact hne (chunk_eq_of_rows hi.1 hi'.1 hi.2 hi'.2)

theorem rect3_disjoint : ∀ p ∈ (Finset.univ : Finset Chunk), ∀ p' ∈ (Finset.univ : Finset Chunk), p ≠ p' →
    Disjoint (rect3 p).set (rect3 p').set := by
  intro p _ p' _ hne
  rw [Finset.disjoint_left]
  intro i hi hi'
  rw [mem_rect3] at hi hi'
  exact hne (chunk_eq_of_rows hi.1 hi'.1 hi.2 hi'.2)

/-- The chunk an element of row `r`, column `k` lies in. -/
def chunkOf (r k : Nat) (hr : r < 128) (hk : k < 32768) : Chunk :=
  (⟨r / 4 % 2, by show _ < 2; omega⟩, ⟨r / 8, by show _ < 16; omega⟩, ⟨r % 4, by rw [trips2]; omega⟩, ⟨k / 8192, by rw [trips3]; omega⟩)

theorem rect2_cover : (Finset.univ : Finset Chunk).biUnion (fun p => (rect2 p).set) = Finset.univ := by
  rw [Finset.eq_univ_iff_forall]
  intro i
  have h0 : (i 0).val < 128 := (i 0).isLt
  have h1 : (i 1).val < 32768 := (i 1).isLt
  rw [Finset.mem_biUnion]
  refine ⟨chunkOf (i 0).val (i 1).val h0 h1, Finset.mem_univ _, ?_⟩
  rw [mem_rect2]
  show (i 0).val = 8 * ((i 0).val / 8) + 4 * ((i 0).val / 4 % 2) + (i 0).val % 4
    ∧ 8192 * ((i 1).val / 8192) ≤ (i 1).val ∧ (i 1).val < 8192 * ((i 1).val / 8192) + 8192
  omega

theorem rect3_cover : (Finset.univ : Finset Chunk).biUnion (fun p => (rect3 p).set) = Finset.univ := by
  rw [Finset.eq_univ_iff_forall]
  intro i
  have h0 : (i 0).val < 128 := (i 0).isLt
  have h2 : (i 2).val < 32768 := (i 2).isLt
  rw [Finset.mem_biUnion]
  refine ⟨chunkOf (i 0).val (i 2).val h0 h2, Finset.mem_univ _, ?_⟩
  rw [mem_rect3]
  show (i 0).val = 8 * ((i 0).val / 8) + 4 * ((i 0).val / 4 % 2) + (i 0).val % 4
    ∧ 8192 * ((i 2).val / 8192) ≤ (i 2).val ∧ (i 2).val < 8192 * ((i 2).val / 8192) + 8192
  omega

/-! ## The chunks as the body slices them are these rectangles -/

theorem set_sCh (p : Chunk) : (sCh (coordsV p.1 p.2.1) p.2.2.1 p.2.2.2).view.set = (rect2 p).set := by
  show (((View.whole (main_arg0_scv : Ref sig .scVector)).slice (rect2 p)).reshape S8192 squeezes_S1x8192_S8192.numel_eq).set = _
  rw [View.set_reshape, View.set_slice_whole]
theorem set_gCh (p : Chunk) : (gCh (coordsV p.1 p.2.1) p.2.2.1 p.2.2.2).view.set = (rect2 p).set := by
  show (((View.whole (main_arg1_scv : Ref sig .scVector)).slice (rect2 p)).reshape S8192 squeezes_S1x8192_S8192.numel_eq).set = _
  rw [View.set_reshape, View.set_slice_whole]
theorem set_oCh (p : Chunk) : (oCh (coordsV p.1 p.2.1) p.2.2.1 p.2.2.2).view.set = (rect3 p).set := by
  show (((View.whole (main_v0_scv : Ref sig .scVector)).slice (rect3 p)).reshape S2x8192 squeezes_S1x2x8192_S2x8192.numel_eq).set = _
  rw [View.set_reshape, View.set_slice_whole]

/-! ## Each array is the separating conjunction of its 512 chunks -/

omit [FloatOps F] in
theorem sPts_chunks (d : Dev nD) (f : Buf (Elt F) (sLoc d)) :
    (sLoc d ↦{fullShare} f : sProp 𝕄) = bigSep Finset.univ fun p : Chunk => sLoc d ↦[(rect2 p).set]{fullShare} f := by
  rw [← pointsTo_biUnion Finset.univ (ℓ := sLoc d) (fun p : Chunk => (rect2 p).set) rect2_disjoint, rect2_cover]; try rfl
omit [FloatOps F] in
theorem gPts_chunks (d : Dev nD) (f : Buf (Elt F) (gLoc d)) :
    (gLoc d ↦{fullShare} f : sProp 𝕄) = bigSep Finset.univ fun p : Chunk => gLoc d ↦[(rect2 p).set]{fullShare} f := by
  rw [← pointsTo_biUnion Finset.univ (ℓ := gLoc d) (fun p : Chunk => (rect2 p).set) rect2_disjoint, rect2_cover]; try rfl
omit [FloatOps F] in
theorem oPts_chunks (d : Dev nD) (f : Buf (Elt F) (oLoc d)) :
    (oLoc d ↦{fullShare} f : sProp 𝕄) = bigSep Finset.univ fun p : Chunk => oLoc d ↦[(rect3 p).set]{fullShare} f := by
  rw [← pointsTo_biUnion Finset.univ (ℓ := oLoc d) (fun p : Chunk => (rect3 p).set) rect3_disjoint, rect3_cover]; try rfl

/-! ## The four nested conjunctions as one over the product -/

omit [FloatOps F] in
theorem bigSep_chunks (Φ : Chunk → sProp 𝕄) :
    bigSep Finset.univ Φ = bigSep Finset.univ fun c => bigSep Finset.univ fun j => bigSep Finset.univ fun t2 =>
      bigSep Finset.univ fun t3 => Φ (c, j, t2, t3) := by
  rw [bigSep_univ_prod]; refine bigSep_congr fun c _ => ?_
  rw [bigSep_univ_prod]; refine bigSep_congr fun j _ => ?_
  rw [bigSep_univ_prod]

/-- A chunk's resources before and after, over the rectangles. -/
theorem chA_eq (d : Dev nD) (p : Chunk) :
    chA m d (coordsV p.1 p.2.1) p.2.2.1 p.2.2.2
      = iprop((sLoc d ↦[(rect2 p).set]{fullShare} m (sLoc d)) ∗ (gLoc d ↦[(rect2 p).set]{fullShare} m (gLoc d))
          ∗ ∃ f, oLoc d ↦[(rect3 p).set]{fullShare} f) := by
  unfold chA; rw [set_sCh, set_gCh, set_oCh]
theorem chB_eq (d : Dev nD) (p : Chunk) :
    chB m d (coordsV p.1 p.2.1) p.2.2.1 p.2.2.2
      = iprop((sLoc d ↦[(rect2 p).set]{fullShare} m (sLoc d)) ∗ (gLoc d ↦[(rect2 p).set]{fullShare} m (gLoc d))
          ∗ oLoc d ↦[(rect3 p).set]{fullShare} want m d) := by
  unfold chB; rw [set_sCh, set_gCh, set_oCh]

theorem tilesA_eq (d : Dev nD) :
    (bigSep Finset.univ fun c : Fin (grid0.bound 0) => bigSep Finset.univ fun j : Fin (grid0.bound 1) => tileA m d (coordsV c j))
      = bigSep Finset.univ fun p : Chunk => chA m d (coordsV p.1 p.2.1) p.2.2.1 p.2.2.2 :=
  (bigSep_chunks (F := F) fun p : Chunk => chA m d (coordsV p.1 p.2.1) p.2.2.1 p.2.2.2).symm
theorem tilesB_eq (d : Dev nD) :
    (bigSep Finset.univ fun c : Fin (grid0.bound 0) => bigSep Finset.univ fun j : Fin (grid0.bound 1) => tileB m d (coordsV c j))
      = bigSep Finset.univ fun p : Chunk => chB m d (coordsV p.1 p.2.1) p.2.2.1 p.2.2.2 :=
  (bigSep_chunks (F := F) fun p : Chunk => chB m d (coordsV p.1 p.2.1) p.2.2.1 p.2.2.2).symm

/-! ## The split and the join -/

/-- The launch's three arrays, dealt to the 32 tiles: each tile its sixteen chunks of `s`, of `g` and of the output. -/
theorem split_all (d : Dev nD) :
    (iprop((sLoc d ↦{fullShare} m (sLoc d)) ∗ (gLoc d ↦{fullShare} m (gLoc d)) ∗ ∃ f, oLoc d ↦{fullShare} f) : sProp 𝕄)
      ⊢ bigSep Finset.univ fun c : Fin (grid0.bound 0) => bigSep Finset.univ fun j : Fin (grid0.bound 1) => tileA m d (coordsV c j) := by
  rw [tilesA_eq, bigSep_congr (fun p _ => chA_eq m d p), bigSep_sep', bigSep_sep', ← sPts_chunks, ← gPts_chunks]
  iintro ⟨Hs, Hg, %f, Ho⟩
  isplitl [Hs]; · iexact Hs
  isplitl [Hg]; · iexact Hg
  ihave Ho' := (Entails.of_eq (oPts_chunks (F := F) d f)) $$ Ho
  have hm : (bigSep Finset.univ fun p : Chunk => oLoc d ↦[(rect3 p).set]{fullShare} f : sProp 𝕄)
      ⊢ bigSep Finset.univ fun p : Chunk => iprop(∃ f, oLoc d ↦[(rect3 p).set]{fullShare} f) :=
    bigSep_mono fun p _ => exists_intro (Φ := fun f' : Buf (Elt F) (oLoc d) => (oLoc d ↦[(rect3 p).set]{fullShare} f' : sProp 𝕄)) f
  iapply hm $$ Ho'

/-- The tiles' chunks, the output's at the specified function, joined back into the three arrays. -/
theorem join_all (d : Dev nD) :
    (bigSep Finset.univ fun c : Fin (grid0.bound 0) => bigSep Finset.univ fun j : Fin (grid0.bound 1) => tileB m d (coordsV c j))
      ⊢ (iprop((sLoc d ↦{fullShare} m (sLoc d)) ∗ (gLoc d ↦{fullShare} m (gLoc d)) ∗ oLoc d ↦{fullShare} want m d) : sProp 𝕄) := by
  rw [tilesB_eq, bigSep_congr (fun p _ => chB_eq m d p), bigSep_sep', bigSep_sep', ← sPts_chunks, ← gPts_chunks, ← oPts_chunks]

end Cert.Proof.IdealSide

end
-- ==== Proof.LaunchIdeal.lean ====
/-
  The launch of the kernel program, given each tile's obligation. On each device the TensorCore holds four arrays:
  `s`, `g`, the kernel's output [128, 2, 32768] and the result [128, 32768, 2]. At the call it deals the first three
  to the 32 tiles, each its sixteen chunks, and takes them back with the output's chunks at the specified function;
  joined, the output holds plane 0 zero and plane 1 the values. The host operation after the call exchanges the last
  two axes, which turns that array into the specified result index by index. So every weakly fair execution
  terminates with the result at the specified array of the arguments' launch contents and the arguments unchanged.
  The handshakes' ghost state is the only one: a tile's copies are local and waited for at once.
-/
import proofs.«212060_g46926812676975_cont_8to1c4_366_19_alg».proof.Proof.PayIdeal
import proofs.«212060_g46926812676975_cont_8to1c4_366_19_alg».proof.Proof.SplitIdeal
import Idealize.ShloMosaic.Lib.Pipeline.Value
import Idealize.ShloMosaic.Lib.ValueIdx

noncomputable section

namespace Cert.Proof.IdealSide

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The value: the kernel's array with its last two axes exchanged is the specified result -/

theorem transpose_mid (s g : FVec F Cert.Spec.SIn .f32) (h : S128x2x32768.Transposes [0, 2, 1] S128x32768x2) :
    transpose S128x32768x2 [0, 2, 1] (Cert.Spec.mid s g) h = Cert.Spec.out s g := by
  funext i
  rw [Cert.Spec.out_eq_mid]
  exact transpose_apply _ _ h i (ix3 (i 0) (i 2) (i 1)) (by intro b; fin_cases b <;> rfl)

/-! ## The tasks of one SparseCore: the call's payload for it is already its tiles' -/

theorem vecSplit : (K (F := F)).VecSplit' (P m) 0 := by
  intro d c
  show (bigSep Finset.univ fun i : Fin ((K (F := F)).nSub 0) => tileA m d (tileOf 0 c i))
    ⊢ |={Set.univ}=> iprop((bigSep Finset.univ fun i : Fin ((K (F := F)).nSub 0) => tileA m d (tileOf 0 c i))
      ∗ ((bigSep Finset.univ fun i : Fin ((K (F := F)).nSub 0) => tileB m d (tileOf 0 c i))
          -∗ bigSep Finset.univ fun i : Fin ((K (F := F)).nSub 0) => tileB m d (tileOf 0 c i)))
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

abbrev s' : DevRef τ sig := Proc.devRef .tc (main_arg0 : Ref sig .tc)
abbrev g' : DevRef τ sig := Proc.devRef .tc (main_arg1 : Ref sig .tc)
abbrev o' : DevRef τ sig := Proc.devRef .tc (main_v0 : Ref sig .tc)
abbrev r' : DevRef τ sig := Proc.devRef .tc (main_v1 : Ref sig .tc)
/-- The host operation after the call: the exchange of the last two axes. -/
abbrev opT : HloOp τ sig (Elt F) :=
  StableHlo.unary main_v0 main_v1 ((transpose S128x32768x2 [0, 2, 1] · transposes_S128x2x32768_S128x32768x2_0_2_1) : (⟨S128x2x32768, .f32⟩ : BufTy).Contents (Elt F) → (⟨S128x32768x2, .f32⟩ : BufTy).Contents (Elt F))

/-- The TensorCore's arrays, all unscoped: `s`, `g`, the kernel's output, the result. -/
abbrev S4 : Finset (DevRef τ sig) := {s', g', o', r'}

omit [FloatOps F] in
theorem held_S4 (d : Dev nD) (W : Valuation τ sig (Elt F)) :
    (held (T d) S4 W : sProp 𝕄) = iprop((sLoc d ↦{fullShare} W s') ∗ (gLoc d ↦{fullShare} W g') ∗ (oLoc d ↦{fullShare} W o') ∗ rLoc d ↦{fullShare} W r') := by
  unfold held S4
  rw [SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((sLoc d ↦{fullShare} W main_arg0) ∗ (gLoc d ↦{fullShare} W main_arg1) ∗ (oLoc d ↦{fullShare} W main_v0) ∗ rLoc d ↦{fullShare} W main_v1) := by
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]

/-- The launch valuation; after the call, the kernel's output at the specified function. -/
def V0 (d : Dev nD) : Valuation τ sig (Elt F) := fun b => m (d, b)
def V1 (d : Dev nD) : Valuation τ sig (Elt F) := Function.update (V0 m d) o' (want m d)

theorem V1_s (d : Dev nD) : V1 m d s' = m (sLoc d) := Function.update_of_ne (show s' ≠ o' by decide) _ _
theorem V1_g (d : Dev nD) : V1 m d g' = m (gLoc d) := Function.update_of_ne (show g' ≠ o' by decide) _ _
theorem V1_o (d : Dev nD) : V1 m d o' = want m d := Function.update_self _ _ _
theorem V1_r (d : Dev nD) : V1 m d r' = V0 m d r' := Function.update_of_ne (show r' ≠ o' by decide) _ _

theorem hT : (opT (F := F)).bufs ⊆ S4 := show ({o', r'} : Finset (DevRef τ sig)) ⊆ S4 by decide

/-- After the exchange: `s` and `g` at their launch contents, the kernel's output as it was, the result at the
    specified array. -/
theorem held_after (d : Dev nD) :
    (held (T d) S4 ((opT (F := F)).result (V1 m d)) : sProp 𝕄)
      = iprop((sLoc d ↦{fullShare} m (sLoc d)) ∗ (gLoc d ↦{fullShare} m (gLoc d)) ∗ (oLoc d ↦{fullShare} want m d)
          ∗ rLoc d ↦{fullShare} Cert.Spec.out (F := F) (m (sLoc d)) (m (gLoc d))) := by
  have hr : (opT (F := F)).result (V1 m d) r' = Cert.Spec.out (F := F) (m (sLoc d)) (m (gLoc d)) := by
    refine (StableHlo.unary_result main_v0 main_v1 _ _ _ (V1 m d)).trans ?_
    show transpose S128x32768x2 [0, 2, 1] (V1 m d o') transposes_S128x2x32768_S128x32768x2_0_2_1 = _
    rw [V1_o]
    exact transpose_mid (m (sLoc d)) (m (gLoc d)) _
  rw [held_S4, (opT (F := F)).result_of_not_mem (V1 m d) (b := s') (show s' ∉ ({r'} : Finset (DevRef τ sig)) by decide),
    (opT (F := F)).result_of_not_mem (V1 m d) (b := g') (show g' ∉ ({r'} : Finset (DevRef τ sig)) by decide),
    (opT (F := F)).result_of_not_mem (V1 m d) (b := o') (show o' ∉ ({r'} : Finset (DevRef τ sig)) by decide),
    V1_s, V1_g, V1_o, hr]

/-- What the call takes for the two SparseCores, and what it hands back: every tile's chunks. -/
theorem st0_core (d : Dev nD) (c : Fin ((K (F := F)).nCore 0)) :
    (P m).st 0 d c = bigSep Finset.univ fun j : Fin (grid0.bound 1) => tileA m d (coordsV c j) :=
  (show (P m).st 0 d c = bigSep (Finset.univ : Finset (Fin ((K (F := F)).nSub 0))) fun i => tileA m d (tileOf 0 c i) from rfl).trans
    (bigSep_congr fun j _ => rfl)
theorem dn0_core (d : Dev nD) (c : Fin ((K (F := F)).nCore 0)) :
    (P m).dn 0 d c = bigSep Finset.univ fun j : Fin (grid0.bound 1) => tileB m d (coordsV c j) :=
  (show (P m).dn 0 d c = bigSep (Finset.univ : Finset (Fin ((K (F := F)).nSub 0))) fun i => tileB m d (tileOf 0 c i) from rfl).trans
    (bigSep_congr fun j _ => rfl)
theorem st0_eq (d : Dev nD) : (bigSep Finset.univ fun c : Fin ((K (F := F)).nCore 0) => (P m).st 0 d c)
    = bigSep Finset.univ fun c : Fin (grid0.bound 0) => bigSep Finset.univ fun j : Fin (grid0.bound 1) => tileA m d (coordsV c j) :=
  bigSep_congr fun c _ => st0_core m d c
theorem dn0_eq (d : Dev nD) : (bigSep Finset.univ fun c : Fin ((K (F := F)).nCore 0) => (P m).dn 0 d c)
    = bigSep Finset.univ fun c : Fin (grid0.bound 0) => bigSep Finset.univ fun j : Fin (grid0.bound 1) => tileB m d (coordsV c j) :=
  bigSep_congr fun c _ => dn0_core m d c

/-- What @main leaves the claim: `s` and `g` at their launch contents, the result at the specified array. -/
abbrev FIN (d : Dev nD) : sProp 𝕄 :=
  iprop((sLoc d ↦{fullShare} m (sLoc d)) ∗ (gLoc d ↦{fullShare} m (gLoc d)) ∗ rLoc d ↦{fullShare} Cert.Spec.out (F := F) (m (sLoc d)) (m (gLoc d)))

/-- @main on device `d`'s TensorCore: the call, from the three arrays dealt to the tiles and gathered back; then the
    exchange of the last two axes. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hs, Hg, Ho, Hr⟩, -, -⟩, -⟩
  iapply ((K (F := F)).wp_run (D (F := F)) 𝒱 (EH := EH) (P := P m) κ d 0) $$ [Hst Hs Hg Ho Hb Hr]
  isplitr; · iexact Hctx
  isplitl [Hst]; · iexact Hst
  isplitl [Hs Hg Ho]
  · rw [st0_eq]
    iapply (split_all m d)
    isplitl [Hs]; · iexact Hs
    isplitl [Hg]; · iexact Hg
    iexists _; iexact Ho
  iintro ⟨Hst, Hdn⟩
  ihave Hdn' := (Entails.of_eq (dn0_eq m d)) $$ Hdn
  ihave Hj := (join_all m d) $$ Hdn'
  icases Hj with ⟨Hs, Hg, Ho⟩
  iapply (wp_hlo_within 𝒱 (SparseCore.T d) none Set.univ (op := opT) (S := S4) hT (V := V1 m d)) $$ [Hb Hs Hg Ho Hr]
  · isplitl [Hb]; · iexact Hb
    rw [held_S4, V1_s, V1_g, V1_o, V1_r]
    isplitl [Hs]; · iexact Hs
    isplitl [Hg]; · iexact Hg
    isplitl [Ho]; · iexact Ho
    iexact Hr
  iintro ⟨Hb, Hheld⟩
  ihave Hh := (Entails.of_eq (held_after (F := F) m d)) $$ Hheld
  icases Hh with ⟨Hs, Hg, -, Hr⟩
  rw [wp_ret]; imodintro; imodintro
  isplitl [Hst]; · iexact Hst
  isplitl [Hs]; · iexact Hs
  isplitl [Hg]; · iexact Hg
  iexact Hr

def fq (d : Dev nD) (st : Phys nD τ sig (Elt F)) : Prop :=
  st.mem.mem (rLoc d) = Cert.Spec.out (F := F) (m (sLoc d)) (m (gLoc d)) ∧ st.mem.mem (sLoc d) = m (sLoc d) ∧ st.mem.mem (gLoc d) = m (gLoc d)

theorem hfin (d : Dev nD) (st : Phys nD τ sig (Elt F)) : iprop(FIN m d ∗ SI st) ⊢ (⌜fq m d st⌝ : sProp 𝕄) := by
  iintro ⟨⟨Hs, Hg, Hr⟩, HSI⟩
  ihave H := (persistent_entails_right (SI_pointsTo_agree (st := st) (ℓ := sLoc d) (I := Finset.univ) (q := fullShare) (f := m (sLoc d)))) $$ [HSI Hs]
  · isplitl [HSI] <;> iassumption
  icases H with ⟨%h1, HSI, -⟩
  ihave H := (persistent_entails_right (SI_pointsTo_agree (st := st) (ℓ := gLoc d) (I := Finset.univ) (q := fullShare) (f := m (gLoc d)))) $$ [HSI Hg]
  · isplitl [HSI] <;> iassumption
  icases H with ⟨%h2, HSI, -⟩
  ihave H := (SI_pointsTo_agree (st := st) (ℓ := rLoc d) (I := Finset.univ) (q := fullShare) (f := Cert.Spec.out (F := F) (m (sLoc d)) (m (gLoc d)))) $$ [HSI Hr]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

/-- From any memory with zero counters, given each tile's obligation: every weakly fair execution of the kernel
    program terminates with the result at the specified array of the arguments' launch contents and the arguments
    unchanged. -/
theorem run_main [∀ e, Nonempty (Elt F e)] (hTile : (K (F := F)).TileObl (D (F := F)) 𝒱 (P m) v₀ 0) :
    θ_run (Cert.KernelIdeal.defs (F := F)) (Cert.KernelIdeal.threads (F := F)) ⟨m, fun _ => 0, ρ⟩
      (fun r => ∀ c : Dev nD, r.2.mem (rLoc c) = Cert.Spec.out (F := F) (m (sLoc c)) (m (gLoc c)) ∧ r.2.mem (sLoc c) = m (sLoc c) ∧ r.2.mem (gLoc c) = m (gLoc c)) :=
  SparseCore.Cfg.θ_run_sc (K := K (F := F)) (D := D (F := F)) (𝒱 := 𝒱) (EH := EH) (P := P m) facts v₀
    (fun q hq => match q with | 0 => nomatch hq)
    (fun q _ => match q with | 0 => hTile)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) _ (fun _ h => h)

end Cert.Proof.IdealSide

end
-- ==== Proof.CommonBits.lean ====
/-
  What the parts of the word-level kernel's proof share. The program as the launch theorem sees it; the resource
  algebra (the handshakes' rounds beside the transfer counters: every copy a tile makes is local and waited for at
  once, so no schedule is needed); the arrays and a tile's three scratch buffers as the body table passes them; the
  CHUNKS: tile (c, j) works on rows 8·j + 4·c + r (r < 4) and moves each row in four pieces of 8192 columns, so a
  chunk is named by the tile's coordinates, the row trip and the column trip, and is spelt exactly as the body
  slices it. A tile is handed its sixteen chunks of `s`, of `g` and of the output, and hands them back with the
  output's at the specified function.
-/
import proofs.«212060_g46926812676975_cont_8to1c4_366_19_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«212060_g46926812676975_cont_8to1c4_366_19_alg».proof.Proof.Gen.Kernel
import proofs.«212060_g46926812676975_cont_8to1c4_366_19_alg».proof.Proof.Gen.Kernel.Skeleton
import proofs.«212060_g46926812676975_cont_8to1c4_366_19_alg».proof.Proof.Spec
import proofs.«212060_g46926812676975_cont_8to1c4_366_19_alg».proof.Proof.LibTrips

noncomputable section

namespace Cert.Proof.BitsSide

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory, the arrays, a tile's scratch -/

variable (m : (ℓ : Loc nD τ sig) → Buf (Elt F) ℓ) (ρ : Dev nD → PrngReg)

abbrev sLoc (d : Dev nD) : Loc nD τ sig := (SparseCore.T d).loc main_arg0
abbrev gLoc (d : Dev nD) : Loc nD τ sig := (SparseCore.T d).loc main_arg1
abbrev oLoc (d : Dev nD) : Loc nD τ sig := (SparseCore.T d).loc main_v0
abbrev rLoc (d : Dev nD) : Loc nD τ sig := (SparseCore.T d).loc main_v1

variable [FloatOps F]

abbrev sV : Memref sig .scVector .hbm S128x32768 .f32 := Memref.whole main_arg0_scv
abbrev gV : Memref sig .scVector .hbm S128x32768 .f32 := Memref.whole main_arg1_scv
abbrev oV : Memref sig .scVector .hbm S128x2x32768 .f32 := Memref.whole main_v0_scv
/-- A tile's scratch: the fetched piece of `s`, of `g`, and the two-row staging buffer of the output. -/
abbrev bS : Memref sig .scVector .vmem S8192 .f32 := Memref.whole cc0_scratch0
abbrev bG : Memref sig .scVector .vmem S8192 .f32 := Memref.whole cc0_scratch1
abbrev bO : Memref sig .scVector .vmem S2x8192 .f32 := Memref.whole cc0_scratch2

abbrev cV (L : grid0.Coords) : Fin τ.nSC := (L 0).castLE hcore0
abbrev jV (L : grid0.Coords) : Fin τ.nSub := (L 1).castLE hsub0
/-- The thread of the tile at grid coordinates `L`. -/
abbrev thrV (d : Dev nD) (L : grid0.Coords) : Thread nD τ := V d (cV L) (jV L)

/-- The grid coordinates of the tile on SparseCore `c`, vector subcore `j`. -/
def coordsV (c : Fin (grid0.bound 0)) (j : Fin (grid0.bound 1)) : grid0.Coords :=
  fun | 0 => c | 1 => j | ⟨_ + 2, h⟩ => absurd h (Nat.not_lt.2 (Nat.le_add_left _ _))

/-- The chunk of `s`, of `g` and of the output at row trip `t2` and column trip `t3`, as the body slices them. -/
abbrev sCh (L : grid0.Coords) (t2 : Fin k0_t2_loop.trips) (t3 : Fin k0_t3_loop.trips) : Memref sig .scVector .hbm S8192 .f32 :=
  ((sV).slice (Rect.unit (s := S128x32768) (k0_off2 L t2 t3) S1x8192.size (k0_off2_inb L t2 t3)) (fun _ => rfl)).squeeze S8192 squeezes_S1x8192_S8192
abbrev gCh (L : grid0.Coords) (t2 : Fin k0_t2_loop.trips) (t3 : Fin k0_t3_loop.trips) : Memref sig .scVector .hbm S8192 .f32 :=
  ((gV).slice (Rect.unit (s := S128x32768) (k0_off2 L t2 t3) S1x8192.size (k0_off2_inb L t2 t3)) (fun _ => rfl)).squeeze S8192 squeezes_S1x8192_S8192
abbrev oCh (L : grid0.Coords) (t2 : Fin k0_t2_loop.trips) (t3 : Fin k0_t3_loop.trips) : Memref sig .scVector .hbm S2x8192 .f32 :=
  ((oV).slice (Rect.unit (s := S128x2x32768) (k0_off5 L t2 t3) S1x2x8192.size (k0_off5_inb L t2 t3)) (fun _ => rfl)).squeeze S2x8192 squeezes_S1x2x8192_S2x8192

/-- The specified contents of the kernel's output array, from the launch contents of `s` and `g`. -/
abbrev want (d : Dev nD) : Buf (Elt F) (oLoc d) := Cert.Spec.mid (F := F) (m (sLoc d)) (m (gLoc d))

/-- A chunk's resources before its trip: the pieces of `s` and `g` at their launch contents, the output's piece at
    anything; after it: the output's piece at the specified function. -/
def chA (d : Dev nD) (L : grid0.Coords) (t2 : Fin k0_t2_loop.trips) (t3 : Fin k0_t3_loop.trips) : sProp 𝕄 :=
  iprop(((sCh L t2 t3).view.loc (thrV d L) ↦[(sCh L t2 t3).view.set]{fullShare} m (sLoc d))
    ∗ ((gCh L t2 t3).view.loc (thrV d L) ↦[(gCh L t2 t3).view.set]{fullShare} m (gLoc d))
    ∗ ∃ f, (oCh L t2 t3).view.loc (thrV d L) ↦[(oCh L t2 t3).view.set]{fullShare} f)
def chB (d : Dev nD) (L : grid0.Coords) (t2 : Fin k0_t2_loop.trips) (t3 : Fin k0_t3_loop.trips) : sProp 𝕄 :=
  iprop(((sCh L t2 t3).view.loc (thrV d L) ↦[(sCh L t2 t3).view.set]{fullShare} m (sLoc d))
    ∗ ((gCh L t2 t3).view.loc (thrV d L) ↦[(gCh L t2 t3).view.set]{fullShare} m (gLoc d))
    ∗ (oCh L t2 t3).view.loc (thrV d L) ↦[(oCh L t2 t3).view.set]{fullShare} want m d)

/-- A row's resources before and after its trip: its four chunks'. -/
def rowA (d : Dev nD) (L : grid0.Coords) (t2 : Fin k0_t2_loop.trips) : sProp 𝕄 := bigSep Finset.univ fun t3 => chA m d L t2 t3
def rowB (d : Dev nD) (L : grid0.Coords) (t2 : Fin k0_t2_loop.trips) : sProp 𝕄 := bigSep Finset.univ fun t3 => chB m d L t2 t3

/-- What a tile is handed and what it hands back: its four rows'. -/
def tileA (d : Dev nD) (L : grid0.Coords) : sProp 𝕄 := bigSep Finset.univ fun t2 => rowA m d L t2
def tileB (d : Dev nD) (L : grid0.Coords) : sProp 𝕄 := bigSep Finset.univ fun t2 => rowB m d L t2

/-! ## A tile's own semaphores and scratch buffers, named -/

abbrev c0cell (d : Dev nD) (L : grid0.Coords) : GSem nD τ sig := (thrV d L, .dma cc0_scoped0.sem)
abbrev c1cell (d : Dev nD) (L : grid0.Coords) : GSem nD τ sig := (thrV d L, .dma cc0_scoped1.sem)
abbrev c2cell (d : Dev nD) (L : grid0.Coords) : GSem nD τ sig := (thrV d L, .dma cc0_scoped2.sem)

omit [FloatOps F] in
theorem ownSems0_V (d : Dev nD) (L : grid0.Coords) :
    (ownSems0 (thrV d L) : sProp 𝕄)
      = iprop(semVal (c0cell d L) 0 ∗ semVal (c1cell d L) 0 ∗ semVal (c2cell d L) 0
          ∗ bigSep ((((ownCells (thrV d L)).erase (c0cell d L)).erase (c1cell d L)).erase (c2cell d L)) fun g => semVal g 0) := by
  unfold SparseCore.Cfg.ownSems0
  rw [SparseCore.bigSep_erase' ((mem_ownCells (g := c0cell d L)).mpr ⟨rfl, by
      show (SemLoc.dma cc0_scoped0.sem : SemLoc sig).isScoped .scVector = true; decide⟩),
    SparseCore.bigSep_erase' (Finset.mem_erase.mpr ⟨by simp [c0cell, c1cell]; decide, (mem_ownCells (g := c1cell d L)).mpr ⟨rfl, by
      show (SemLoc.dma cc0_scoped1.sem : SemLoc sig).isScoped .scVector = true; decide⟩⟩),
    SparseCore.bigSep_erase' (Finset.mem_erase.mpr ⟨by simp [c1cell, c2cell]; decide, Finset.mem_erase.mpr ⟨by simp [c0cell, c2cell]; decide,
      (mem_ownCells (g := c2cell d L)).mpr ⟨rfl, by show (SemLoc.dma cc0_scoped2.sem : SemLoc sig).isScoped .scVector = true; decide⟩⟩⟩)]

omit [FloatOps F] in
theorem ownBufs_V (d : Dev nD) (L : grid0.Coords) :
    (ownBufs (thrV d L) : sProp 𝕄)
      = iprop((∃ f, (thrV d L).loc cc0_scratch0 ↦{fullShare} f) ∗ (∃ f, (thrV d L).loc cc0_scratch1 ↦{fullShare} f)
          ∗ (∃ f, (thrV d L).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

end Cert.Proof.BitsSide

end
-- ==== Proof.StageBits.lean ====
/-
  The contents of a tile's two-row staging buffer, as pure facts. The zero fill writes sixteen lanes of row 0 per
  trip, so before trip k row 0 is zero in columns below 16·k (`zeroed`). The compute loop writes sixteen lanes of
  row 1 per trip from the fetched pieces of `s` and `g`: before trip k row 0 is zero everywhere and row 1 holds
  `g · ½ + s − ½` in columns below 16·k (`staged`). One store of a [1, 16] piece at offset (r, c) changes exactly
  the entries (r, c) … (r, c + 15) (`writes_one_apply`). When the staged buffer is copied onto a chunk of the
  output, every element of the chunk then holds the specified function (`chunk_value`): a chunk's element
  (x₀, x₁) is the array's (row, x₀, 8192·t₃ + x₁), and the fetched pieces hold (row, 8192·t₃ + x₁) of `s` and `g`.
-/
import proofs.«212060_g46926812676975_cont_8to1c4_366_19_alg».proof.Proof.CommonBits
import Idealize.ShloMosaic.Lib.Writes
import Idealize.ShloMosaic.Lib.ValueIdx
import Idealize.ShloMosaic.Lib.Pipeline.Value

noncomputable section

namespace Cert.Proof.BitsSide

open Cert.Kernel Cert.Kernel.Gen

open Idealize.ShloMosaic Idealize.ShloMosaic.ValueIdx
open Idealize.ShloMosaic.SparseCore (S V T)

variable {F : FTy → Type} [FloatOps F]

/-- The contents of a tile's staging buffer and of its two fetch buffers. -/
abbrev OBuf (F : FTy → Type) : Type := (⟨S2x8192, .f32⟩ : BufTy).Contents (Elt F)
abbrev IBuf (F : FTy → Type) : Type := (⟨S8192, .f32⟩ : BufTy).Contents (Elt F)

/-- A [16] vector recast as [1, 16], read at (0, j), is the vector at j. -/
theorem cast_row {α : Type} (x : S16.Idx → α) (j : Fin 16) :
    shapeCast S1x16 x shapeCasts_S16_S1x16 (ix2 (0 : Fin 1) j) = x (ix1 j) :=
  shapeCast_apply x _ _ _ (by
    rw [Shape.rowMajor_val_one, Shape.rowMajor_val_two]
    show j.val = 0 * 16 + j.val
    omega)

/-- Row 0 is zero in the columns below 16·k. -/
def zeroed (k : Nat) (f : OBuf F) : Prop :=
  ∀ q : Fin 8192, q.val < 16 * k → f (ix2 (0 : Fin 2) q) = Cert.Spec.zero

/-- Row 0 is zero; row 1 holds the entry's value, from the fetched pieces, in the columns below 16·k. -/
def staged (fS fG : IBuf F) (k : Nat) (f : OBuf F) : Prop :=
  (∀ q : Fin 8192, f (ix2 (0 : Fin 2) q) = Cert.Spec.zero)
    ∧ ∀ q : Fin 8192, q.val < 16 * k → f (ix2 (1 : Fin 2) q) = Cert.Spec.val (fS (ix1 q)) (fG (ix1 q))

/-- One stored piece of shape [1, 16] at offsets `off`, read at (p, q). -/
theorem writes_one_apply (f : OBuf F) (off : Fin 2 → Nat) (inb : ∀ a, off a + S1x16.size a ≤ S2x8192.size a)
    (w : S1x16.Idx → Elt F .f32) (p : Fin 2) (q : Fin 8192) :
    (bO : Memref sig .scVector .vmem S2x8192 .f32).view.writes (Elt F) f [⟨Rect.unit (s := S2x8192) off S1x16.size inb, w⟩] (ix2 p q)
      = if h : p.val = off 0 ∧ off 1 ≤ q.val ∧ q.val < off 1 + 16 then w (ix2 (0 : Fin 1) ⟨q.val - off 1, by omega⟩) else f (ix2 p q) := by
  by_cases h : p.val = off 0 ∧ off 1 ≤ q.val ∧ q.val < off 1 + 16
  · rw [dif_pos h]
    have e : ix2 p q = (Rect.unit (s := S2x8192) off S1x16.size inb).emb (ix2 (0 : Fin 1) ⟨q.val - off 1, by omega⟩) := by
      funext a
      match a with
      | ⟨0, _⟩ => exact Fin.ext (by show p.val = off 0 + 1 * 0; omega)
      | ⟨1, _⟩ => exact Fin.ext (by show q.val = off 1 + 1 * (q.val - off 1); omega)
    rw [e]
    exact View.read_writes_cons_emb (Val := Elt F) (bO : Memref sig .scVector .vmem S2x8192 .f32).view f (Rect.unit (s := S2x8192) off S1x16.size inb) w [] _
  · rw [dif_neg h]
    have hnm : ∀ pc ∈ ([⟨Rect.unit (s := S2x8192) off S1x16.size inb, w⟩] : List (View.Piece (Elt F) S2x8192 .f32)), ix2 p q ∉ pc.1.set := by
      intro pc hpc
      rw [List.mem_singleton] at hpc
      subst hpc
      intro hm
      exact h (by
        have hm' := (Rect.mem_set_unit (s := S2x8192) (off := off) (size := S1x16.size) (inb := inb) (i := ix2 p q)).mp hm
        have a0 : off 0 ≤ p.val ∧ p.val < off 0 + 1 := hm' 0
        have a1 : off 1 ≤ q.val ∧ q.val < off 1 + 16 := hm' 1
        omega)
    exact View.read_writes_apply_of_forall_not_mem (Val := Elt F) (bO : Memref sig .scVector .vmem S2x8192 .f32).view f (ix2 p q) _ hnm

theorem t1_trips : k0_t1_loop.trips = 512 := by decide
theorem t4_trips : k0_t4_loop.trips = 512 := by decide

/-- The zero fill's trip: sixteen more columns of row 0. -/
theorem zero_step (k : Fin k0_t1_loop.trips) (f : OBuf F) (hf : zeroed k.val f) :
    zeroed (k.val + 1) ((bO : Memref sig .scVector .vmem S2x8192 .f32).view.writes (Elt F) f
      [⟨Rect.unit (s := S2x8192) (k0_off1 k) S1x16.size (k0_off1_inb k), shapeCast S1x16 (k0_pay1 (F := F)) shapeCasts_S16_S1x16⟩]) := by
  intro q hq
  rw [writes_one_apply]
  split
  · rfl
  · rename_i h
    refine hf q ?_
    rw [k0_off1_eq] at h
    by_contra hlt
    apply h
    refine ⟨rfl, ?_, ?_⟩
    · show 16 * k.val ≤ q.val; omega
    · show q.val < 16 * k.val + 16; omega

theorem zeroed_all (f : OBuf F) (hf : zeroed k0_t1_loop.trips f) (q : Fin 8192) : f (ix2 (0 : Fin 2) q) = Cert.Spec.zero :=
  hf q (by rw [t1_trips]; omega)

theorem staged_zero (fS fG : IBuf F) (f : OBuf F) (h0 : ∀ q : Fin 8192, f (ix2 (0 : Fin 2) q) = Cert.Spec.zero) :
    staged fS fG 0 f := ⟨h0, fun q hq => absurd hq (by omega)⟩

/-- The compute loop's trip: sixteen more columns of row 1, row 0 untouched. -/
theorem stage_step (k : Fin k0_t4_loop.trips) (fS fG : IBuf F) (f : OBuf F) (hf : staged fS fG k.val f) :
    staged fS fG (k.val + 1) ((bO : Memref sig .scVector .vmem S2x8192 .f32).view.writes (Elt F) f
      [⟨Rect.unit (s := S2x8192) (k0_off4 k) S1x16.size (k0_off4_inb k),
        shapeCast S1x16 (k0_pay2
          ((bG : Memref sig .scVector .vmem S8192 .f32).view.readAt (Elt F) (Rect.unit (s := S8192) (k0_off3 k) S16.size (k0_off3_inb k)).toLoadRect fG)
          ((bS : Memref sig .scVector .vmem S8192 .f32).view.readAt (Elt F) (Rect.unit (s := S8192) (k0_off3 k) S16.size (k0_off3_inb k)).toLoadRect fS))
          shapeCasts_S16_S1x16⟩]) := by
  have hk : k.val < 512 := by have h1 := k.isLt; have h2 := t4_trips; omega
  refine ⟨fun q => ?_, fun q hq => ?_⟩
  · rw [writes_one_apply]
    split
    · rename_i h
      rw [k0_off4_eq] at h
      exact absurd h.1 (by show ¬ (0 = 1); omega)
    · exact hf.1 q
  · rw [writes_one_apply]
    split
    · rename_i h
      have h' := h
      rw [k0_off4_eq] at h'
      have hlo : 16 * k.val ≤ q.val := h'.2.1
      have hhi : q.val < 16 * k.val + 16 := h'.2.2
      rw [cast_row]
      have ei : (Rect.unit (s := S8192) (k0_off3 k) S16.size (k0_off3_inb k)).toLoadRect.idx
          (ix1 (⟨q.val - k0_off4 k 1, by omega⟩ : Fin 16)) = ix1 q := by
        funext a
        match a with
        | ⟨0, _⟩ =>
          refine Fin.ext ?_
          show k0_off3 k 0 + 1 * (q.val - k0_off4 k 1) = q.val
          rw [k0_off3_eq, k0_off4_eq]
          show 16 * k.val + 1 * (q.val - 16 * k.val) = q.val
          omega
      show Cert.Spec.val
        ((bS : Memref sig .scVector .vmem S8192 .f32).view.readAt (Elt F) (Rect.unit (s := S8192) (k0_off3 k) S16.size (k0_off3_inb k)).toLoadRect fS (ix1 ⟨q.val - k0_off4 k 1, by omega⟩))
        ((bG : Memref sig .scVector .vmem S8192 .f32).view.readAt (Elt F) (Rect.unit (s := S8192) (k0_off3 k) S16.size (k0_off3_inb k)).toLoadRect fG (ix1 ⟨q.val - k0_off4 k 1, by omega⟩)) = _
      rw [View.readAt_apply, View.readAt_apply, ei]
      rfl
    · rename_i h
      refine hf.2 q ?_
      rw [k0_off4_eq] at h
      by_contra hlt
      apply h
      refine ⟨rfl, ?_, ?_⟩
      · show 16 * k.val ≤ q.val; omega
      · show q.val < 16 * k.val + 16; omega

end Cert.Proof.BitsSide

end
-- ==== Proof.ChunkBits.lean ====
/-
  A chunk of the output after its staged buffer has been copied onto it. The chunk of row R (= 8·j + 4·c + t₂) and
  column block t₃ is the array's elements (R, x₀, 8192·t₃ + x₁) for x₀ < 2, x₁ < 8192; the fetched pieces of `s` and
  `g` are their elements (R, 8192·t₃ + x₁). With the staging buffer's row 0 zero and its row 1 at `g · ½ + s − ½` of
  the fetched pieces, the copy leaves every element of the chunk at the specified function of the launch contents.
-/
import proofs.«212060_g46926812676975_cont_8to1c4_366_19_alg».proof.Proof.StageBits

noncomputable section

namespace Cert.Proof.BitsSide

open Cert.Kernel Cert.Kernel.Gen

open Idealize.ShloMosaic Idealize.ShloMosaic.ValueIdx
open Idealize.ShloMosaic.SparseCore (S V T)

variable {F : FTy → Type}
variable (m : (ℓ : Loc nD τ sig) → Buf (Elt F) ℓ)
variable [FloatOps F]

/-- An element of the output's chunk, by coordinates. -/
theorem oCh_emb (L : grid0.Coords) (t2 : Fin k0_t2_loop.trips) (t3 : Fin k0_t3_loop.trips) (p : Fin 2) (q : Fin 8192) :
    (oCh L t2 t3).view.emb (ix2 p q)
      = (Rect.unit (s := S128x2x32768) (k0_off5 L t2 t3) S1x2x8192.size (k0_off5_inb L t2 t3)).emb (Fin.cons ⟨0, Nat.one_pos⟩ (ix2 p q)) := by
  show (Rect.unit (s := S128x2x32768) (k0_off5 L t2 t3) S1x2x8192.size (k0_off5_inb L t2 t3)).emb (Shape.reshapeEquiv _ (ix2 p q)) = _
  rw [Shape.reshapeEquiv_cons_one]

/-- An element of a fetched piece's chunk, by coordinates. -/
theorem sCh_emb (L : grid0.Coords) (t2 : Fin k0_t2_loop.trips) (t3 : Fin k0_t3_loop.trips) (q : Fin 8192) :
    (sCh L t2 t3).view.emb (ix1 q)
      = (Rect.unit (s := S128x32768) (k0_off2 L t2 t3) S1x8192.size (k0_off2_inb L t2 t3)).emb (Fin.cons ⟨0, Nat.one_pos⟩ (ix1 q)) := by
  show (Rect.unit (s := S128x32768) (k0_off2 L t2 t3) S1x8192.size (k0_off2_inb L t2 t3)).emb (Shape.reshapeEquiv _ (ix1 q)) = _
  rw [Shape.reshapeEquiv_cons_one]
theorem gCh_emb (L : grid0.Coords) (t2 : Fin k0_t2_loop.trips) (t3 : Fin k0_t3_loop.trips) (q : Fin 8192) :
    (gCh L t2 t3).view.emb (ix1 q)
      = (Rect.unit (s := S128x32768) (k0_off2 L t2 t3) S1x8192.size (k0_off2_inb L t2 t3)).emb (Fin.cons ⟨0, Nat.one_pos⟩ (ix1 q)) := by
  show (Rect.unit (s := S128x32768) (k0_off2 L t2 t3) S1x8192.size (k0_off2_inb L t2 t3)).emb (Shape.reshapeEquiv _ (ix1 q)) = _
  rw [Shape.reshapeEquiv_cons_one]

/-- The fetched pieces' element under column q is the arrays' element under the output chunk's (·, q). -/
theorem in_idx (L : grid0.Coords) (t2 : Fin k0_t2_loop.trips) (t3 : Fin k0_t3_loop.trips) (p : Fin 2) (q : Fin 8192) :
    (Rect.unit (s := S128x32768) (k0_off2 L t2 t3) S1x8192.size (k0_off2_inb L t2 t3)).emb (Fin.cons ⟨0, Nat.one_pos⟩ (ix1 q))
      = ix2 (((oCh L t2 t3).view.emb (ix2 p q)) 0) (((oCh L t2 t3).view.emb (ix2 p q)) 2) := by
  rw [oCh_emb]
  funext a
  match a with
  | ⟨0, _⟩ =>
    refine Fin.ext ?_
    show k0_off2 L t2 t3 0 + 1 * 0 = k0_off5 L t2 t3 0 + 1 * 0
    rw [k0_off2_eq, k0_off5_eq]; rfl
  | ⟨1, _⟩ =>
    refine Fin.ext ?_
    show k0_off2 L t2 t3 1 + 1 * q.val = k0_off5 L t2 t3 2 + 1 * q.val
    rw [k0_off2_eq, k0_off5_eq]; rfl

/-- The plane of an element of the output's chunk is its first coordinate. -/
theorem oCh_plane (L : grid0.Coords) (t2 : Fin k0_t2_loop.trips) (t3 : Fin k0_t3_loop.trips) (p : Fin 2) (q : Fin 8192) :
    (((oCh L t2 t3).view.emb (ix2 p q)) 1).val = p.val := by
  rw [oCh_emb]
  show k0_off5 L t2 t3 1 + 1 * p.val = p.val
  rw [k0_off5_eq]
  show 0 + 1 * p.val = p.val
  omega

theorem chunk_value (d : Dev nD) (L : grid0.Coords) (t2 : Fin k0_t2_loop.trips) (t3 : Fin k0_t3_loop.trips)
    (fo : Buf (Elt F) (oLoc d)) (fO : OBuf F)
    (h : staged ((sCh L t2 t3).view.read (Elt F) (m (sLoc d))) ((gCh L t2 t3).view.read (Elt F) (m (gLoc d))) k0_t4_loop.trips fO) :
    ∀ i ∈ (oCh L t2 t3).view.set,
      (oCh L t2 t3).view.writes (Elt F) fo
        [⟨Rect.whole S2x8192, ReadAs.same.apply ((bO : Memref sig .scVector .vmem S2x8192 .f32).view.read (Elt F) fO)⟩] i = want m d i := by
  intro i hi
  obtain ⟨x, -, rfl⟩ := Finset.mem_map.mp hi
  have e : (oCh L t2 t3).view.emb x = ((oCh L t2 t3).view.slice (Rect.whole S2x8192)).emb x := by
    rw [View.emb_slice]
    show _ = (oCh L t2 t3).view.emb ((Rect.whole S2x8192).emb x)
    rw [Rect.emb_whole_apply]
  rw [View.writes_singleton, e, View.write_emb_of_mem _ _ (Finset.mem_univ x), ← e]
  obtain ⟨p, q, rfl⟩ : ∃ (p : Fin 2) (q : Fin 8192), x = ix2 p q := ⟨x 0, x 1, eq_ix2 x⟩
  refine (cast_eq _ _).trans ?_
  show fO (ix2 p q) = Cert.Spec.mid (m (sLoc d)) (m (gLoc d)) ((oCh L t2 t3).view.emb (ix2 p q))
  unfold Cert.Spec.mid
  by_cases hp : p.val = 0
  · have ep : p = (0 : Fin 2) := Fin.ext hp
    subst ep
    rw [if_pos (by rw [oCh_plane]; rfl)]
    exact h.1 q
  · have ep : p = (1 : Fin 2) := Fin.ext (by have := p.isLt; show p.val = 1; omega)
    subst ep
    rw [if_neg (by rw [oCh_plane]; exact hp)]
    rw [h.2 q (by rw [t4_trips]; have := q.isLt; omega)]
    have key := in_idx L t2 t3 (1 : Fin 2) q
    show Cert.Spec.val (m (sLoc d) ((sCh L t2 t3).view.emb (ix1 q))) (m (gLoc d) ((gCh L t2 t3).view.emb (ix1 q))) = _
    rw [sCh_emb, gCh_emb, key]
    rfl

end Cert.Proof.BitsSide

end
-- ==== Proof.TileBits.lean ====
/-
  One tile's task, run once at a symbolic tile. The zero fill's loop leaves row 0 of the staging buffer zero; the row
  loop runs the four rows, each row's column loop its four chunks; a chunk's trip fetches the pieces of `s` and `g`
  (two local copies, each waited for at once), fills row 1 of the staging buffer sixteen lanes a trip, and copies the
  buffer out onto the output's chunk (a third local copy, waited for at once). Each loop's invariant says which of
  its family of resources are done (`upTo`): a chunk is done when the output's piece holds the specified function.
  Every copy is between buffers the tile alone holds, on a semaphore of its own that stands at zero, so no schedule
  is needed; the waits are recorded beside what the tile owes the launch.
-/
import proofs.«212060_g46926812676975_cont_8to1c4_366_19_alg».proof.Proof.ChunkBits

noncomputable section

namespace Cert.Proof.BitsSide

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.LibTrips

variable {F : FTy → Type}

local notation "𝕄" => MT nD τ sig (HIx 1) (Elt F) ℕ UU ℕ

variable (m : (ℓ : Loc nD τ sig) → Buf (Elt F) ℓ)
variable [FloatOps F]
variable (d : Dev nD) (L : grid0.Coords)

/-! ## The invariants -/

/-- What every loop of the task carries beside its family: the two fetch buffers at anything, the staging buffer
    with row 0 zero, the three semaphores at zero, and what the tile owes with the waits it has recorded. -/
def tileSt (O : CellTallies nD τ sig (HIx 1)) (W : Waits sig (HIx 1)) : sProp 𝕄 :=
  iprop((∃ fS, (bS).view.loc (thrV d L) ↦{fullShare} fS) ∗ (∃ fG, (bG).view.loc (thrV d L) ↦{fullShare} fG)
    ∗ (∃ fO : Buf (Elt F) ((thrV d L).loc cc0_scratch2), ⌜∀ q : Fin 8192, fO (ix2 (0 : Fin 2) q) = Cert.Spec.zero⌝ ∗ (bO).view.loc (thrV d L) ↦{fullShare} fO)
    ∗ semVal (c0cell d L) 0 ∗ semVal (c1cell d L) 0 ∗ semVal (c2cell d L) 0
    ∗ ∃ W', ⌜∀ p ∈ W', p ∈ W ∨ p.2 = none⌝ ∗ owes (thrV d L) O W')

/-- The zero fill before trip k. -/
def inv1 (k : Nat) (_ : BitVec 32) : sProp 𝕄 :=
  iprop(∃ f : Buf (Elt F) ((thrV d L).loc cc0_scratch2), ⌜zeroed k f⌝ ∗ (bO).view.loc (thrV d L) ↦{fullShare} f)

/-- The compute loop before trip k, the fetched pieces at `fS`, `fG`. -/
def inv4 (fS : Buf (Elt F) ((thrV d L).loc cc0_scratch0)) (fG : Buf (Elt F) ((thrV d L).loc cc0_scratch1)) (k : Nat) (_ : BitVec 32) : sProp 𝕄 :=
  iprop(∃ f : Buf (Elt F) ((thrV d L).loc cc0_scratch2), ⌜staged fS fG k f⌝
    ∗ ((bS).view.loc (thrV d L) ↦{fullShare} fS) ∗ ((bG).view.loc (thrV d L) ↦{fullShare} fG) ∗ (bO).view.loc (thrV d L) ↦{fullShare} f)

/-- The column loop of row trip `t2` before trip k; the row loop before trip k. -/
def inv3 (O : CellTallies nD τ sig (HIx 1)) (W : Waits sig (HIx 1)) (t2 : Fin k0_t2_loop.trips) (k : Nat) (_ : BitVec 32) : sProp 𝕄 :=
  iprop(Transfers.MayWaits (thrV d L) (none : HIx 1) O ∗ upTo (chA m d L t2) (chB m d L t2) k ∗ tileSt d L O W)
def inv2 (O : CellTallies nD τ sig (HIx 1)) (W : Waits sig (HIx 1)) (k : Nat) (_ : BitVec 32) : sProp 𝕄 :=
  iprop(Transfers.MayWaits (thrV d L) (none : HIx 1) O ∗ upTo (rowA m d L) (rowB m d L) k ∗ tileSt d L O W)

theorem chA_def (t2 : Fin k0_t2_loop.trips) (t3 : Fin k0_t3_loop.trips) :
    chA m d L t2 t3 = iprop(((sCh L t2 t3).view.loc (thrV d L) ↦[(sCh L t2 t3).view.set]{fullShare} m (sLoc d))
      ∗ ((gCh L t2 t3).view.loc (thrV d L) ↦[(gCh L t2 t3).view.set]{fullShare} m (gLoc d))
      ∗ ∃ f, (oCh L t2 t3).view.loc (thrV d L) ↦[(oCh L t2 t3).view.set]{fullShare} f) := rfl
theorem chB_def (t2 : Fin k0_t2_loop.trips) (t3 : Fin k0_t3_loop.trips) :
    chB m d L t2 t3 = iprop(((sCh L t2 t3).view.loc (thrV d L) ↦[(sCh L t2 t3).view.set]{fullShare} m (sLoc d))
      ∗ ((gCh L t2 t3).view.loc (thrV d L) ↦[(gCh L t2 t3).view.set]{fullShare} m (gLoc d))
      ∗ (oCh L t2 t3).view.loc (thrV d L) ↦[(oCh L t2 t3).view.set]{fullShare} want m d) := rfl

theorem rowA_def (t2 : Fin k0_t2_loop.trips) : rowA m d L t2 = bigSep Finset.univ fun t3 => chA m d L t2 t3 := rfl
theorem rowB_def (t2 : Fin k0_t2_loop.trips) : rowB m d L t2 = bigSep Finset.univ fun t3 => chB m d L t2 t3 := rfl
theorem tileA_def : tileA m d L = bigSep Finset.univ fun t2 => rowA m d L t2 := rfl
theorem tileB_def : tileB m d L = bigSep Finset.univ fun t2 => rowB m d L t2 := rfl

omit [FloatOps F] in
/-- A copy onto a whole fetch buffer leaves it at what was copied. -/
theorem pts_fetchS (fS w : Buf (Elt F) ((thrV d L).loc cc0_scratch0)) :
    ((bS).view.loc (thrV d L) ↦{fullShare} View.write (Elt F) (bS).view fS w Finset.univ : sProp 𝕄) = (bS).view.loc (thrV d L) ↦{fullShare} w :=
  congrArg (fun f => ((bS).view.loc (thrV d L) ↦{fullShare} f : sProp 𝕄)) (View.write_whole_univ cc0_scratch0 fS w)
omit [FloatOps F] in
theorem pts_fetchG (fG w : Buf (Elt F) ((thrV d L).loc cc0_scratch1)) :
    ((bG).view.loc (thrV d L) ↦{fullShare} View.write (Elt F) (bG).view fG w Finset.univ : sProp 𝕄) = (bG).view.loc (thrV d L) ↦{fullShare} w :=
  congrArg (fun f => ((bG).view.loc (thrV d L) ↦{fullShare} f : sProp 𝕄)) (View.write_whole_univ cc0_scratch1 fG w)

/-! ## The loops' trips -/

theorem t1_region (k : Fin k0_t1_loop.trips) (acc : BitVec 32) :
    inv1 (F := F) d L k.val acc ⊢ wp frame (wpE (defs₀ (F := F)) 𝒱₀ (thrV d L) none) Set.univ (k0_t1_body (F := F) L sV (Memref.isWhole_whole _) gV (Memref.isWhole_whole _) oV (Memref.isWhole_whole _) bS (Memref.isWhole_whole _) bG (Memref.isWhole_whole _) bO (Memref.isWhole_whole _) cc0_scoped0 cc0_scoped1 cc0_scoped2 k acc) (inv1 (F := F) d L (k.val + 1)) := by
  unfold inv1 k0_t1_body
  iintro ⟨%f, %hf, H⟩
  sl_exec
  sl_step
  iexists _
  isplitr
  · ipureintro; exact zero_step k f hf
  · iexact H

theorem t4_region (fS : Buf (Elt F) ((thrV d L).loc cc0_scratch0)) (fG : Buf (Elt F) ((thrV d L).loc cc0_scratch1)) (k : Fin k0_t4_loop.trips) (acc : BitVec 32) :
    inv4 (F := F) d L fS fG k.val acc ⊢ wp frame (wpE (defs₀ (F := F)) 𝒱₀ (thrV d L) none) Set.univ (k0_t4_body (F := F) L sV (Memref.isWhole_whole _) gV (Memref.isWhole_whole _) oV (Memref.isWhole_whole _) bS (Memref.isWhole_whole _) bG (Memref.isWhole_whole _) bO (Memref.isWhole_whole _) cc0_scoped0 cc0_scoped1 cc0_scoped2 k acc) (inv4 (F := F) d L fS fG (k.val + 1)) := by
  unfold inv4 k0_t4_body
  iintro ⟨%f, %hf, HbS, HbG, HbO⟩
  sl_exec
  sl_step
  iexists _
  isplitr
  · ipureintro; exact stage_step k fS fG f hf
  isplitl [HbS]; · iexact HbS
  isplitl [HbG]; · iexact HbG
  iexact HbO

theorem t3_region (O : CellTallies nD τ sig (HIx 1)) (W : Waits sig (HIx 1)) (t2 : Fin k0_t2_loop.trips) (k : Fin k0_t3_loop.trips) (acc : BitVec 32) :
    inv3 m d L O W t2 k.val acc ⊢ wp frame (wpE (defs₀ (F := F)) 𝒱₀ (thrV d L) none) Set.univ (k0_t3_body (F := F) L sV (Memref.isWhole_whole _) gV (Memref.isWhole_whole _) oV (Memref.isWhole_whole _) bS (Memref.isWhole_whole _) bG (Memref.isWhole_whole _) bO (Memref.isWhole_whole _) cc0_scoped0 cc0_scoped1 cc0_scoped2 t2 k acc) (inv3 m d L O W t2 (k.val + 1)) := by
  unfold inv3 tileSt
  iintro ⟨Hmw, Hup, ⟨%fS, HbS⟩, ⟨%fG, HbG⟩, ⟨%fO, %hz, HbO⟩, Hc0, Hc1, Hc2, %W', %hW', HO⟩
  ihave Hup' := (Entails.of_eq (upTo_at (chA m d L t2) (chB m d L t2) k)) $$ Hup
  icases Hup' with ⟨HA, Hrest⟩
  ihave HA' := (Entails.of_eq (chA_def m d L t2 k)) $$ HA
  icases HA' with ⟨Hs, Hg, %fo, Ho⟩
  unfold k0_t3_body
  sl_exec
  ihave HbS1 := (Entails.of_eq (pts_fetchS (F := F) d L fS _)) $$ HbS
  ihave HbG1 := (Entails.of_eq (pts_fetchG (F := F) d L fG _)) $$ HbG
  unfold t3_region.sl.dma0 t3_region.sl.dma0_1
  sl_for (inv4 (F := F) d L ((sCh L t2 k).view.read (Elt F) (m (sLoc d))) ((gCh L t2 k).view.read (Elt F) (m (gLoc d)))) $$ [HbS1 HbG1 HbO]
  case region => exact t4_region d L _ _
  · unfold inv4
    iexists fO
    isplitr
    · ipureintro; exact staged_zero _ _ fO hz
    isplitl [HbS1]; · iexact HbS1
    isplitl [HbG1]; · iexact HbG1
    iexact HbO
  iintro %acc' HI
  unfold inv4
  icases HI with ⟨%f', %hst, HbS, HbG, HbO⟩
  sl_exec
  sl_step
  isplitl [Hmw]; · iexact Hmw
  isplitl [Hs Hg Ho Hrest]
  · iapply (Entails.of_eq (upTo_succ (chA m d L t2) (chB m d L t2) k).symm)
    isplitr [Hrest]
    · iapply (Entails.of_eq (chB_def m d L t2 k).symm)
      isplitl [Hs]; · iexact Hs
      isplitl [Hg]; · iexact Hg
      iapply (Entails.of_eq (pointsTo_congr (chunk_value m d L t2 k fo f' hst)))
      iexact Ho
    · iexact Hrest
  isplitl [HbS]; · iexists _; iexact HbS
  isplitl [HbG]; · iexists _; iexact HbG
  isplitl [HbO]
  · iexists f'
    isplitr
    · ipureintro; exact hst.1
    iexact HbO
  isplitl [Hc0]; · iexact Hc0
  isplitl [Hc1]; · iexact Hc1
  isplitl [Hc2]; · iexact Hc2
  iexists (insert (SemLoc.dma cc0_scoped2.sem, (default : HIx 1)) (insert (SemLoc.dma cc0_scoped1.sem, (default : HIx 1)) (insert (SemLoc.dma cc0_scoped0.sem, (default : HIx 1)) W')))
  isplitr
  · ipureintro
    intro p hp
    rcases Finset.mem_insert.mp hp with rfl | hp
    · exact .inr rfl
    rcases Finset.mem_insert.mp hp with rfl | hp
    · exact .inr rfl
    rcases Finset.mem_insert.mp hp with rfl | hp
    · exact .inr rfl
    · exact hW' p hp
  · iexact HO

theorem t2_region (O : CellTallies nD τ sig (HIx 1)) (W : Waits sig (HIx 1)) (k : Fin k0_t2_loop.trips) (acc : BitVec 32) :
    inv2 m d L O W k.val acc ⊢ wp frame (wpE (defs₀ (F := F)) 𝒱₀ (thrV d L) none) Set.univ (k0_t2_body (F := F) L sV (Memref.isWhole_whole _) gV (Memref.isWhole_whole _) oV (Memref.isWhole_whole _) bS (Memref.isWhole_whole _) bG (Memref.isWhole_whole _) bO (Memref.isWhole_whole _) cc0_scoped0 cc0_scoped1 cc0_scoped2 k acc) (inv2 m d L O W (k.val + 1)) := by
  unfold inv2
  iintro ⟨Hmw, Hup, Hst⟩
  ihave Hup' := (Entails.of_eq (upTo_at (rowA m d L) (rowB m d L) k)) $$ Hup
  icases Hup' with ⟨HA, Hrest⟩
  unfold k0_t2_body
  sl_for (inv3 m d L O W k) $$ [Hmw HA Hst]
  case region => exact t3_region m d L O W k
  · unfold inv3
    isplitl [Hmw]; · iexact Hmw
    isplitl [HA]
    · iapply (Entails.of_eq (upTo_zero (chA m d L k) (chB m d L k)).symm)
      iapply (Entails.of_eq (rowA_def m d L k))
      iexact HA
    iexact Hst
  iintro %acc' HI
  unfold inv3
  icases HI with ⟨Hmw, Hup3, Hst⟩
  sl_exec
  sl_step
  isplitl [Hmw]; · iexact Hmw
  isplitl [Hup3 Hrest]
  · iapply (Entails.of_eq (upTo_succ (rowA m d L) (rowB m d L) k).symm)
    isplitl [Hup3]
    · iapply (Entails.of_eq (rowB_def m d L k).symm)
      iapply (Entails.of_eq (upTo_all (chA m d L k) (chB m d L k) (Nat.le_refl _)))
      iexact Hup3
    · iexact Hrest
  iexact Hst

end Cert.Proof.BitsSide

end
-- ==== Proof.PayBits.lean ====
/-
  What the launch's handshakes carry. The one call hands each SparseCore the resources of its sixteen tiles and each
  tile its own: its sixteen chunks of `s`, of `g` and of the output (`tileA`); it takes them back with the output's
  chunks at the specified function (`tileB`). Nothing of the launch's ghost state is consumed by a tile: every
  copy it makes is local and waited for at once.
-/
import proofs.«212060_g46926812676975_cont_8to1c4_366_19_alg».proof.Proof.CommonBits

noncomputable section

namespace Cert.Proof.BitsSide

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)
variable [FloatOps F]

omit [FloatOps F] in
theorem nCore_eq (q : Fin 1) : (K (F := F)).nCore q = grid0.bound 0 := match q with | 0 => rfl
omit [FloatOps F] in
theorem nSub_eq (q : Fin 1) : (K (F := F)).nSub q = grid0.bound 1 := match q with | 0 => rfl

/-- The grid coordinates of task `i` of SparseCore `c` of the call. -/
def tileOf (q : Fin 1) (c : Fin ((K (F := F)).nCore q)) (i : Fin ((K (F := F)).nSub q)) : grid0.Coords :=
  coordsV ⟨c.val, nCore_eq (F := F) q ▸ c.isLt⟩ ⟨i.val, nSub_eq (F := F) q ▸ i.isLt⟩

def P : (K (F := F)).Pay (nD := nD) (Val := Elt F) (Name := ℕ) (U := UU) where
  st := fun q d c => bigSep Finset.univ fun i : Fin ((K (F := F)).nSub q) => tileA m d (tileOf q c i)
  dn := fun q d c => bigSep Finset.univ fun i : Fin ((K (F := F)).nSub q) => tileB m d (tileOf q c i)
  go := fun q d c i => tileA m d (tileOf q c i)
  td := fun q d c i => tileB m d (tileOf q c i)
  x := fun _ _ => iprop(emp)

instance chA_storable (d : Dev nD) (L : grid0.Coords) (t2 : Fin k0_t2_loop.trips) (t3 : Fin k0_t3_loop.trips) :
    BI.Storable (upEmb : UEmb _ 𝕄) (chA m d L t2 t3) := by
  unfold chA; infer_instance
instance chB_storable (d : Dev nD) (L : grid0.Coords) (t2 : Fin k0_t2_loop.trips) (t3 : Fin k0_t3_loop.trips) :
    BI.Storable (upEmb : UEmb _ 𝕄) (chB m d L t2 t3) := by
  unfold chB; infer_instance
instance rowA_storable (d : Dev nD) (L : grid0.Coords) (t2 : Fin k0_t2_loop.trips) : BI.Storable (upEmb : UEmb _ 𝕄) (rowA m d L t2) := by
  unfold rowA; infer_instance
instance rowB_storable (d : Dev nD) (L : grid0.Coords) (t2 : Fin k0_t2_loop.trips) : BI.Storable (upEmb : UEmb _ 𝕄) (rowB m d L t2) := by
  unfold rowB; infer_instance
instance tileA_storable (d : Dev nD) (L : grid0.Coords) : BI.Storable (upEmb : UEmb _ 𝕄) (tileA m d L) := by
  unfold tileA; infer_instance
instance tileB_storable (d : Dev nD) (L : grid0.Coords) : BI.Storable (upEmb : UEmb _ 𝕄) (tileB m d L) := by
  unfold tileB; infer_instance

instance P_storable : (P (F := F) m).IsStorable where
  st q d c := (inferInstance : BI.Storable (upEmb : UEmb _ 𝕄) (bigSep Finset.univ fun i : Fin ((K (F := F)).nSub q) => tileA m d (tileOf q c i)))
  dn q d c := (inferInstance : BI.Storable (upEmb : UEmb _ 𝕄) (bigSep Finset.univ fun i : Fin ((K (F := F)).nSub q) => tileB m d (tileOf q c i)))
  go q d c i := (inferInstance : BI.Storable (upEmb : UEmb _ 𝕄) (tileA m d (tileOf q c i)))
  td q d c i := (inferInstance : BI.Storable (upEmb : UEmb _ 𝕄) (tileB m d (tileOf q c i)))

end Cert.Proof.BitsSide

end
-- ==== Proof.TileOblBits.lean ====
/-
  The whole task of a tile and the launch theorem's obligation for it. The task: the zero fill's loop from the
  staging buffer at anything, then the row loop over the tile's four rows from its sixteen chunks as handed over; at
  the end every chunk of the output the tile owns holds the specified function, the scratch buffers and the three
  semaphores go back as they came (the semaphores at zero: every copy was waited for). The obligation is the task at
  the grid coordinates of the call's SparseCore and vector subcore.
-/
import proofs.«212060_g46926812676975_cont_8to1c4_366_19_alg».proof.Proof.TileBits
import proofs.«212060_g46926812676975_cont_8to1c4_366_19_alg».proof.Proof.PayBits

noncomputable section

namespace Cert.Proof.BitsSide

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.LibTrips

variable {F : FTy → Type}

local notation "𝕄" => MT nD τ sig (HIx 1) (Elt F) ℕ UU ℕ

variable (m : (ℓ : Loc nD τ sig) → Buf (Elt F) ℓ)
variable [FloatOps F]

section Task

variable (d : Dev nD) (L : grid0.Coords)

theorem tile_body (hF : (K (F := F)).Facts) (O : CellTallies nD τ sig (HIx 1)) (W : Waits sig (HIx 1)) (hO : ∀ g, O g none = 0) :
    iprop(levAts (K (F := F)).L (K (F := F)).lev ∗ emp ∗ tileA m d L
        ∗ scopedBufs (thrV d L) ∗ scopedSems0 (thrV d L) ∗ owes (thrV d L) O W)
      ⊢ wp frame (wpE (defs₀ (F := F)) 𝒱₀ (thrV d L) none) Set.univ (cc0_sc_k (F := F) L sV (Memref.isWhole_whole _) gV (Memref.isWhole_whole _) oV (Memref.isWhole_whole _) bS (Memref.isWhole_whole _) bG (Memref.isWhole_whole _) bO (Memref.isWhole_whole _) cc0_scoped0 cc0_scoped1 cc0_scoped2)
          fun _ => iprop(tileB m d L ∗ scopedBufs (thrV d L) ∗ scopedSems0 (thrV d L)
            ∗ ∃ W', ⌜∀ p ∈ W', p ∈ W ∨ p.2 = none⌝ ∗ owes (thrV d L) O W') := by
  simp only [cc0_sc_k_eq_skeleton]; unfold cc0_sc_k_skel
  rw [(K (F := F)).scopedBufs_V hF d (cV L) (jV L), SparseCore.Cfg.scopedSems0_V (Val := Elt F) d (cV L) (jV L), ownSems0_V, ownBufs_V]
  iintro ⟨#Hlv, -, HA, ⟨⟨%fs, HbS⟩, ⟨%fg, HbG⟩, ⟨%fo, HbO⟩, Hbufs⟩, ⟨Hc0, Hc1, Hc2, Hsems⟩, HO⟩
  ihave Hmw := ((K (F := F)).mayWaits_none (thr := thrV d L) hO) $$ Hlv
  sl_for (inv1 (F := F) d L) $$ [HbO]
  case region => exact t1_region d L
  · unfold inv1
    iexists fo
    isplitr
    · ipureintro; intro q hq; exact absurd hq (by omega)
    iexact HbO
  iintro %a1 HI
  unfold inv1
  icases HI with ⟨%fz, %hz, HbO⟩
  sl_for (inv2 m d L O W) $$ [Hmw HA HbS HbG HbO Hc0 Hc1 Hc2 HO]
  case region => exact t2_region m d L O W
  · unfold inv2 tileSt
    isplitl [Hmw]; · iexact Hmw
    isplitl [HA]
    · iapply (Entails.of_eq (upTo_zero (rowA m d L) (rowB m d L)).symm)
      iapply (Entails.of_eq (tileA_def m d L))
      iexact HA
    isplitl [HbS]; · iexists _; iexact HbS
    isplitl [HbG]; · iexists _; iexact HbG
    isplitl [HbO]
    · iexists fz
      isplitr
      · ipureintro; exact zeroed_all fz hz
      iexact HbO
    isplitl [Hc0]; · iexact Hc0
    isplitl [Hc1]; · iexact Hc1
    isplitl [Hc2]; · iexact Hc2
    iexists W
    isplitr
    · ipureintro; exact fun p hp => .inl hp
    iexact HO
  iintro %a2 HI
  unfold inv2 tileSt
  icases HI with ⟨-, Hup, ⟨%fS, HbS⟩, ⟨%fG, HbG⟩, ⟨%fO, -, HbO⟩, Hc0, Hc1, Hc2, %W', %hW', HO⟩
  sl_exec
  sl_step
  isplitl [Hup]
  · iapply (Entails.of_eq (tileB_def m d L).symm)
    iapply (Entails.of_eq (upTo_all (rowA m d L) (rowB m d L) (Nat.le_refl _)))
    iexact Hup
  isplitl [HbS HbG HbO Hbufs]
  · isplitl [HbS]; · iexists _; iexact HbS
    isplitl [HbG]; · iexists _; iexact HbG
    isplitl [HbO]; · iexists _; iexact HbO
    iexact Hbufs
  isplitl [Hc0 Hc1 Hc2 Hsems]
  · isplitl [Hc0]; · iexact Hc0
    isplitl [Hc1]; · iexact Hc1
    isplitl [Hc2]; · iexact Hc2
    iexact Hsems
  iexists W'
  isplitr
  · ipureintro; exact hW'
  iexact HO

end Task

/-! ## The launch theorem's obligation -/

theorem defs₀_vector (c : Fin τ.nSC) (s : Fin τ.nSub) :
    defs₀ (F := F) (.scVector c s) 0 ()
      = SparseCore.onTile hcore0 hsub0 (fun c s => cc0_sc_k (F := F) (coordsV c s)
          sV (Memref.isWhole_whole _) gV (Memref.isWhole_whole _) oV (Memref.isWhole_whole _) bS (Memref.isWhole_whole _) bG (Memref.isWhole_whole _) bO (Memref.isWhole_whole _) cc0_scoped0 cc0_scoped1 cc0_scoped2) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) : (K (F := F)).TileObl (D (F := F)) 𝒱 (P m) v₀ 0 := by
  intro d c i O W hO _ _
  -- the tile owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF O W hO).trans (wp_mono frame _ _ fun _ => obl_post)

end Cert.Proof.BitsSide

end
-- ==== Proof.SplitBits.lean ====
/-
  The launch's three arrays dealt to the 32 tiles and gathered back. A chunk — tile (c, j), row trip t2, column trip
  t3 — is row 8·j + 4·c + t2, columns [8192·t3, 8192·t3 + 8192) of an argument array, and the same row and columns
  with both planes of the output array. Rows 0 … 127 are exactly the numbers 8·j + 4·c + t2 with j < 16, c < 2,
  t2 < 4, each once, and the columns 0 … 32767 fall into the four ranges of 8192, each once: so the 512 chunks are
  pairwise disjoint and cover each array, a points-to of a whole array is the separating conjunction of the
  points-to of its chunks, and the conjunction over the product of the four indices is the four nested ones.
-/
import proofs.«212060_g46926812676975_cont_8to1c4_366_19_alg».proof.Proof.CommonBits

noncomputable section

namespace Cert.Proof.BitsSide

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

variable [FloatOps F]

/-! ## The chunks, indexed by one product type -/

/-- A chunk's name: the SparseCore, the vector subcore, the row trip, the column trip. -/
abbrev Chunk : Type := Fin (grid0.bound 0) × Fin (grid0.bound 1) × Fin k0_t2_loop.trips × Fin k0_t3_loop.trips

theorem trips2 : k0_t2_loop.trips = 4 := by decide
theorem trips3 : k0_t3_loop.trips = 4 := by decide

/-- The chunk's rectangle in an argument array: one row, 8192 columns. -/
abbrev rect2 (p : Chunk) : Rect S128x32768 :=
  Rect.unit (s := S128x32768) (k0_off2 (coordsV p.1 p.2.1) p.2.2.1 p.2.2.2) S1x8192.size (k0_off2_inb (coordsV p.1 p.2.1) p.2.2.1 p.2.2.2)
/-- The chunk's rectangle in the output array: one row, both planes, 8192 columns. -/
abbrev rect3 (p : Chunk) : Rect S128x2x32768 :=
  Rect.unit (s := S128x2x32768) (k0_off5 (coordsV p.1 p.2.1) p.2.2.1 p.2.2.2) S1x2x8192.size (k0_off5_inb (coordsV p.1 p.2.1) p.2.2.1 p.2.2.2)

/-- An element lies in a chunk's rectangle when its row is `8·j + 4·c + t2` and its column is in the chunk's 8192. -/
theorem mem_rect2 (p : Chunk) (i : S128x32768.Idx) :
    i ∈ (rect2 p).set ↔ (i 0).val = 8 * p.2.1.val + 4 * p.1.val + p.2.2.1.val
      ∧ 8192 * p.2.2.2.val ≤ (i 1).val ∧ (i 1).val < 8192 * p.2.2.2.val + 8192 := by
  rw [Rect.mem_set_unit, k0_off2_eq, Fin.forall_fin_two]
  show (8 * p.2.1.val + 4 * p.1.val + p.2.2.1.val ≤ (i 0).val ∧ (i 0).val < 8 * p.2.1.val + 4 * p.1.val + p.2.2.1.val + 1)
    ∧ (8192 * p.2.2.2.val ≤ (i 1).val ∧ (i 1).val < 8192 * p.2.2.2.val + 8192) ↔ _
  omega

theorem mem_rect3 (p : Chunk) (i : S128x2x32768.Idx) :
    i ∈ (rect3 p).set ↔ (i 0).val = 8 * p.2.1.val + 4 * p.1.val + p.2.2.1.val
      ∧ 8192 * p.2.2.2.val ≤ (i 2).val ∧ (i 2).val < 8192 * p.2.2.2.val + 8192 := by
  have h1 : (i 1).val < 2 := (i 1).isLt
  rw [Rect.mem_set_unit, k0_off5_eq, Fin.forall_fin_succ, Fin.forall_fin_two]
  show (8 * p.2.1.val + 4 * p.1.val + p.2.2.1.val ≤ (i 0).val ∧ (i 0).val < 8 * p.2.1.val + 4 * p.1.val + p.2.2.1.val + 1)
    ∧ (0 ≤ (i 1).val ∧ (i 1).val < 0 + 2) ∧ (8192 * p.2.2.2.val ≤ (i 2).val ∧ (i 2).val < 8192 * p.2.2.2.val + 8192) ↔ _
  omega

/-- Two chunks that share an element have the same name: the row fixes `j`, `c` and `t2`, the column fixes `t3`. -/
theorem chunk_eq_of_rows {p p' : Chunk} {r k : Nat}
    (h : r = 8 * p.2.1.val + 4 * p.1.val + p.2.2.1.val) (h' : r = 8 * p'.2.1.val + 4 * p'.1.val + p'.2.2.1.val)
    (hk : 8192 * p.2.2.2.val ≤ k ∧ k < 8192 * p.2.2.2.val + 8192) (hk' : 8192 * p'.2.2.2.val ≤ k ∧ k < 8192 * p'.2.2.2.val + 8192) : p = p' := by
  obtain ⟨c, j, t2, t3⟩ := p
  obtain ⟨c', j', t2', t3'⟩ := p'
  have hc : c.val < 2 := c.isLt
  have hc' : c'.val < 2 := c'.isLt
  have ht : t2.val < 4 := trips2 ▸ t2.isLt
  have ht' : t2'.val < 4 := trips2 ▸ t2'.isLt
  simp only at h h' hk hk'
  have e : c.val = c'.val ∧ j.val = j'.val ∧ t2.val = t2'.val ∧ t3.val = t3'.val := by omega
  exact Prod.ext (Fin.ext e.1) (Prod.ext (Fin.ext e.2.1) (Prod.ext (Fin.ext e.2.2.1) (Fin.ext e.2.2.2)))

theorem rect2_disjoint : ∀ p ∈ (Finset.univ : Finset Chunk), ∀ p' ∈ (Finset.univ : Finset Chunk), p ≠ p' →
    Disjoint (rect2 p).set (rect2 p').set := by
  intro p _ p' _ hne
  rw [Finset.disjoint_left]
  intro i hi hi'
  rw [mem_rect2] at hi hi'
  exact hne (chunk_eq_of_rows hi.1 hi'.1 hi.2 hi'.2)

theorem rect3_disjoint : ∀ p ∈ (Finset.univ : Finset Chunk), ∀ p' ∈ (Finset.univ : Finset Chunk), p ≠ p' →
    Disjoint (rect3 p).set (rect3 p').set := by
  intro p _ p' _ hne
  rw [Finset.disjoint_left]
  intro i hi hi'
  rw [mem_rect3] at hi hi'
  exact hne (chunk_eq_of_rows hi.1 hi'.1 hi.2 hi'.2)

/-- The chunk an element of row `r`, column `k` lies in. -/
def chunkOf (r k : Nat) (hr : r < 128) (hk : k < 32768) : Chunk :=
  (⟨r / 4 % 2, by show _ < 2; omega⟩, ⟨r / 8, by show _ < 16; omega⟩, ⟨r % 4, by rw [trips2]; omega⟩, ⟨k / 8192, by rw [trips3]; omega⟩)

theorem rect2_cover : (Finset.univ : Finset Chunk).biUnion (fun p => (rect2 p).set) = Finset.univ := by
  rw [Finset.eq_univ_iff_forall]
  intro i
  have h0 : (i 0).val < 128 := (i 0).isLt
  have h1 : (i 1).val < 32768 := (i 1).isLt
  rw [Finset.mem_biUnion]
  refine ⟨chunkOf (i 0).val (i 1).val h0 h1, Finset.mem_univ _, ?_⟩
  rw [mem_rect2]
  show (i 0).val = 8 * ((i 0).val / 8) + 4 * ((i 0).val / 4 % 2) + (i 0).val % 4
    ∧ 8192 * ((i 1).val / 8192) ≤ (i 1).val ∧ (i 1).val < 8192 * ((i 1).val / 8192) + 8192
  omega

theorem rect3_cover : (Finset.univ : Finset Chunk).biUnion (fun p => (rect3 p).set) = Finset.univ := by
  rw [Finset.eq_univ_iff_forall]
  intro i
  have h0 : (i 0).val < 128 := (i 0).isLt
  have h2 : (i 2).val < 32768 := (i 2).isLt
  rw [Finset.mem_biUnion]
  refine ⟨chunkOf (i 0).val (i 2).val h0 h2, Finset.mem_univ _, ?_⟩
  rw [mem_rect3]
  show (i 0).val = 8 * ((i 0).val / 8) + 4 * ((i 0).val / 4 % 2) + (i 0).val % 4
    ∧ 8192 * ((i 2).val / 8192) ≤ (i 2).val ∧ (i 2).val < 8192 * ((i 2).val / 8192) + 8192
  omega

/-! ## The chunks as the body slices them are these rectangles -/

theorem set_sCh (p : Chunk) : (sCh (coordsV p.1 p.2.1) p.2.2.1 p.2.2.2).view.set = (rect2 p).set := by
  show (((View.whole (main_arg0_scv : Ref sig .scVector)).slice (rect2 p)).reshape S8192 squeezes_S1x8192_S8192.numel_eq).set = _
  rw [View.set_reshape, View.set_slice_whole]
theorem set_gCh (p : Chunk) : (gCh (coordsV p.1 p.2.1) p.2.2.1 p.2.2.2).view.set = (rect2 p).set := by
  show (((View.whole (main_arg1_scv : Ref sig .scVector)).slice (rect2 p)).reshape S8192 squeezes_S1x8192_S8192.numel_eq).set = _
  rw [View.set_reshape, View.set_slice_whole]
theorem set_oCh (p : Chunk) : (oCh (coordsV p.1 p.2.1) p.2.2.1 p.2.2.2).view.set = (rect3 p).set := by
  show (((View.whole (main_v0_scv : Ref sig .scVector)).slice (rect3 p)).reshape S2x8192 squeezes_S1x2x8192_S2x8192.numel_eq).set = _
  rw [View.set_reshape, View.set_slice_whole]

/-! ## Each array is the separating conjunction of its 512 chunks -/

omit [FloatOps F] in
theorem sPts_chunks (d : Dev nD) (f : Buf (Elt F) (sLoc d)) :
    (sLoc d ↦{fullShare} f : sProp 𝕄) = bigSep Finset.univ fun p : Chunk => sLoc d ↦[(rect2 p).set]{fullShare} f := by
  rw [← pointsTo_biUnion Finset.univ (ℓ := sLoc d) (fun p : Chunk => (rect2 p).set) rect2_disjoint, rect2_cover]; try rfl
omit [FloatOps F] in
theorem gPts_chunks (d : Dev nD) (f : Buf (Elt F) (gLoc d)) :
    (gLoc d ↦{fullShare} f : sProp 𝕄) = bigSep Finset.univ fun p : Chunk => gLoc d ↦[(rect2 p).set]{fullShare} f := by
  rw [← pointsTo_biUnion Finset.univ (ℓ := gLoc d) (fun p : Chunk => (rect2 p).set) rect2_disjoint, rect2_cover]; try rfl
omit [FloatOps F] in
theorem oPts_chunks (d : Dev nD) (f : Buf (Elt F) (oLoc d)) :
    (oLoc d ↦{fullShare} f : sProp 𝕄) = bigSep Finset.univ fun p : Chunk => oLoc d ↦[(rect3 p).set]{fullShare} f := by
  rw [← pointsTo_biUnion Finset.univ (ℓ := oLoc d) (fun p : Chunk => (rect3 p).set) rect3_disjoint, rect3_cover]; try rfl

/-! ## The four nested conjunctions as one over the product -/

omit [FloatOps F] in
theorem bigSep_chunks (Φ : Chunk → sProp 𝕄) :
    bigSep Finset.univ Φ = bigSep Finset.univ fun c => bigSep Finset.univ fun j => bigSep Finset.univ fun t2 =>
      bigSep Finset.univ fun t3 => Φ (c, j, t2, t3) := by
  rw [bigSep_univ_prod]; refine bigSep_congr fun c _ => ?_
  rw [bigSep_univ_prod]; refine bigSep_congr fun j _ => ?_
  rw [bigSep_univ_prod]

/-- A chunk's resources before and after, over the rectangles. -/
theorem chA_eq (d : Dev nD) (p : Chunk) :
    chA m d (coordsV p.1 p.2.1) p.2.2.1 p.2.2.2
      = iprop((sLoc d ↦[(rect2 p).set]{fullShare} m (sLoc d)) ∗ (gLoc d ↦[(rect2 p).set]{fullShare} m (gLoc d))
          ∗ ∃ f, oLoc d ↦[(rect3 p).set]{fullShare} f) := by
  unfold chA; rw [set_sCh, set_gCh, set_oCh]
theorem chB_eq (d : Dev nD) (p : Chunk) :
    chB m d (coordsV p.1 p.2.1) p.2.2.1 p.2.2.2
      = iprop((sLoc d ↦[(rect2 p).set]{fullShare} m (sLoc d)) ∗ (gLoc d ↦[(rect2 p).set]{fullShare} m (gLoc d))
          ∗ oLoc d ↦[(rect3 p).set]{fullShare} want m d) := by
  unfold chB; rw [set_sCh, set_gCh, set_oCh]

theorem tilesA_eq (d : Dev nD) :
    (bigSep Finset.univ fun c : Fin (grid0.bound 0) => bigSep Finset.univ fun j : Fin (grid0.bound 1) => tileA m d (coordsV c j))
      = bigSep Finset.univ fun p : Chunk => chA m d (coordsV p.1 p.2.1) p.2.2.1 p.2.2.2 :=
  (bigSep_chunks (F := F) fun p : Chunk => chA m d (coordsV p.1 p.2.1) p.2.2.1 p.2.2.2).symm
theorem tilesB_eq (d : Dev nD) :
    (bigSep Finset.univ fun c : Fin (grid0.bound 0) => bigSep Finset.univ fun j : Fin (grid0.bound 1) => tileB m d (coordsV c j))
      = bigSep Finset.univ fun p : Chunk => chB m d (coordsV p.1 p.2.1) p.2.2.1 p.2.2.2 :=
  (bigSep_chunks (F := F) fun p : Chunk => chB m d (coordsV p.1 p.2.1) p.2.2.1 p.2.2.2).symm

/-! ## The split and the join -/

/-- The launch's three arrays, dealt to the 32 tiles: each tile its sixteen chunks of `s`, of `g` and of the output. -/
theorem split_all (d : Dev nD) :
    (iprop((sLoc d ↦{fullShare} m (sLoc d)) ∗ (gLoc d ↦{fullShare} m (gLoc d)) ∗ ∃ f, oLoc d ↦{fullShare} f) : sProp 𝕄)
      ⊢ bigSep Finset.univ fun c : Fin (grid0.bound 0) => bigSep Finset.univ fun j : Fin (grid0.bound 1) => tileA m d (coordsV c j) := by
  rw [tilesA_eq, bigSep_congr (fun p _ => chA_eq m d p), bigSep_sep', bigSep_sep', ← sPts_chunks, ← gPts_chunks]
  iintro ⟨Hs, Hg, %f, Ho⟩
  isplitl [Hs]; · iexact Hs
  isplitl [Hg]; · iexact Hg
  ihave Ho' := (Entails.of_eq (oPts_chunks (F := F) d f)) $$ Ho
  have hm : (bigSep Finset.univ fun p : Chunk => oLoc d ↦[(rect3 p).set]{fullShare} f : sProp 𝕄)
      ⊢ bigSep Finset.univ fun p : Chunk => iprop(∃ f, oLoc d ↦[(rect3 p).set]{fullShare} f) :=
    bigSep_mono fun p _ => exists_intro (Φ := fun f' : Buf (Elt F) (oLoc d) => (oLoc d ↦[(rect3 p).set]{fullShare} f' : sProp 𝕄)) f
  iapply hm $$ Ho'

/-- The tiles' chunks, the output's at the specified function, joined back into the three arrays. -/
theorem join_all (d : Dev nD) :
    (bigSep Finset.univ fun c : Fin (grid0.bound 0) => bigSep Finset.univ fun j : Fin (grid0.bound 1) => tileB m d (coordsV c j))
      ⊢ (iprop((sLoc d ↦{fullShare} m (sLoc d)) ∗ (gLoc d ↦{fullShare} m (gLoc d)) ∗ oLoc d ↦{fullShare} want m d) : sProp 𝕄) := by
  rw [tilesB_eq, bigSep_congr (fun p _ => chB_eq m d p), bigSep_sep', bigSep_sep', ← sPts_chunks, ← gPts_chunks, ← oPts_chunks]

end Cert.Proof.BitsSide

end
-- ==== Proof.LaunchBits.lean ====
/-
  The launch of the kernel program, given each tile's obligation. On each device the TensorCore holds four arrays:
  `s`, `g`, the kernel's output [128, 2, 32768] and the result [128, 32768, 2]. At the call it deals the first three
  to the 32 tiles, each its sixteen chunks, and takes them back with the output's chunks at the specified function;
  joined, the output holds plane 0 zero and plane 1 the values. The host operation after the call exchanges the last
  two axes, which turns that array into the specified result index by index. So every weakly fair execution
  terminates with the result at the specified array of the arguments' launch contents and the arguments unchanged.
  The handshakes' ghost state is the only one: a tile's copies are local and waited for at once.
-/
import proofs.«212060_g46926812676975_cont_8to1c4_366_19_alg».proof.Proof.PayBits
import proofs.«212060_g46926812676975_cont_8to1c4_366_19_alg».proof.Proof.SplitBits
import Idealize.ShloMosaic.Lib.Pipeline.Value
import Idealize.ShloMosaic.Lib.ValueIdx

noncomputable section

namespace Cert.Proof.BitsSide

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The value: the kernel's array with its last two axes exchanged is the specified result -/

theorem transpose_mid (s g : FVec F Cert.Spec.SIn .f32) (h : S128x2x32768.Transposes [0, 2, 1] S128x32768x2) :
    transpose S128x32768x2 [0, 2, 1] (Cert.Spec.mid s g) h = Cert.Spec.out s g := by
  funext i
  rw [Cert.Spec.out_eq_mid]
  exact transpose_apply _ _ h i (ix3 (i 0) (i 2) (i 1)) (by intro b; fin_cases b <;> rfl)

/-! ## The tasks of one SparseCore: the call's payload for it is already its tiles' -/

theorem vecSplit : (K (F := F)).VecSplit' (P m) 0 := by
  intro d c
  show (bigSep Finset.univ fun i : Fin ((K (F := F)).nSub 0) => tileA m d (tileOf 0 c i))
    ⊢ |={Set.univ}=> iprop((bigSep Finset.univ fun i : Fin ((K (F := F)).nSub 0) => tileA m d (tileOf 0 c i))
      ∗ ((bigSep Finset.univ fun i : Fin ((K (F := F)).nSub 0) => tileB m d (tileOf 0 c i))
          -∗ bigSep Finset.univ fun i : Fin ((K (F := F)).nSub 0) => tileB m d (tileOf 0 c i)))
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

abbrev s' : DevRef τ sig := Proc.devRef .tc (main_arg0 : Ref sig .tc)
abbrev g' : DevRef τ sig := Proc.devRef .tc (main_arg1 : Ref sig .tc)
abbrev o' : DevRef τ sig := Proc.devRef .tc (main_v0 : Ref sig .tc)
abbrev r' : DevRef τ sig := Proc.devRef .tc (main_v1 : Ref sig .tc)
/-- The host operation after the call: the exchange of the last two axes. -/
abbrev opT : HloOp τ sig (Elt F) :=
  StableHlo.unary main_v0 main_v1 ((transpose S128x32768x2 [0, 2, 1] · transposes_S128x2x32768_S128x32768x2_0_2_1) : (⟨S128x2x32768, .f32⟩ : BufTy).Contents (Elt F) → (⟨S128x32768x2, .f32⟩ : BufTy).Contents (Elt F))

/-- The TensorCore's arrays, all unscoped: `s`, `g`, the kernel's output, the result. -/
abbrev S4 : Finset (DevRef τ sig) := {s', g', o', r'}

omit [FloatOps F] in
theorem held_S4 (d : Dev nD) (W : Valuation τ sig (Elt F)) :
    (held (T d) S4 W : sProp 𝕄) = iprop((sLoc d ↦{fullShare} W s') ∗ (gLoc d ↦{fullShare} W g') ∗ (oLoc d ↦{fullShare} W o') ∗ rLoc d ↦{fullShare} W r') := by
  unfold held S4
  rw [SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((sLoc d ↦{fullShare} W main_arg0) ∗ (gLoc d ↦{fullShare} W main_arg1) ∗ (oLoc d ↦{fullShare} W main_v0) ∗ rLoc d ↦{fullShare} W main_v1) := by
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]

/-- The launch valuation; after the call, the kernel's output at the specified function. -/
def V0 (d : Dev nD) : Valuation τ sig (Elt F) := fun b => m (d, b)
def V1 (d : Dev nD) : Valuation τ sig (Elt F) := Function.update (V0 m d) o' (want m d)

theorem V1_s (d : Dev nD) : V1 m d s' = m (sLoc d) := Function.update_of_ne (show s' ≠ o' by decide) _ _
theorem V1_g (d : Dev nD) : V1 m d g' = m (gLoc d) := Function.update_of_ne (show g' ≠ o' by decide) _ _
theorem V1_o (d : Dev nD) : V1 m d o' = want m d := Function.update_self _ _ _
theorem V1_r (d : Dev nD) : V1 m d r' = V0 m d r' := Function.update_of_ne (show r' ≠ o' by decide) _ _

theorem hT : (opT (F := F)).bufs ⊆ S4 := show ({o', r'} : Finset (DevRef τ sig)) ⊆ S4 by decide

/-- After the exchange: `s` and `g` at their launch contents, the kernel's output as it was, the result at the
    specified array. -/
theorem held_after (d : Dev nD) :
    (held (T d) S4 ((opT (F := F)).result (V1 m d)) : sProp 𝕄)
      = iprop((sLoc d ↦{fullShare} m (sLoc d)) ∗ (gLoc d ↦{fullShare} m (gLoc d)) ∗ (oLoc d ↦{fullShare} want m d)
          ∗ rLoc d ↦{fullShare} Cert.Spec.out (F := F) (m (sLoc d)) (m (gLoc d))) := by
  have hr : (opT (F := F)).result (V1 m d) r' = Cert.Spec.out (F := F) (m (sLoc d)) (m (gLoc d)) := by
    refine (StableHlo.unary_result main_v0 main_v1 _ _ _ (V1 m d)).trans ?_
    show transpose S128x32768x2 [0, 2, 1] (V1 m d o') transposes_S128x2x32768_S128x32768x2_0_2_1 = _
    rw [V1_o]
    exact transpose_mid (m (sLoc d)) (m (gLoc d)) _
  rw [held_S4, (opT (F := F)).result_of_not_mem (V1 m d) (b := s') (show s' ∉ ({r'} : Finset (DevRef τ sig)) by decide),
    (opT (F := F)).result_of_not_mem (V1 m d) (b := g') (show g' ∉ ({r'} : Finset (DevRef τ sig)) by decide),
    (opT (F := F)).result_of_not_mem (V1 m d) (b := o') (show o' ∉ ({r'} : Finset (DevRef τ sig)) by decide),
    V1_s, V1_g, V1_o, hr]

/-- What the call takes for the two SparseCores, and what it hands back: every tile's chunks. -/
theorem st0_core (d : Dev nD) (c : Fin ((K (F := F)).nCore 0)) :
    (P m).st 0 d c = bigSep Finset.univ fun j : Fin (grid0.bound 1) => tileA m d (coordsV c j) :=
  (show (P m).st 0 d c = bigSep (Finset.univ : Finset (Fin ((K (F := F)).nSub 0))) fun i => tileA m d (tileOf 0 c i) from rfl).trans
    (bigSep_congr fun j _ => rfl)
theorem dn0_core (d : Dev nD) (c : Fin ((K (F := F)).nCore 0)) :
    (P m).dn 0 d c = bigSep Finset.univ fun j : Fin (grid0.bound 1) => tileB m d (coordsV c j) :=
  (show (P m).dn 0 d c = bigSep (Finset.univ : Finset (Fin ((K (F := F)).nSub 0))) fun i => tileB m d (tileOf 0 c i) from rfl).trans
    (bigSep_congr fun j _ => rfl)
theorem st0_eq (d : Dev nD) : (bigSep Finset.univ fun c : Fin ((K (F := F)).nCore 0) => (P m).st 0 d c)
    = bigSep Finset.univ fun c : Fin (grid0.bound 0) => bigSep Finset.univ fun j : Fin (grid0.bound 1) => tileA m d (coordsV c j) :=
  bigSep_congr fun c _ => st0_core m d c
theorem dn0_eq (d : Dev nD) : (bigSep Finset.univ fun c : Fin ((K (F := F)).nCore 0) => (P m).dn 0 d c)
    = bigSep Finset.univ fun c : Fin (grid0.bound 0) => bigSep Finset.univ fun j : Fin (grid0.bound 1) => tileB m d (coordsV c j) :=
  bigSep_congr fun c _ => dn0_core m d c

/-- What @main leaves the claim: `s` and `g` at their launch contents, the result at the specified array. -/
abbrev FIN (d : Dev nD) : sProp 𝕄 :=
  iprop((sLoc d ↦{fullShare} m (sLoc d)) ∗ (gLoc d ↦{fullShare} m (gLoc d)) ∗ rLoc d ↦{fullShare} Cert.Spec.out (F := F) (m (sLoc d)) (m (gLoc d)))

/-- @main on device `d`'s TensorCore: the call, from the three arrays dealt to the tiles and gathered back; then the
    exchange of the last two axes. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hs, Hg, Ho, Hr⟩, -, -⟩, -⟩
  iapply ((K (F := F)).wp_run (D (F := F)) 𝒱 (EH := EH) (P := P m) κ d 0) $$ [Hst Hs Hg Ho Hb Hr]
  isplitr; · iexact Hctx
  isplitl [Hst]; · iexact Hst
  isplitl [Hs Hg Ho]
  · rw [st0_eq]
    iapply (split_all m d)
    isplitl [Hs]; · iexact Hs
    isplitl [Hg]; · iexact Hg
    iexists _; iexact Ho
  iintro ⟨Hst, Hdn⟩
  ihave Hdn' := (Entails.of_eq (dn0_eq m d)) $$ Hdn
  ihave Hj := (join_all m d) $$ Hdn'
  icases Hj with ⟨Hs, Hg, Ho⟩
  iapply (wp_hlo_within 𝒱 (SparseCore.T d) none Set.univ (op := opT) (S := S4) hT (V := V1 m d)) $$ [Hb Hs Hg Ho Hr]
  · isplitl [Hb]; · iexact Hb
    rw [held_S4, V1_s, V1_g, V1_o, V1_r]
    isplitl [Hs]; · iexact Hs
    isplitl [Hg]; · iexact Hg
    isplitl [Ho]; · iexact Ho
    iexact Hr
  iintro ⟨Hb, Hheld⟩
  ihave Hh := (Entails.of_eq (held_after (F := F) m d)) $$ Hheld
  icases Hh with ⟨Hs, Hg, -, Hr⟩
  rw [wp_ret]; imodintro; imodintro
  isplitl [Hst]; · iexact Hst
  isplitl [Hs]; · iexact Hs
  isplitl [Hg]; · iexact Hg
  iexact Hr

def fq (d : Dev nD) (st : Phys nD τ sig (Elt F)) : Prop :=
  st.mem.mem (rLoc d) = Cert.Spec.out (F := F) (m (sLoc d)) (m (gLoc d)) ∧ st.mem.mem (sLoc d) = m (sLoc d) ∧ st.mem.mem (gLoc d) = m (gLoc d)

theorem hfin (d : Dev nD) (st : Phys nD τ sig (Elt F)) : iprop(FIN m d ∗ SI st) ⊢ (⌜fq m d st⌝ : sProp 𝕄) := by
  iintro ⟨⟨Hs, Hg, Hr⟩, HSI⟩
  ihave H := (persistent_entails_right (SI_pointsTo_agree (st := st) (ℓ := sLoc d) (I := Finset.univ) (q := fullShare) (f := m (sLoc d)))) $$ [HSI Hs]
  · isplitl [HSI] <;> iassumption
  icases H with ⟨%h1, HSI, -⟩
  ihave H := (persistent_entails_right (SI_pointsTo_agree (st := st) (ℓ := gLoc d) (I := Finset.univ) (q := fullShare) (f := m (gLoc d)))) $$ [HSI Hg]
  · isplitl [HSI] <;> iassumption
  icases H with ⟨%h2, HSI, -⟩
  ihave H := (SI_pointsTo_agree (st := st) (ℓ := rLoc d) (I := Finset.univ) (q := fullShare) (f := Cert.Spec.out (F := F) (m (sLoc d)) (m (gLoc d)))) $$ [HSI Hr]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

/-- From any memory with zero counters, given each tile's obligation: every weakly fair execution of the kernel
    program terminates with the result at the specified array of the arguments' launch contents and the arguments
    unchanged. -/
theorem run_main [∀ e, Nonempty (Elt F e)] (hTile : (K (F := F)).TileObl (D (F := F)) 𝒱 (P m) v₀ 0) :
    θ_run (Cert.Kernel.defs (F := F)) (Cert.Kernel.threads (F := F)) ⟨m, fun _ => 0, ρ⟩
      (fun r => ∀ c : Dev nD, r.2.mem (rLoc c) = Cert.Spec.out (F := F) (m (sLoc c)) (m (gLoc c)) ∧ r.2.mem (sLoc c) = m (sLoc c) ∧ r.2.mem (gLoc c) = m (gLoc c)) :=
  SparseCore.Cfg.θ_run_sc (K := K (F := F)) (D := D (F := F)) (𝒱 := 𝒱) (EH := EH) (P := P m) facts v₀
    (fun q hq => match q with | 0 => nomatch hq)
    (fun q _ => match q with | 0 => hTile)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) _ (fun _ h => h)

end Cert.Proof.BitsSide

end
-- ==== Proof.RefRun.lean ====
/-
  The reference program's run and value. @main is a straight line of 20 host operations on two arrays `s`, `g` of
  shape [128, 32768]: it forms `g / 2 + s / 1`, appends a unit axis and repeats it to [128, 32768, 2], multiplies by
  the table `[0, 1]` repeated over the leading axes, and subtracts `½ · ([0, 1] · [0, 1])` repeated likewise. First
  the run: every weakly fair execution terminates with the result buffer at the operations' composed term of the
  arguments' launch contents and the arguments unchanged (for any float instance). Then, at the ideal instance, the
  term read index by index: at last coordinate 0 it is `x · 0 − ½ · (0 · 0) = 0`, at last coordinate 1 it is
  `(g · 2⁻¹ + s · 1⁻¹) · 1 − ½ · (1 · 1) = g · ½ + s − ½`; both hold for every extended real, so no finiteness is
  assumed. That is the specification's array `Cert.Spec.out`.
-/
import proofs.«212060_g46926812676975_cont_8to1c4_366_19_alg».proof.Defs
import proofs.«212060_g46926812676975_cont_8to1c4_366_19_alg».proof.Proof.Gen.ReferenceIdeal
import proofs.«212060_g46926812676975_cont_8to1c4_366_19_alg».proof.Proof.Spec
import Idealize.ShloMosaic.Lib.StableHlo.Run
import Idealize.ShloMosaic.Lib.IdealHost
import Idealize.ShloMosaic.Lib.Pipeline.Value

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

variable {F : FTy → Type} [FloatOps F]

/-- @main's 20 operations, in order. -/
abbrev ops : List (HloOp τ sig (Elt F)) :=
  [ nullary main_cst (fun i => FloatOps.ofBits .f32 (lit0 (S2.rowMajor i))),
    nullary main_cst_0 (constant S_ .f32 0x40000000#32),
    unary main_cst_0 main_v0 (broadcastInDim S128x32768 ![] bcast_S_S128x32768 : (⟨S_, .f32⟩ : BufTy).Contents (Elt F) → (⟨S128x32768, .f32⟩ : BufTy).Contents (Elt F)),
    binary main_arg1 main_v0 main_v1 (Host.divf : (⟨S128x32768, .f32⟩ : BufTy).Contents (Elt F) → (⟨S128x32768, .f32⟩ : BufTy).Contents (Elt F) → (⟨S128x32768, .f32⟩ : BufTy).Contents (Elt F)),
    nullary main_cst_1 (constant S_ .f32 0x3F800000#32),
    unary main_cst_1 main_v2 (broadcastInDim S128x32768 ![] bcast_S_S128x32768 : (⟨S_, .f32⟩ : BufTy).Contents (Elt F) → (⟨S128x32768, .f32⟩ : BufTy).Contents (Elt F)),
    binary main_arg0 main_v2 main_v3 (Host.divf : (⟨S128x32768, .f32⟩ : BufTy).Contents (Elt F) → (⟨S128x32768, .f32⟩ : BufTy).Contents (Elt F) → (⟨S128x32768, .f32⟩ : BufTy).Contents (Elt F)),
    binary main_v1 main_v3 main_v4 (addf : (⟨S128x32768, .f32⟩ : BufTy).Contents (Elt F) → (⟨S128x32768, .f32⟩ : BufTy).Contents (Elt F) → (⟨S128x32768, .f32⟩ : BufTy).Contents (Elt F)),
    unary main_v4 main_v5 (broadcastInDim S128x32768x1 ![0, 1] bcast_S128x32768_S128x32768x1_0_1 : (⟨S128x32768, .f32⟩ : BufTy).Contents (Elt F) → (⟨S128x32768x1, .f32⟩ : BufTy).Contents (Elt F)),
    unary main_cst main_v6 (broadcastInDim S1x1x2 ![2] bcast_S2_S1x1x2_2 : (⟨S2, .f32⟩ : BufTy).Contents (Elt F) → (⟨S1x1x2, .f32⟩ : BufTy).Contents (Elt F)),
    unary main_v5 main_v7 (broadcastInDim S128x32768x2 ![0, 1, 2] bcast_S128x32768x1_S128x32768x2_0_1_2 : (⟨S128x32768x1, .f32⟩ : BufTy).Contents (Elt F) → (⟨S128x32768x2, .f32⟩ : BufTy).Contents (Elt F)),
    unary main_v6 main_v8 (broadcastInDim S128x32768x2 ![0, 1, 2] bcast_S1x1x2_S128x32768x2_0_1_2 : (⟨S1x1x2, .f32⟩ : BufTy).Contents (Elt F) → (⟨S128x32768x2, .f32⟩ : BufTy).Contents (Elt F)),
    binary main_v7 main_v8 main_v9 (mulf : (⟨S128x32768x2, .f32⟩ : BufTy).Contents (Elt F) → (⟨S128x32768x2, .f32⟩ : BufTy).Contents (Elt F) → (⟨S128x32768x2, .f32⟩ : BufTy).Contents (Elt F)),
    binary main_cst main_cst main_v10 (mulf : (⟨S2, .f32⟩ : BufTy).Contents (Elt F) → (⟨S2, .f32⟩ : BufTy).Contents (Elt F) → (⟨S2, .f32⟩ : BufTy).Contents (Elt F)),
    nullary main_cst_2 (constant S_ .f32 0x3F000000#32),
    unary main_cst_2 main_v11 (broadcastInDim S2 ![] bcast_S_S2 : (⟨S_, .f32⟩ : BufTy).Contents (Elt F) → (⟨S2, .f32⟩ : BufTy).Contents (Elt F)),
    binary main_v11 main_v10 main_v12 (mulf : (⟨S2, .f32⟩ : BufTy).Contents (Elt F) → (⟨S2, .f32⟩ : BufTy).Contents (Elt F) → (⟨S2, .f32⟩ : BufTy).Contents (Elt F)),
    unary main_v12 main_v13 (broadcastInDim S1x1x2 ![2] bcast_S2_S1x1x2_2 : (⟨S2, .f32⟩ : BufTy).Contents (Elt F) → (⟨S1x1x2, .f32⟩ : BufTy).Contents (Elt F)),
    unary main_v13 main_v14 (broadcastInDim S128x32768x2 ![0, 1, 2] bcast_S1x1x2_S128x32768x2_0_1_2 : (⟨S1x1x2, .f32⟩ : BufTy).Contents (Elt F) → (⟨S128x32768x2, .f32⟩ : BufTy).Contents (Elt F)),
    binary main_v9 main_v14 main_v15 (subf : (⟨S128x32768x2, .f32⟩ : BufTy).Contents (Elt F) → (⟨S128x32768x2, .f32⟩ : BufTy).Contents (Elt F) → (⟨S128x32768x2, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub ..,
   binary_bufs_sub .., binary_bufs_sub .., unary_bufs_sub .., unary_bufs_sub .., unary_bufs_sub .., unary_bufs_sub ..,
   binary_bufs_sub .., binary_bufs_sub .., nullary_bufs_sub .., unary_bufs_sub .., binary_bufs_sub .., unary_bufs_sub ..,
   unary_bufs_sub .., binary_bufs_sub ..⟩

/-- The two-entry table of the words of 0 and 1, as the float instance reads them. -/
abbrev tbl : FVec F S2 .f32 := fun i => FloatOps.ofBits .f32 (lit0 (S2.rowMajor i))

/-- The composed term of the 20 operations: `(g / 2 + s / 1)` with a unit axis appended and repeated along it,
    times the table repeated over the leading axes, minus `½ · (table · table)` repeated likewise. -/
abbrev term (s g : FVec F S128x32768 .f32) : FVec F S128x32768x2 .f32 :=
  subf
    (mulf
      (broadcastInDim S128x32768x2 ![0, 1, 2] bcast_S128x32768x1_S128x32768x2_0_1_2
        (broadcastInDim S128x32768x1 ![0, 1] bcast_S128x32768_S128x32768x1_0_1
          (addf (Host.divf g (broadcastInDim S128x32768 ![] bcast_S_S128x32768 (constant S_ .f32 0x40000000#32)))
                (Host.divf s (broadcastInDim S128x32768 ![] bcast_S_S128x32768 (constant S_ .f32 0x3F800000#32))))))
      (broadcastInDim S128x32768x2 ![0, 1, 2] bcast_S1x1x2_S128x32768x2_0_1_2 (broadcastInDim S1x1x2 ![2] bcast_S2_S1x1x2_2 tbl)))
    (broadcastInDim S128x32768x2 ![0, 1, 2] bcast_S1x1x2_S128x32768x2_0_1_2
      (broadcastInDim S1x1x2 ![2] bcast_S2_S1x1x2_2
        (mulf (broadcastInDim S2 ![] bcast_S_S2 (constant S_ .f32 0x3F000000#32)) (mulf tbl tbl))))

/-- On every device, for any float values, from any memory with zero counters: every weakly fair execution of
    @main terminates with the result at the operations' composed term of the arguments and the arguments
    unchanged. -/
theorem run_term (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v15) = term (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v15).trans (by after_results; rfl),
      (h c main_arg0).trans (by after_results),
      (h c main_arg1).trans (by after_results)⟩)
    (run_seq scopedRefs_eq scopedSems_eq defs main (fun _ => ops) main_eq (fun _ => ops_sub) m ρ)

/-! ## The broadcasts read at an index -/

section Reads
variable {α : Type}

/-- Repeating an array along a trailing unit axis: the entry at `(a, b, k)` is the operand's at `(a, b, 0)`. -/
theorem bcast_last_apply (v : S128x32768x1.Idx → α) (a : Fin 128) (b : Fin 32768) (k : Fin 2) :
    broadcastInDim S128x32768x2 ![0, 1, 2] bcast_S128x32768x1_S128x32768x2_0_1_2 v (ix3 a b k) = v (ix3 a b 0) :=
  broadcastInDim_apply _ _ v _ (ix3 a b 0) (by intro d; fin_cases d <;> rfl)

/-- Appending a unit axis: the entry at `(a, b, 0)` is the operand's at `(a, b)`. -/
theorem bcast_unit_apply (v : S128x32768.Idx → α) (a : Fin 128) (b : Fin 32768) (z : Fin 1) :
    broadcastInDim S128x32768x1 ![0, 1] bcast_S128x32768_S128x32768x1_0_1 v (ix3 a b z) = v (ix2 a b) :=
  broadcastInDim_apply _ _ v _ (ix2 a b) (by intro d; fin_cases d <;> rfl)

/-- Repeating a `[1, 1, 2]` array over the two leading axes: the entry at `(a, b, k)` is the operand's at `(0, 0, k)`. -/
theorem bcast_lead_apply (v : S1x1x2.Idx → α) (a : Fin 128) (b : Fin 32768) (k : Fin 2) :
    broadcastInDim S128x32768x2 ![0, 1, 2] bcast_S1x1x2_S128x32768x2_0_1_2 v (ix3 a b k) = v (ix3 0 0 k) :=
  broadcastInDim_apply _ _ v _ (ix3 0 0 k) (by intro d; fin_cases d <;> rfl)

/-- A `[2]` array under two leading unit axes: the entry at `(0, 0, k)` is the operand's at `k`. -/
theorem bcast_tbl_apply (v : S2.Idx → α) (x y : Fin 1) (k : Fin 2) :
    broadcastInDim S1x1x2 ![2] bcast_S2_S1x1x2_2 v (ix3 x y k) = v (ix1 k) :=
  broadcastInDim_apply _ _ v _ (ix1 k) (by intro d; fin_cases d; rfl)

end Reads

/-- The table's entries: the word of 0, then the word of 1. -/
theorem tbl_zero : (tbl (F := F)) (ix1 0) = FloatOps.ofBits .f32 0x00000000#32 := rfl
theorem tbl_one : (tbl (F := F)) (ix1 1) = FloatOps.ofBits .f32 0x3F800000#32 := rfl

/-! ## At the ideal instance: the literal words, and the two quotients -/

/-- The word `0x40000000` denotes 2. -/
theorem ofBits_two : Ideal.ofBits .f32 0x40000000#32 = ((2 : ℝ) : EReal) := by
  simp [Ideal.ofBits, Ideal.ieee, -EReal.coe_mul]; norm_num

/-- The word `0x3F000000` denotes the reciprocal of 2. -/
theorem ofBits_half : Ideal.ofBits .f32 0x3F000000#32 = (((2 : ℝ)⁻¹ : ℝ) : EReal) := by
  simp [Ideal.ofBits, Ideal.ieee, -EReal.coe_mul]; norm_num

/-- A quotient by 2 is the product with ½, for every extended real: 2 is not zero, and its inverse is ½. -/
theorem div_two (x : EReal) :
    Ideal.div x (Ideal.ofBits .f32 0x40000000#32) = x * Ideal.ofBits .f32 0x3F000000#32 := by
  rw [ofBits_two, ofBits_half, EReal.coe_inv]
  unfold Ideal.div
  rw [if_neg (EReal.coe_ne_zero.mpr two_ne_zero)]

/-- A quotient by 1 is the dividend, for every extended real. -/
theorem div_one (x : EReal) : Ideal.div x 1 = x := by
  unfold Ideal.div
  rw [if_neg one_ne_zero, inv_one, mul_one]

/-! ## The term read at an index -/

/-- The composed term at `(a, b, k)`: every broadcast read at its one source index. -/
theorem term_apply (s g : FVec Ideal S128x32768 .f32) (a : Fin 128) (b : Fin 32768) (k : Fin 2) :
    term s g (ix3 a b k)
      = (Ideal.div (g (ix2 a b)) (Ideal.ofBits .f32 0x40000000#32)
          + Ideal.div (s (ix2 a b)) (Ideal.ofBits .f32 0x3F800000#32)) * tbl (F := Ideal) (ix1 k)
        - Ideal.ofBits .f32 0x3F000000#32 * (tbl (F := Ideal) (ix1 k) * tbl (F := Ideal) (ix1 k)) := by
  simp only [term, subf_apply, mulf_apply]
  rw [bcast_last_apply, bcast_unit_apply, bcast_lead_apply, bcast_tbl_apply, bcast_lead_apply, bcast_tbl_apply]
  simp only [addf_apply, mulf_apply, hostDivf_apply]
  rw [broadcastInDim_scalar_apply, broadcastInDim_scalar_apply, broadcastInDim_scalar_apply]
  rfl

/-- The composed term is the specification's array: at last coordinate 0 both factors of each product carry the
    zero word, and a product with zero is zero for every extended real; at last coordinate 1 the table's entry is
    one, the quotient by 2 is the product with ½ and the quotient by 1 the dividend. -/
theorem term_eq_out (s g : FVec Ideal S128x32768 .f32) : term s g = Cert.Spec.out s g := by
  funext i
  obtain ⟨a, b, k, rfl⟩ : ∃ a b k, i = ix3 a b k := ⟨i 0, i 1, i 2, eq_ix3 i⟩
  rw [term_apply]
  have hk : k = 0 ∨ k = 1 := by fin_cases k <;> simp
  rcases hk with rfl | rfl
  · have h0 : Cert.Spec.out s g (ix3 a b 0) = Cert.Spec.zero := if_pos rfl
    rw [h0, tbl_zero]
    show _ * Ideal.ofBits .f32 0x00000000#32 - _ * (Ideal.ofBits .f32 0x00000000#32 * Ideal.ofBits .f32 0x00000000#32)
      = Ideal.ofBits .f32 0x00000000#32
    rw [Ideal.ofBits_zero_f32, mul_zero, mul_zero, mul_zero, sub_zero]
  · have h1 : Cert.Spec.out s g (ix3 a b 1) = Cert.Spec.val (s (ix2 a b)) (g (ix2 a b)) := if_neg Nat.one_ne_zero
    rw [h1, tbl_one]
    show _ * Ideal.ofBits .f32 0x3F800000#32 - _ * (Ideal.ofBits .f32 0x3F800000#32 * Ideal.ofBits .f32 0x3F800000#32) = _
    rw [Ideal.ofBits_one_f32, mul_one, mul_one, mul_one, div_two, div_one]
    rfl

/-! ## The run, stated against the specification -/

/-- On every device, at the ideal instance, from any memory with zero counters: every weakly fair execution of
    @main terminates with the result the specification's array of the two arguments' launch contents, and the
    arguments unchanged. -/
theorem run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v15) = Cert.Spec.out (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)) :=
  (θ_run _ _ _).mono (fun _ h c => ⟨(h c).1.trans (term_eq_out _ _), (h c).2⟩) (run_term (F := Ideal) m ρ)

end Cert.ReferenceIdeal.RefValue

end
-- ==== Proof.lean ====
/-
  The certificate's claim. Both programs compute, from arrays `s` and `g` of shape [128, 32768], the array of shape
  [128, 32768, 2] that is 0 at (b, d, 0) and `g(b,d) · ½ + s(b,d) − ½` at (b, d, 1) (`Cert.Spec.out`).
  The kernel does it on the 32 vector subcores of the two SparseCores: tile (c, j) takes rows 8·j + 4·c … + 3, moves
  each row through its own memory in four pieces of 8192 columns, stages plane 0 (zero, filled once) and plane 1 (the
  values) in a two-row buffer and copies the buffer out; the TensorCore then exchanges the last two axes. The run of
  all 35 threads is the launch theorem's, from one proof of a tile's task at a symbolic tile; its post names the
  result array, so each frame is that run with the value dropped and the algebraic claim is its instance over the
  extended reals beside the reference's run. The reference computes (g/2 + s/1)·[0, 1] − ½·[0, 1]²: over the extended
  reals x·0 = 0, x·1 = x, x/2 = x·½ and x/1 = x hold for every x, so the two results are one function and the
  precondition (finite inputs) is not used. The ideal pass rewrote nothing: the ledger is empty.
-/
import proofs.«212060_g46926812676975_cont_8to1c4_366_19_alg».proof.Defs
import proofs.«212060_g46926812676975_cont_8to1c4_366_19_alg».proof.Proof.Gen.Kernel
import proofs.«212060_g46926812676975_cont_8to1c4_366_19_alg».proof.Proof.Gen.Kernel.Skeleton
import proofs.«212060_g46926812676975_cont_8to1c4_366_19_alg».proof.Proof.Gen.KernelIdeal
import proofs.«212060_g46926812676975_cont_8to1c4_366_19_alg».proof.Proof.Gen.KernelIdeal.Skeleton
import proofs.«212060_g46926812676975_cont_8to1c4_366_19_alg».proof.Proof.Gen.ReferenceIdeal
import proofs.«212060_g46926812676975_cont_8to1c4_366_19_alg».proof.Proof.Gen.Pre_finite_inputs
import proofs.«212060_g46926812676975_cont_8to1c4_366_19_alg».proof.Proof.TileOblIdeal
import proofs.«212060_g46926812676975_cont_8to1c4_366_19_alg».proof.Proof.LaunchIdeal
import proofs.«212060_g46926812676975_cont_8to1c4_366_19_alg».proof.Proof.TileOblBits
import proofs.«212060_g46926812676975_cont_8to1c4_366_19_alg».proof.Proof.LaunchBits
import proofs.«212060_g46926812676975_cont_8to1c4_366_19_alg».proof.Proof.RefRun
import Idealize.ShloMosaic.Adequacy
import Idealize.ShloMosaic.Init

noncomputable section

namespace Cert.Proof

open Idealize.ShloMosaic Idealize.SL.Sem

/-- The word-level kernel runs to the end, faults nowhere and leaves `s` and `g` as they were. -/
theorem frame_kernel : Cert.frame_Kernel := fun m ρ _ =>
  (θ_run (Cert.Kernel.defs (F := Bits)) _ _).mono (fun _ h c => (h c).2)
    (BitsSide.run_main (F := Bits) m ρ (BitsSide.tileObl (F := Bits) m BitsSide.facts))

/-- So does the idealized kernel. -/
theorem frame_kernelIdeal : Cert.frame_KernelIdeal := fun m ρ _ =>
  (θ_run (Cert.KernelIdeal.defs (F := Ideal)) _ _).mono (fun _ h c => (h c).2)
    (IdealSide.run_main (F := Ideal) m ρ (IdealSide.tileObl (F := Ideal) m IdealSide.facts))

/-- And the reference. -/
theorem frame_reference : Cert.frame_ReferenceIdeal := fun m ρ _ =>
  (θ_run (Cert.ReferenceIdeal.defs (F := Ideal)) _ _).mono (fun _ h c => (h c).2) (Cert.ReferenceIdeal.RefValue.run m ρ)

/-- From memories agreeing on `s` and `g`, both runs end with the result array at the one function of them. -/
theorem algebraic : Cert.algebraic_KernelIdeal_ReferenceIdeal := by
  intro m ρ m' ρ' _ hagree
  refine ⟨fun c => Cert.Spec.out (F := Ideal) (m (IdealSide.sLoc c)) (m (IdealSide.gLoc c)),
    IdealSide.run_main (F := Ideal) m ρ (IdealSide.tileObl (F := Ideal) m IdealSide.facts), ?_⟩
  refine (θ_run (Cert.ReferenceIdeal.defs (F := Ideal)) _ _).mono (fun _ h c => ⟨(h c).1.trans ?_, (h c).2⟩)
    (Cert.ReferenceIdeal.RefValue.run m' ρ')
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
